-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S128x256 : Shape := ⟨2, ![128, 256]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_arg6 : FVec F S1x128 .f32) (main_arg7 : FVec F S1 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S1x128 .f32 := Host.absf main_arg6
  let main_cst_8 : FVec F S_ .f32 := constant S_ .f32 0x7F800000#32
  let main_v25 : FVec F S1x128 .f32 := broadcastInDim S1x128 ![] bcast_S_S1x128 main_cst_8
  let main_v26 : IVec S1x128 1 := cmpf .olt main_v24 main_v25
  let main_c_9 : IVec S_ 1 := constantI S_ 1 1#1
  let main_v27 : IVec S_ 1 := (fun x v => Host.reduce IntOp.andi x v reducesTo_S1x128_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S8192x256 .f32) (main_arg1 : IVec S8192x8192 32) (main_arg2 : FVec F S128x256 .f32) (main_arg3 : FVec F S128 .f32) (main_arg4 : FVec F S1x128 .f32) (main_arg5 : FVec F S1 .f32) (main_arg6 : FVec F S1x128 .f32) (main_arg7 : FVec F S1 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1x128 .f32 := Host.absf main_arg4
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg5 main_arg6 main_arg7 main_v13 main_v16
-- ==== Kernel.lean ====
abbrev S8192x256 : Shape := ⟨2, ![8192, 256]⟩
abbrev S8192x8192 : Shape := ⟨2, ![8192, 8192]⟩
abbrev S128x256 : Shape := ⟨2, ![128, 256]⟩
abbrev S128 : Shape := ⟨1, ![128]⟩
abbrev S1x128 : Shape := ⟨2, ![1, 128]⟩
abbrev S1 : Shape := ⟨1, ![1]⟩
abbrev S1x1 : Shape := ⟨2, ![1, 1]⟩
abbrev S8192x128 : Shape := ⟨2, ![8192, 128]⟩
abbrev S8192x1 : Shape := ⟨2, ![8192, 1]⟩
abbrev S1024x256 : Shape := ⟨2, ![1024, 256]⟩
abbrev S1024x128 : Shape := ⟨2, ![1024, 128]⟩
abbrev S1024x1 : Shape := ⟨2, ![1024, 1]⟩
abbrev S1024 : Shape := ⟨1, ![1024]⟩
abbrev S1x8192 : Shape := ⟨2, ![1, 8192]⟩
abbrev S1024x1024 : Shape := ⟨2, ![1024, 1024]⟩
abbrev S1x1024 : Shape := ⟨2, ![1, 1024]⟩

abbrev nBuf : Space → Nat
  | .hbm => 16
  | .vmem => 27
  | .smem => 0
  | _ => 0

abbrev bufTy : (tb : Table) → Fin (tcTables nBuf tb) → BufTy
  | .hbm, ⟨0, _⟩ => ⟨S8192x256, .f32⟩
  | .hbm, ⟨1, _⟩ => ⟨S8192x8192, .i32⟩
  | .hbm, ⟨2, _⟩ => ⟨S128x256, .f32⟩
  | .hbm, ⟨3, _⟩ => ⟨S128, .f32⟩
  | .hbm, ⟨4, _⟩ => ⟨S1x128, .f32⟩
  | .hbm, ⟨5, _⟩ => ⟨S1, .f32⟩
  | .hbm, ⟨6, _⟩ => ⟨S1x128, .f32⟩
  | .hbm, ⟨7, _⟩ => ⟨S1, .f32⟩
  | .hbm, ⟨8, _⟩ => ⟨S1x128, .f32⟩
  | .hbm, ⟨9, _⟩ => ⟨S1x1, .f32⟩
  | .hbm, ⟨10, _⟩ => ⟨S1x1, .f32⟩
  | .hbm, ⟨11, _⟩ => ⟨S8192x128, .bf16⟩
  | .hbm, ⟨12, _⟩ => ⟨S8192x1, .f32⟩
  | .hbm, ⟨13, _⟩ => ⟨S8192x1, .f32⟩
  | .hbm, ⟨14, _⟩ => ⟨S1x8192, .f32⟩
  | .hbm, ⟨15, _⟩ => ⟨S8192x128, .f32⟩
  | .local _ .vmem, ⟨0, _⟩ => ⟨S1024x256, .f32⟩
  | .local _ .vmem, ⟨1, _⟩ => ⟨S1024x256, .f32⟩
  | .local _ .vmem, ⟨2, _⟩ => ⟨S128x256, .f32⟩
  | .local _ .vmem, ⟨3, _⟩ => ⟨S1x128, .f32⟩
  | .local _ .vmem, ⟨4, _⟩ => ⟨S1x128, .f32⟩
  | .local _ .vmem, ⟨5, _⟩ => ⟨S1x1, .f32⟩
  | .local _ .vmem, ⟨6, _⟩ => ⟨S1x128, .f32⟩
  | .local _ .vmem, ⟨7, _⟩ => ⟨S1x1, .f32⟩
  | .local _ .vmem, ⟨8, _⟩ => ⟨S1024x128, .bf16⟩
  | .local _ .vmem, ⟨9, _⟩ => ⟨S1024x128, .bf16⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x1024, .i32⟩
  | .local _ .vmem, ⟨15, _⟩ => ⟨S1024x1024, .i32⟩
  | .local _ .vmem, ⟨16, _⟩ => ⟨S1024x1, .f32⟩
  | .local _ .vmem, ⟨17, _⟩ => ⟨S1024x1, .f32⟩
  | .local _ .vmem, ⟨18, _⟩ => ⟨S1x1024, .f32⟩
  | .local _ .vmem, ⟨19, _⟩ => ⟨S1x1024, .f32⟩
  | .local _ .vmem, ⟨20, _⟩ => ⟨S1024x128, .bf16⟩
  | .local _ .vmem, ⟨21, _⟩ => ⟨S1024x128, .bf16⟩
  | .local _ .vmem, ⟨22, _⟩ => ⟨S1024x128, .f32⟩
  | .local _ .vmem, ⟨23, _⟩ => ⟨S1024x128, .f32⟩
  | .local _ .vmem, ⟨24, _⟩ => ⟨S1024x1, .f32⟩
  | .local _ .vmem, ⟨25, _⟩ => ⟨S1024x1, .f32⟩
  | .local _ .vmem, ⟨26, _⟩ => ⟨S1024x128, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_scratch0 : Ref sig .tc := ⟨.vmem, 24, rfl⟩
abbrev cc1_scratch1 : Ref sig .tc := ⟨.vmem, 25, rfl⟩
abbrev cc1_scratch2 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v52 : BitVec 1 := Scalar.cmpi .eq arg1 c7_i32
  let v53 : BitVec 32 := Scalar.extui v52
  let c0_i32_28 : BitVec 32 := 0#32
  let v54 : BitVec 1 := Scalar.cmpi .ne v53 c0_i32_28
  v54

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S128_S1x128 : S128.ShapeCasts S1x128
  shapeCasts_S1_S1x1 : S1.ShapeCasts S1x1
  inb_S1024x256_S1024x256_0_0 : ∀ a, (![0, 0] : Fin 2 → Nat) a + S1024x256.size a ≤ S1024x256.size a
  h_S1024x256 : 0 < S1024x256.numel
  inb_S128x256_S128x256_0_0 : ∀ a, (![0, 0] : Fin 2 → Nat) a + S128x256.size a ≤ S128x256.size a
  h_S128x256 : 0 < S128x256.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  reduces_S1024x128_S1024 : S1024x128.Reduces [1] S1024
  shapeCasts_S1024_S1024x1 : S1024.ShapeCasts S1024x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  packedbf16_S1024x128_S1024x128_0_0 : (Rect.unit (s := S1024x128) ![0, 0] S1024x128.size inb_S1024x128_S1024x128_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S8192x1_S1x8192 : S8192x1.ShapeCasts S1x8192
  shapeCasts_S1024x1_S1024x1 : S1024x1.ShapeCasts S1024x1
  shapeCasts_S1024x128_S1024x128 : S1024x128.ShapeCasts S1024x128
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  broadcasts_S1024x1_S1024x128 : S1024x1.Broadcasts S1024x128
  dot_S1024x256_S128x256_S1024x128_1_1_0_0_n_n_wf : DotDims.WF S1024x256 S128x256 S1024x128 [1] [1] [0] [0] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S8192x128.size a
  hwx0_7 : ∀ i : grid0.Coords, EltTy.bits .bf16 = 32 ∨ (Rect.block (s := S8192x128) S1024x128.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x1.size a ≤ S8192x1.size a
  hwx0_8 : ∀ i : grid0.Coords, EltTy.bits .f32 = 32 ∨ (Rect.block (s := S8192x1) S1024x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x1.size a ≤ S8192x1.size a
  hwx0_9 : ∀ i : grid0.Coords, EltTy.bits .f32 = 32 ∨ (Rect.block (s := S8192x1) S1024x1.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .i32 = 32 ∨ (Rect.block (s := S8192x8192) S1024x1024.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S8192x1.size a
  hwx1_1 : ∀ i : grid1.Coords, EltTy.bits .f32 = 32 ∨ (Rect.block (s := S8192x1) S1024x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x8192.size a
  hwx1_2 : ∀ i : grid1.Coords, EltTy.bits .f32 = 32 ∨ (Rect.block (s := S1x8192) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S8192x128.size a
  hwx1_3 : ∀ i : grid1.Coords, EltTy.bits .bf16 = 32 ∨ (Rect.block (s := S8192x128) S1024x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x128.size a ≤ S8192x128.size a
  hwx1_4 : ∀ i : grid1.Coords, EltTy.bits .f32 = 32 ∨ (Rect.block (s := S8192x128) S1024x128.size (cc1_transform_4 i) (hinb1_4 i)).WholeWords (EltTy.packing .f32)

variable [Facts₀]

def dot_S1024x256_S128x256_S1024x128_1_1_0_0_n_n : DotDims S1024x256 S128x256 S1024x128 where
  lhsContracting := [1]
  rhsContracting := [1]
  lhsNonContracting := [0]
  rhsNonContracting := [0]
  lhsBatch := []
  rhsBatch := []
  wf := dot_S1024x256_S128x256_S1024x128_1_1_0_0_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3_0) S1024x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3_1) S1024x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3_2) S1024x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3_0) S1024x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1024x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S128x256 : Shape := ⟨2, ![128, 256]⟩
abbrev S128 : Shape := ⟨1, ![128]⟩
abbrev S1x128 : Shape := ⟨2, ![1, 128]⟩
abbrev S1 : Shape := ⟨1, ![1]⟩
abbrev S256x128 : Shape := ⟨2, ![256, 128]⟩
abbrev S8192x128 : Shape := ⟨2, ![8192, 128]⟩
abbrev S128x1 : Shape := ⟨2, ![128, 1]⟩
abbrev S8192x1 : Shape := ⟨2, ![8192, 1]⟩
abbrev S1x1 : Shape := ⟨2, ![1, 1]⟩
abbrev S1x8192 : Shape := ⟨2, ![1, 8192]⟩
abbrev S_ : Shape := ⟨0, ![]⟩
abbrev S8192 : Shape := ⟨1, ![8192]⟩

abbrev nBuf : Space → Nat
  | .hbm => 56
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .i32⟩
  | .hbm, ⟨2, _⟩ => ⟨S128x256, .f32⟩
  | .hbm, ⟨3, _⟩ => ⟨S128, .f32⟩
  | .hbm, ⟨4, _⟩ => ⟨S1x128, .f32⟩
  | .hbm, ⟨5, _⟩ => ⟨S1, .f32⟩
  | .hbm, ⟨6, _⟩ => ⟨S1x128, .f32⟩
  | .hbm, ⟨7, _⟩ => ⟨S1, .f32⟩
  | .hbm, ⟨8, _⟩ => ⟨S256x128, .f32⟩
  | .hbm, ⟨9, _⟩ => ⟨S8192x128, .f32⟩
  | .hbm, ⟨10, _⟩ => ⟨S1x128, .f32⟩
  | .hbm, ⟨11, _⟩ => ⟨S8192x128, .f32⟩
  | .hbm, ⟨12, _⟩ => ⟨S8192x128, .f32⟩
  | .hbm, ⟨13, _⟩ => ⟨S128x1, .f32⟩
  | .hbm, ⟨14, _⟩ => ⟨S8192x1, .f32⟩
  | .hbm, ⟨15, _⟩ => ⟨S1x1, .f32⟩
  | .hbm, ⟨16, _⟩ => ⟨S8192x1, .f32⟩
  | .hbm, ⟨17, _⟩ => ⟨S8192x1, .f32⟩
  | .hbm, ⟨18, _⟩ => ⟨S128x1, .f32⟩
  | .hbm, ⟨19, _⟩ => ⟨S8192x1, .f32⟩
  | .hbm, ⟨20, _⟩ => ⟨S1x1, .f32⟩
  | .hbm, ⟨21, _⟩ => ⟨S8192x1, .f32⟩
  | .hbm, ⟨22, _⟩ => ⟨S8192x1, .f32⟩
  | .hbm, ⟨23, _⟩ => ⟨S1x8192, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S_, .i32⟩
  | .hbm, ⟨28, _⟩ => ⟨S8192x8192, .i32⟩
  | .hbm, ⟨29, _⟩ => ⟨S8192x8192, .i1⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S_, .f32⟩
  | .hbm, ⟨35, _⟩ => ⟨S8192x8192, .f32⟩
  | .hbm, ⟨36, _⟩ => ⟨S8192x8192, .i1⟩
  | .hbm, ⟨37, _⟩ => ⟨S_, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S_, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S8192x1, .f32⟩
  | .hbm, ⟨47, _⟩ => ⟨S8192x8192, .f32⟩
  | .hbm, ⟨48, _⟩ => ⟨S8192x8192, .f32⟩
  | .hbm, ⟨49, _⟩ => ⟨S8192x8192, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S8192x8192, .f32⟩
  | .hbm, ⟨54, _⟩ => ⟨S8192x8192, .f32⟩
  | .hbm, ⟨55, _⟩ => ⟨S8192x128, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_call0_v0 : Ref sig .tc := ⟨.hbm, 31, rfl⟩
abbrev main_v21 : Ref sig .tc := ⟨.hbm, 32, rfl⟩
abbrev main_cst_0 : Ref sig .tc := ⟨.hbm, 33, rfl⟩
abbrev main_call1_cst : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v22 : Ref sig .tc := ⟨.hbm, 40, rfl⟩
abbrev main_cst_1 : Ref sig .tc := ⟨.hbm, 41, rfl⟩
abbrev main_v23 : Ref sig .tc := ⟨.hbm, 42, rfl⟩
abbrev main_cst_2 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_3 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]

class Facts₀ : Prop where
  transposes_S128x256_S256x128_1_0 : S128x256.Transposes [1, 0] S256x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  transposes_S1x128_S128x1_1_0 : S1x128.Transposes [1, 0] S128x1
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  dot_S8192x256_S256x128_S8192x128_1_0_0_1_n_n_wf : DotDims.WF S8192x256 S256x128 S8192x128 [1] [0] [0] [1] [] []
  dot_S8192x128_S128x1_S8192x1_1_0_0_1_n_n_wf : DotDims.WF S8192x128 S128x1 S8192x1 [1] [0] [0] [1] [] []
  dot_S8192x8192_S8192x128_S8192x128_1_0_0_1_n_n_wf : DotDims.WF S8192x8192 S8192x128 S8192x128 [1] [0] [0] [1] [] []

variable [Facts₀]

def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.K.Region0.lean ====
/- The projection kernel's region of @main, at a parameter `V` (the TensorCore's buffer contents when the region
   is entered) and at any float instance: each window's block at a grid point, what the body leaves in each output
   window's staging buffer as a function of the input blocks, the body's triple, the pipeline's proof data and the
   body obligation the launch theorems take. The body loads its seven input buffers whole, computes, and stores each
   of its three output buffers whole, so what it leaves in an output buffer is the store's payload. -/
import proofs.«124015_j46024869544127_2_alg».proof.Proof.Gen.Kernel.Launch
import proofs.«124015_j46024869544127_2_alg».proof.Proof.Gen.Kernel.Skeleton
import proofs.«124015_j46024869544127_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! # The projection kernel's region, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block index
    has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): unfetched, the block index
    has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s (`hA`) and whose body leaves the block in place (`hafter`): unfetched, the block index
    has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof
    data whose array is `V`'s (`hA`) and whose body leaves the block in place (`hafter`): unfetched, the block index
    has not moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof
    data whose array is `V`'s (`hA`) and whose body leaves the block in place (`hafter`): unfetched, the block index
    has not moved; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for any proof
    data whose array is `V`'s (`hA`) and whose body leaves the block in place (`hafter`): unfetched, the block index
    has not moved; the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for any proof
    data whose array is `V`'s (`hA`) and whose body leaves the block in place (`hafter`): unfetched, the block index
    has not moved; the window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S1024x256 := Rect.unit (s := S1024x256) ![0, 0] S1024x256.size inb_S1024x256_S1024x256_0_0
abbrev r0_1 : Rect S128x256 := Rect.unit (s := S128x256) ![0, 0] S128x256.size inb_S128x256_S128x256_0_0
abbrev r0_2 : Rect S1x128 := Rect.unit (s := S1x128) ![0, 0] S1x128.size inb_S1x128_S1x128_0_0
abbrev r0_3 : Rect S1x1 := Rect.unit (s := S1x1) ![0, 0] S1x1.size inb_S1x1_S1x1_0_0
abbrev r0_4 : Rect S1024x128 := Rect.unit (s := S1024x128) ![0, 0] S1024x128.size inb_S1024x128_S1024x128_0_0
abbrev r0_5 : Rect S1024x1 := Rect.unit (s := S1024x1) ![0, 0] S1024x1.size inb_S1024x1_S1024x1_0_0

/-- The zero offsets, as the constant function. -/
theorem hz0 : (![0, 0] : Fin 2 → Nat) = fun _ => 0 := funext fun a => by fin_cases a <;> rfl

/-! ## What the body leaves in each output window's buffer -/

/-- Window 7's staging buffer after the body, from the input windows' blocks: its one store as a piece over the
    store's payload. -/
def out0_7 (x0 : Vec F S1024x256 .f32) (x1 : Vec F S128x256 .f32) (x2 : Vec F S1x128 .f32) : Vec F S1024x128 .bf16 :=
  View.canon [⟨r0_4, k0_pay4 (View.ld x0 r0_0) (View.ld x1 r0_1) (View.ld x2 r0_2)⟩]

/-- Its store tiles the buffer (checked by evaluation), so it covers it. -/
theorem cover0_7 (p0 : Vec F S1024x128 .bf16) (y : S1024x128.Idx) :
    ∃ pc ∈ ([⟨r0_4, p0⟩] : List (View.Piece (Elt F) S1024x128 .bf16)), y ∈ pc.1.set :=
  View.cover_of_tiled [⟨r0_4, p0⟩] S1024x128.size (by rfl) y

/-- The one whole-buffer piece read back is the payload, and each whole-buffer load reads its buffer. -/
theorem out0_7_eq (x0 : Vec F S1024x256 .f32) (x1 : Vec F S128x256 .f32) (x2 : Vec F S1x128 .f32) : out0_7 (F := F) x0 x1 x2 = k0_pay4 x0 x1 x2 := by
  unfold out0_7
  rw [View.canon_unit_zero hz0]
  simp only [View.ld_unit_zero (S := S1024x256) hz0, View.ld_unit_zero (S := S128x256) hz0, View.ld_unit_zero (S := S1x128) hz0]

/-- Window 8's staging buffer after the body, from the input windows' blocks: its one store as a piece over the
    store's payload. -/
def out0_8 (x0 : Vec F S1024x256 .f32) (x1 : Vec F S128x256 .f32) (x2 : Vec F S1x128 .f32) (x3 : Vec F S1x128 .f32) (x4 : Vec F S1x1 .f32) : Vec F S1024x1 .f32 :=
  View.canon [⟨r0_5, k0_pay2 (View.ld x0 r0_0) (View.ld x1 r0_1) (View.ld x2 r0_2) (View.ld x3 r0_2) (View.ld x4 r0_3)⟩]

/-- Its store tiles the buffer (checked by evaluation), so it covers it. -/
theorem cover0_8 (p0 : Vec F S1024x1 .f32) (y : S1024x1.Idx) :
    ∃ pc ∈ ([⟨r0_5, p0⟩] : List (View.Piece (Elt F) S1024x1 .f32)), y ∈ pc.1.set :=
  View.cover_of_tiled [⟨r0_5, p0⟩] S1024x1.size (by rfl) y

/-- The one whole-buffer piece read back is the payload, and each whole-buffer load reads its buffer. -/
theorem out0_8_eq (x0 : Vec F S1024x256 .f32) (x1 : Vec F S128x256 .f32) (x2 : Vec F S1x128 .f32) (x3 : Vec F S1x128 .f32) (x4 : Vec F S1x1 .f32) : out0_8 (F := F) x0 x1 x2 x3 x4 = k0_pay2 x0 x1 x2 x3 x4 := by
  unfold out0_8
  rw [View.canon_unit_zero hz0]
  simp only [View.ld_unit_zero (S := S1024x256) hz0, View.ld_unit_zero (S := S128x256) hz0, View.ld_unit_zero (S := S1x128) hz0, View.ld_unit_zero (S := S1x1) hz0]

/-- Window 9's staging buffer after the body, from the input windows' blocks: its one store as a piece over the
    store's payload. -/
def out0_9 (x0 : Vec F S1024x256 .f32) (x1 : Vec F S128x256 .f32) (x2 : Vec F S1x128 .f32) (x5 : Vec F S1x128 .f32) (x6 : Vec F S1x1 .f32) : Vec F S1024x1 .f32 :=
  View.canon [⟨r0_5, k0_pay3 (View.ld x0 r0_0) (View.ld x1 r0_1) (View.ld x2 r0_2) (View.ld x5 r0_2) (View.ld x6 r0_3)⟩]

/-- Its store tiles the buffer (checked by evaluation), so it covers it. -/
theorem cover0_9 (p0 : Vec F S1024x1 .f32) (y : S1024x1.Idx) :
    ∃ pc ∈ ([⟨r0_5, p0⟩] : List (View.Piece (Elt F) S1024x1 .f32)), y ∈ pc.1.set :=
  View.cover_of_tiled [⟨r0_5, p0⟩] S1024x1.size (by rfl) y

/-- The one whole-buffer piece read back is the payload, and each whole-buffer load reads its buffer. -/
theorem out0_9_eq (x0 : Vec F S1024x256 .f32) (x1 : Vec F S128x256 .f32) (x2 : Vec F S1x128 .f32) (x5 : Vec F S1x128 .f32) (x6 : Vec F S1x1 .f32) : out0_9 (F := F) x0 x1 x2 x5 x6 = k0_pay3 x0 x1 x2 x5 x6 := by
  unfold out0_9
  rw [View.canon_unit_zero hz0]
  simp only [View.ld_unit_zero (S := S1024x256) hz0, View.ld_unit_zero (S := S128x256) hz0, View.ld_unit_zero (S := S1x128) hz0, View.ld_unit_zero (S := S1x1) hz0]

/-! ## The body's triple -/

set_option maxHeartbeats 1000000 in
/-- The kernel body on whole staging memrefs, the inputs' at read contents `xW` and the outputs' at anything, runs to
    the continuation holding the inputs' as they were and each output's at `out0_W` of the inputs': the printed
    function is its skeleton, which the symbolic executor runs. -/
theorem sound_kernel0 (c : Dev nD) (E : Set ℕ) (i : grid0.Coords) (arg1 : Memref sig .tc .vmem S1024x256 .f32) (harg1 : arg1.IsWhole) (arg2 : Memref sig .tc .vmem S128x256 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x128 .f32) (harg6 : arg6.IsWhole) (arg7 : Memref sig .tc .vmem S1x1 .f32) (harg7 : arg7.IsWhole) (arg8 : Memref sig .tc .vmem S1024x128 .bf16) (harg8 : arg8.IsWhole) (arg9 : Memref sig .tc .vmem S1024x1 .f32) (harg9 : arg9.IsWhole) (arg10 : Memref sig .tc .vmem S1024x1 .f32) (harg10 : arg10.IsWhole)
    (x0 : Vec F S1024x256 .f32) (x1 : Vec F S128x256 .f32) (x2 : Vec F S1x128 .f32) (x3 : Vec F S1x128 .f32) (x4 : Vec F S1x1 .f32) (x5 : Vec F S1x128 .f32) (x6 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2) ∗ owns (c : Thread nD τ) arg9 fullShare (out0_8 x0 x1 x2 x3 x4) ∗ owns (c : Thread nD τ) arg10 fullShare (out0_9 x0 x1 x2 x5 x6)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  isplitl [H8]
  · iexists _; isplitr
    swap; · iexact H8
    ipureintro
    exact View.read_writes_eq_canon _ _ _ (cover0_8 _)
  iexists _; isplitr
  swap; · iexact H9
  ipureintro
  exact View.read_writes_eq_canon _ _ _ (cover0_9 _)

/-! ## The pipeline's proof data -/

/-- The proof data of the projection kernel's pipeline on core `c`: the arrays as the region finds them (`V`); after
    the body at point `t` each input's buffer at its block and each output's at `out0_W` of the input blocks; the
    invariant is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t)
    | ⟨8, _⟩ => out0_8 (iblk0 V c 0 t) (iblk0 V c 1 t) (iblk0 V c 2 t) (iblk0 V c 3 t) (iblk0 V c 4 t)
    | ⟨9, _⟩ => out0_9 (iblk0 V c 0 t) (iblk0 V c 1 t) (iblk0 V c 2 t) (iblk0 V c 5 t) (iblk0 V c 6 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) := by dsimp only [dat0]
theorem after0_9 (c : Dev nD) (t : Fin cfg0.N) : (dat0 V c).after 9 t = out0_9 (iblk0 V c 0 t) (iblk0 V c 1 t) (iblk0 V c 2 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Hand

end
-- ==== Proof.K.R1Runs.lean ====
/-
  Region 1 (the attention kernel) — what its three per-case runs are stated over.

  The grid has 64 points t = 8·i + j: row block i, column block j. The body branches twice on j: at j = 0 it first
  resets the three scratch buffers (running maximum, running normaliser, running weighted sum); at j = 7 it finally
  divides the weighted sum by the normaliser into the output block. So a point is in one of three cases:
  A (j = 0), B (0 < j < 7), C (j = 7). The output window is idle (neither stored nor written back) in cases A and B.
-/
import proofs.«124015_j46024869544127_2_alg».proof.Proof.Gen.Kernel.Launch
import proofs.«124015_j46024869544127_2_alg».proof.Proof.Gen.Kernel.Skeleton
import proofs.«124015_j46024869544127_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the
    block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, the
    block index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, the
    block index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (unfetched, the
    block index has not moved). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's two branch conditions, decided over the grid -/

/-- The first branch is taken: the column block is the first. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second branch is taken: the column block is the last. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
theorem liveAt1_4_C : ∀ t : Fin cfg1.N, ¬cond1_0 (grid1.coords t) → cond1_1 (grid1.coords t) → cfg1.idle 4 (grid1.coords t) = false := by decide +kernel

/-! ## The memrefs the body is called with -/

/-- One staging buffer of the output window, through which its contents are stated. -/
abbrev VO1_4 : View sig .tc .vmem S1024x128 .f32 := (Memref.whole cc1_stg4_0 : Memref sig .tc .vmem S1024x128 .f32).view
abbrev ms1_0 (t : Fin cfg1.N) : Memref sig .tc .vmem S1024x1024 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x128 .f32 := win1_4.stage (cfg1.slots t 4)
abbrev hs1_4 (t : Fin cfg1.N) : (ms1_4 t).IsWhole := hstage1_4 ((cfg1.slots t 4).cast nbuf1_4)
/-- The three scratch operands: the running maximum, the running normaliser, the running weighted sum. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x128 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x128 .f32 := scM1_2.view

/-- A scoped buffer of the core that this region neither stages nor uses, whole at some contents. -/
abbrev oth (c : Dev nD) (b : Ref sig .tc) : sProp 𝕄 :=
  iprop(∃ f : Buf (Elt F) ((c : Thread nD τ).loc b), ((c : Thread nD τ).loc b) ↦{fullShare} f)

/-- The region's invariant before its first point, with the three scratch operands as memrefs owned at some contents. -/
theorem PhiA1_eq (c : Dev nD) :
    (Pipeline.ΦA spec1 c : sProp 𝕄)
      = iprop(iprop(oth c cc0_stg0_0 ∗ oth c cc0_stg0_1 ∗ oth c cc0_stg1_0 ∗ oth c cc0_stg2_0 ∗ oth c cc0_stg3_0 ∗ oth c cc0_stg4_0 ∗ oth c cc0_stg5_0 ∗ oth c cc0_stg6_0 ∗ oth c cc0_stg7_0 ∗ oth c cc0_stg7_1 ∗ oth c cc0_stg8_0 ∗ oth c cc0_stg8_1 ∗ oth c cc0_stg9_0 ∗ oth c cc0_stg9_1 ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.Kernel.Hand

end
-- ==== Proof.K.Run1A.lean ====
/-
  Region 1, case A: the whole body run once, at the first column block (the scratch buffers are reset first, so they may hold anything when the body starts).
  The run finds, per buffer the body stores into, the list of stored pieces (last first); these lists are the witness.
-/
import proofs.«124015_j46024869544127_2_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output's staging buffer (L4) and in the three scratch buffers (LS0, LS1, LS2) in
    case A, with the proof that on whole staging memrefs holding the four input blocks, the output buffer and the
    scratch buffers as described, the body runs to a continuation that gets the inputs back as they were and every
    stored buffer with its pieces written. -/
noncomputable def kernelRun1_A (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x1024 .i32) (x1 : Vec F S1024x1 .f32) (x2 : Vec F S1x1024 .f32) (x3 : Vec F S1024x128 .bf16) :
    Σ' (L4 : List (View.Piece (Elt F) S1024x128 .f32)) (LS0 : List (View.Piece (Elt F) S1024x1 .f32)) (LS1 : List (View.Piece (Elt F) S1024x1 .f32)), { LS2 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__attn_kernel_eq_skeleton]; unfold cc1__attn_kernel_skel
    repeat (first | (simp only [k1_part1_eq_skeleton]; unfold k1_part1_skel))
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Hand

end
-- ==== Proof.K.Run1B.lean ====
/-
  Region 1, case B: the whole body run once, at a middle column block (the scratch buffers hold what the point before left; the output block is not touched).
  The run finds, per buffer the body stores into, the list of stored pieces (last first); these lists are the witness.
-/
import proofs.«124015_j46024869544127_2_alg».proof.Proof.K.Run1A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output's staging buffer (L4) and in the three scratch buffers (LS0, LS1, LS2) in
    case B, with the proof that on whole staging memrefs holding the four input blocks, the output buffer and the
    scratch buffers as described, the body runs to a continuation that gets the inputs back as they were and every
    stored buffer with its pieces written. -/
noncomputable def kernelRun1_B (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x1024 .i32) (x1 : Vec F S1024x1 .f32) (x2 : Vec F S1x1024 .f32) (x3 : Vec F S1024x128 .bf16)
    (xs0 : Vec F S1024x1 .f32) (xs1 : Vec F S1024x1 .f32) (xs2 : Vec F S1024x128 .f32) :
    Σ' (L4 : List (View.Piece (Elt F) S1024x128 .f32)) (LS0 : List (View.Piece (Elt F) S1024x1 .f32)) (LS1 : List (View.Piece (Elt F) S1024x1 .f32)), { LS2 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__attn_kernel_eq_skeleton]; unfold cc1__attn_kernel_skel
    repeat (first | (simp only [k1_part1_eq_skeleton]; unfold k1_part1_skel))
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Hand

end
-- ==== Proof.K.Run1C.lean ====
/-
  Region 1, case C: the whole body run once, at the last column block (the scratch buffers hold what the point before left; the output block is stored).
  The run finds, per buffer the body stores into, the list of stored pieces (last first); these lists are the witness.
-/
import proofs.«124015_j46024869544127_2_alg».proof.Proof.K.Run1B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output's staging buffer (L4) and in the three scratch buffers (LS0, LS1, LS2) in
    case C, with the proof that on whole staging memrefs holding the four input blocks, the output buffer and the
    scratch buffers as described, the body runs to a continuation that gets the inputs back as they were and every
    stored buffer with its pieces written. -/
noncomputable def kernelRun1_C (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1024 .i32) (x1 : Vec F S1024x1 .f32) (x2 : Vec F S1x1024 .f32) (x3 : Vec F S1024x128 .bf16)
    (xs0 : Vec F S1024x1 .f32) (xs1 : Vec F S1024x1 .f32) (xs2 : Vec F S1024x128 .f32) :
    Σ' (L4 : List (View.Piece (Elt F) S1024x128 .f32)) (LS0 : List (View.Piece (Elt F) S1024x1 .f32)) (LS1 : List (View.Piece (Elt F) S1024x1 .f32)), { LS2 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    repeat (first | (simp only [k1_part1_eq_skeleton]; unfold k1_part1_skel))
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.Kernel.Hand

end
-- ==== Proof.K.Region1.lean ====
/-
  Region 1 (the attention kernel): what the output block and the three scratch buffers hold after each grid point,
  the region's invariant (before point n + 1 the scratch buffers hold what point n left), the pipeline's proof data
  and the body obligation at every point.
-/
import proofs.«124015_j46024869544127_2_alg».proof.Proof.K.Run1C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What case A leaves in the output's staging buffer: its pieces read back (none: the window is idle there and this value is never consulted). -/
def out1_A_4 (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x1024 .i32) (x1 : Vec F S1024x1 .f32) (x2 : Vec F S1x1024 .f32) (x3 : Vec F S1024x128 .bf16) : Vec F S1024x128 .f32 :=
  VO1_4.read (Elt F) (VO1_4.writes (Elt F) VO1_4.junk (kernelRun1_A c i arg2 harg2 arg3 harg3 arg4 harg4 arg5 harg5 arg6 harg6 arg7 harg7 arg8 harg8 arg9 harg9 hc0 hc1 x0 x1 x2 x3).1)

/-- Case A's pieces for scratch 0 cover it. -/
theorem scover1_A_0 (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x1024 .i32) (x1 : Vec F S1024x1 .f32) (x2 : Vec F S1x1024 .f32) (x3 : Vec F S1024x128 .bf16) (y : S1024x1.Idx) :
    ∃ pc ∈ (kernelRun1_A c i arg2 harg2 arg3 harg3 arg4 harg4 arg5 harg5 arg6 harg6 arg7 harg7 arg8 harg8 arg9 harg9 hc0 hc1 x0 x1 x2 x3).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.1 S1024x1.size (by sl_kernel_rfl) y

/-- What case A leaves in scratch 0: its pieces read back. -/
def sout1_A_0 (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x1024 .i32) (x1 : Vec F S1024x1 .f32) (x2 : Vec F S1x1024 .f32) (x3 : Vec F S1024x128 .bf16) : Vec F S1024x1 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3).2.1)

/-- Case A's pieces for scratch 1 cover it. -/
theorem scover1_A_1 (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x1024 .i32) (x1 : Vec F S1024x1 .f32) (x2 : Vec F S1x1024 .f32) (x3 : Vec F S1024x128 .bf16) (y : S1024x1.Idx) :
    ∃ pc ∈ (kernelRun1_A c i arg2 harg2 arg3 harg3 arg4 harg4 arg5 harg5 arg6 harg6 arg7 harg7 arg8 harg8 arg9 harg9 hc0 hc1 x0 x1 x2 x3).2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.1 S1024x1.size (by sl_kernel_rfl) y

/-- What case A leaves in scratch 1: its pieces read back. -/
def sout1_A_1 (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x1024 .i32) (x1 : Vec F S1024x1 .f32) (x2 : Vec F S1x1024 .f32) (x3 : Vec F S1024x128 .bf16) : Vec F S1024x1 .f32 :=
  VS1_1.read (Elt F) (VS1_1.writes (Elt F) VS1_1.junk (kernelRun1_A c i arg2 harg2 arg3 harg3 arg4 harg4 arg5 harg5 arg6 harg6 arg7 harg7 arg8 harg8 arg9 harg9 hc0 hc1 x0 x1 x2 x3).2.2.1)

/-- Case A's pieces for scratch 2 cover it. -/
theorem scover1_A_2 (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x1024 .i32) (x1 : Vec F S1024x1 .f32) (x2 : Vec F S1x1024 .f32) (x3 : Vec F S1024x128 .bf16) (y : S1024x128.Idx) :
    ∃ pc ∈ (kernelRun1_A c i arg2 harg2 arg3 harg3 arg4 harg4 arg5 harg5 arg6 harg6 arg7 harg7 arg8 harg8 arg9 harg9 hc0 hc1 x0 x1 x2 x3).2.2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.2.1 S1024x128.size (by sl_kernel_rfl) y

/-- What case A leaves in scratch 2: its pieces read back. -/
def sout1_A_2 (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x1024 .i32) (x1 : Vec F S1024x1 .f32) (x2 : Vec F S1x1024 .f32) (x3 : Vec F S1024x128 .bf16) : Vec F S1024x128 .f32 :=
  VS1_2.read (Elt F) (VS1_2.writes (Elt F) VS1_2.junk (kernelRun1_A c i arg2 harg2 arg3 harg3 arg4 harg4 arg5 harg5 arg6 harg6 arg7 harg7 arg8 harg8 arg9 harg9 hc0 hc1 x0 x1 x2 x3).2.2.2.1)

/-- What case B leaves in the output's staging buffer: its pieces read back (none: the window is idle there and this value is never consulted). -/
def out1_B_4 (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x1024 .i32) (x1 : Vec F S1024x1 .f32) (x2 : Vec F S1x1024 .f32) (x3 : Vec F S1024x128 .bf16) (xs0 : Vec F S1024x1 .f32) (xs1 : Vec F S1024x1 .f32) (xs2 : Vec F S1024x128 .f32) : Vec F S1024x128 .f32 :=
  VO1_4.read (Elt F) (VO1_4.writes (Elt F) VO1_4.junk (kernelRun1_B c i arg2 harg2 arg3 harg3 arg4 harg4 arg5 harg5 arg6 harg6 arg7 harg7 arg8 harg8 arg9 harg9 hc0 hc1 x0 x1 x2 x3 xs0 xs1 xs2).1)

/-- Case B's pieces for scratch 0 cover it. -/
theorem scover1_B_0 (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x1024 .i32) (x1 : Vec F S1024x1 .f32) (x2 : Vec F S1x1024 .f32) (x3 : Vec F S1024x128 .bf16) (xs0 : Vec F S1024x1 .f32) (xs1 : Vec F S1024x1 .f32) (xs2 : Vec F S1024x128 .f32) (y : S1024x1.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.1 S1024x1.size (by sl_kernel_rfl) y

/-- What case B leaves in scratch 0: its pieces read back. -/
def sout1_B_0 (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x1024 .i32) (x1 : Vec F S1024x1 .f32) (x2 : Vec F S1x1024 .f32) (x3 : Vec F S1024x128 .bf16) (xs0 : Vec F S1024x1 .f32) (xs1 : Vec F S1024x1 .f32) (xs2 : Vec F S1024x128 .f32) : Vec F S1024x1 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 xs0 xs1 xs2).2.1)

/-- Case B's pieces for scratch 1 cover it. -/
theorem scover1_B_1 (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x1024 .i32) (x1 : Vec F S1024x1 .f32) (x2 : Vec F S1x1024 .f32) (x3 : Vec F S1024x128 .bf16) (xs0 : Vec F S1024x1 .f32) (xs1 : Vec F S1024x1 .f32) (xs2 : Vec F S1024x128 .f32) (y : S1024x1.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

/-- What case B leaves in scratch 1: its pieces read back. -/
def sout1_B_1 (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x1024 .i32) (x1 : Vec F S1024x1 .f32) (x2 : Vec F S1x1024 .f32) (x3 : Vec F S1024x128 .bf16) (xs0 : Vec F S1024x1 .f32) (xs1 : Vec F S1024x1 .f32) (xs2 : Vec F S1024x128 .f32) : Vec F S1024x1 .f32 :=
  VS1_1.read (Elt F) (VS1_1.writes (Elt F) VS1_1.junk (kernelRun1_B c i arg2 harg2 arg3 harg3 arg4 harg4 arg5 harg5 arg6 harg6 arg7 harg7 arg8 harg8 arg9 harg9 hc0 hc1 x0 x1 x2 x3 xs0 xs1 xs2).2.2.1)

/-- Case B's pieces for scratch 2 cover it. -/
theorem scover1_B_2 (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x1024 .i32) (x1 : Vec F S1024x1 .f32) (x2 : Vec F S1x1024 .f32) (x3 : Vec F S1024x128 .bf16) (xs0 : Vec F S1024x1 .f32) (xs1 : Vec F S1024x1 .f32) (xs2 : Vec F S1024x128 .f32) (y : S1024x128.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.2.2.1 S1024x128.size (by sl_kernel_rfl) y

/-- What case B leaves in scratch 2: its pieces read back. -/
def sout1_B_2 (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x1024 .i32) (x1 : Vec F S1024x1 .f32) (x2 : Vec F S1x1024 .f32) (x3 : Vec F S1024x128 .bf16) (xs0 : Vec F S1024x1 .f32) (xs1 : Vec F S1024x1 .f32) (xs2 : Vec F S1024x128 .f32) : Vec F S1024x128 .f32 :=
  VS1_2.read (Elt F) (VS1_2.writes (Elt F) VS1_2.junk (kernelRun1_B c i arg2 harg2 arg3 harg3 arg4 harg4 arg5 harg5 arg6 harg6 arg7 harg7 arg8 harg8 arg9 harg9 hc0 hc1 x0 x1 x2 x3 xs0 xs1 xs2).2.2.2.1)

/-- Case C's one store into the output block covers it. -/
theorem cover1_C_4 (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1024 .i32) (x1 : Vec F S1024x1 .f32) (x2 : Vec F S1x1024 .f32) (x3 : Vec F S1024x128 .bf16) (xs0 : Vec F S1024x1 .f32) (xs1 : Vec F S1024x1 .f32) (xs2 : Vec F S1024x128 .f32) (y : S1024x128.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).1 S1024x128.size (by sl_kernel_rfl) y

/-- What case C leaves in the output's staging buffer: its pieces read back. -/
def out1_C_4 (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1024 .i32) (x1 : Vec F S1024x1 .f32) (x2 : Vec F S1x1024 .f32) (x3 : Vec F S1024x128 .bf16) (xs0 : Vec F S1024x1 .f32) (xs1 : Vec F S1024x1 .f32) (xs2 : Vec F S1024x128 .f32) : Vec F S1024x128 .f32 :=
  VO1_4.read (Elt F) (VO1_4.writes (Elt F) VO1_4.junk (kernelRun1_C c i arg2 harg2 arg3 harg3 arg4 harg4 arg5 harg5 arg6 harg6 arg7 harg7 arg8 harg8 arg9 harg9 hc0 hc1 x0 x1 x2 x3 xs0 xs1 xs2).1)

/-- Case C's pieces for scratch 0 cover it. -/
theorem scover1_C_0 (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1024 .i32) (x1 : Vec F S1024x1 .f32) (x2 : Vec F S1x1024 .f32) (x3 : Vec F S1024x128 .bf16) (xs0 : Vec F S1024x1 .f32) (xs1 : Vec F S1024x1 .f32) (xs2 : Vec F S1024x128 .f32) (y : S1024x1.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.1 S1024x1.size (by sl_kernel_rfl) y

/-- What case C leaves in scratch 0: its pieces read back. -/
def sout1_C_0 (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1024 .i32) (x1 : Vec F S1024x1 .f32) (x2 : Vec F S1x1024 .f32) (x3 : Vec F S1024x128 .bf16) (xs0 : Vec F S1024x1 .f32) (xs1 : Vec F S1024x1 .f32) (xs2 : Vec F S1024x128 .f32) : Vec F S1024x1 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 xs0 xs1 xs2).2.1)

/-- Case C's pieces for scratch 1 cover it. -/
theorem scover1_C_1 (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1024 .i32) (x1 : Vec F S1024x1 .f32) (x2 : Vec F S1x1024 .f32) (x3 : Vec F S1024x128 .bf16) (xs0 : Vec F S1024x1 .f32) (xs1 : Vec F S1024x1 .f32) (xs2 : Vec F S1024x128 .f32) (y : S1024x1.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

/-- What case C leaves in scratch 1: its pieces read back. -/
def sout1_C_1 (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1024 .i32) (x1 : Vec F S1024x1 .f32) (x2 : Vec F S1x1024 .f32) (x3 : Vec F S1024x128 .bf16) (xs0 : Vec F S1024x1 .f32) (xs1 : Vec F S1024x1 .f32) (xs2 : Vec F S1024x128 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 arg9 harg9 hc0 hc1 x0 x1 x2 x3 xs0 xs1 xs2).2.2.1)

/-- Case C's pieces for scratch 2 cover it. -/
theorem scover1_C_2 (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1024 .i32) (x1 : Vec F S1024x1 .f32) (x2 : Vec F S1x1024 .f32) (x3 : Vec F S1024x128 .bf16) (xs0 : Vec F S1024x1 .f32) (xs1 : Vec F S1024x1 .f32) (xs2 : Vec F S1024x128 .f32) (y : S1024x128.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.2.2.1 S1024x128.size (by sl_kernel_rfl) y

/-- What case C leaves in scratch 2: its pieces read back. -/
def sout1_C_2 (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1024 .i32) (x1 : Vec F S1024x1 .f32) (x2 : Vec F S1x1024 .f32) (x3 : Vec F S1024x128 .bf16) (xs0 : Vec F S1024x1 .f32) (xs1 : Vec F S1024x1 .f32) (xs2 : Vec F S1024x128 .f32) : Vec F S1024x128 .f32 :=
  VS1_2.read (Elt F) (VS1_2.writes (Elt F) VS1_2.junk (kernelRun1_C c i arg2 harg2 arg3 harg3 arg4 harg4 arg5 harg5 arg6 harg6 arg7 harg7 arg8 harg8 arg9 harg9 hc0 hc1 x0 x1 x2 x3 xs0 xs1 xs2).2.2.2.1)

section
variable (V : (c : Dev nD) → (b : Ref sig .tc) → Buf (Elt F) ((c : Thread nD τ).loc b))

/-! ## What the buffers hold after each point -/

/-- After the body at position n: the output's staging buffer, then the running maximum, normaliser and weighted sum.
    The case is read off n modulo 8; cases B and C start from what position n - 1 left in the scratch buffers. -/
def outsAt1 (c : Dev nD) : (n : ℕ) → n < cfg1.N → Vec F S1024x128 .f32 × Vec F S1024x1 .f32 × Vec F S1024x1 .f32 × Vec F S1024x128 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 8 = 0 then
      if h1 : (n + 1) % 8 = 7 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 8 = 7 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2)

theorem outsAt1_A (c : Dev nD) (t : Fin cfg1.N) (h0 : t.val % 8 = 0) (h1 : ¬t.val % 8 = 7) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position n: at the region's entry every scoped buffer the region does not stage at anything; afterwards the
    three scratch buffers at what position n - 1 left in them, the other such buffers at anything. -/
def PhiS1 (c : Dev nD) : (n : ℕ) → n ≤ cfg1.N → sProp 𝕄
  | 0, _ => Pipeline.ΦA spec1 c
  | n + 1, hn => iprop(iprop(oth c cc0_stg0_0 ∗ oth c cc0_stg0_1 ∗ oth c cc0_stg1_0 ∗ oth c cc0_stg2_0 ∗ oth c cc0_stg3_0 ∗ oth c cc0_stg4_0 ∗ oth c cc0_stg5_0 ∗ oth c cc0_stg6_0 ∗ oth c cc0_stg7_0 ∗ oth c cc0_stg7_1 ∗ oth c cc0_stg8_0 ∗ oth c cc0_stg8_1 ∗ oth c cc0_stg9_0 ∗ oth c cc0_stg9_1 ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(oth c cc0_stg0_0 ∗ oth c cc0_stg0_1 ∗ oth c cc0_stg1_0 ∗ oth c cc0_stg2_0 ∗ oth c cc0_stg3_0 ∗ oth c cc0_stg4_0 ∗ oth c cc0_stg5_0 ∗ oth c cc0_stg6_0 ∗ oth c cc0_stg7_0 ∗ oth c cc0_stg7_1 ∗ oth c cc0_stg8_0 ∗ oth c cc0_stg8_1 ∗ oth c cc0_stg9_0 ∗ oth c cc0_stg9_1 ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

theorem PhiS1_pos (c : Dev nD) (n : ℕ) (h : n ≤ cfg1.N) (hz : n ≠ 0) :
    PhiS1 V c n h = iprop(iprop(oth c cc0_stg0_0 ∗ oth c cc0_stg0_1 ∗ oth c cc0_stg1_0 ∗ oth c cc0_stg2_0 ∗ oth c cc0_stg3_0 ∗ oth c cc0_stg4_0 ∗ oth c cc0_stg5_0 ∗ oth c cc0_stg6_0 ∗ oth c cc0_stg7_0 ∗ oth c cc0_stg7_1 ∗ oth c cc0_stg8_0 ∗ oth c cc0_stg8_1 ∗ oth c cc0_stg9_0 ∗ oth c cc0_stg9_1 ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

end

end Cert.Kernel.Hand

end
-- ==== Proof.K.Bounds.lean ====
/-
  The buffer contents at each boundary of the program (launch; after the three reshapes; after the projection
  kernel's region; after the reshape of the second logit half; after the attention kernel's region), folded from the
  launch memory, and the fact that every argument array is the same at all five.
-/
import proofs.«124015_j46024869544127_2_alg».proof.Proof.K.Region0
import proofs.«124015_j46024869544127_2_alg».proof.Proof.K.Region1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched: no reshape and no region writes one -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 0).trans (((dat1 (V3 m ρ) c).arrAt_in 0 rfl _).trans (A_eq1 (V3 m ρ) c 0))
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := (W2_arr m ρ c 3).trans (((dat0 (V1 m ρ) c).arrAt_in 3 rfl _).trans (A_eq0 (V1 m ρ) c 3))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := (W2_arr m ρ c 5).trans (((dat0 (V1 m ρ) c).arrAt_in 5 rfl _).trans (A_eq0 (V1 m ρ) c 5))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

end Cert.Kernel.Hand

end
-- ==== Proof.K.Region1Body.lean ====
/-
  Region 1: the body obligation. At any point the four input buffers hold their blocks; the point's position modulo 8
  says which of the three cases it is in; the invariant hands the body the three scratch buffers at what the point
  before left (at anything before the very first point) and takes them back at this point's contents.
-/
import proofs.«124015_j46024869544127_2_alg».proof.Proof.K.Region1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 8 = 0
  · by_cases h1 : t.val % 8 = 7
    · exfalso; omega
    ·
      rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold sout1_A_0 sout1_A_1 sout1_A_2; (try dsimp only)
      by_cases hz : t.val = 0
      · rw [PhiS1_castSucc V c t, PhiS1_zero V c _ _ hz, PhiA1_eq]
        iintro ⟨⟨⟨Hq0, Hq1, Hq2, Hq3, Hq4, Hq5, Hq6, Hq7, Hq8, Hq9, Hq10, Hq11, Hq12, Hq13, HS0, HS1, HS2⟩, Hg⟩, Hw, ⟨%d0, H0⟩, ⟨%d1, H1⟩, ⟨%d2, H2⟩, ⟨%d3, H3⟩, ⟨%d4, H4⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [Hq0 Hq1 Hq2 Hq3 Hq4 Hq5 Hq6 Hq7 Hq8 Hq9 Hq10 Hq11 Hq12 Hq13 HS0 HS1 HS2 Hg]
        · isplitl [Hq0 Hq1 Hq2 Hq3 Hq4 Hq5 Hq6 Hq7 Hq8 Hq9 Hq10 Hq11 Hq12 Hq13 HS0 HS1 HS2]
          · isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            isplitl [Hq8]; · iexact Hq8
            isplitl [Hq9]; · iexact Hq9
            isplitl [Hq10]; · iexact Hq10
            isplitl [Hq11]; · iexact Hq11
            isplitl [Hq12]; · iexact Hq12
            isplitl [Hq13]; · iexact Hq13
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _ _ _ _)
          iexact Hg
        isplitl [Hw]; · iexact Hw
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨Hq0, Hq1, Hq2, Hq3, Hq4, Hq5, Hq6, Hq7, Hq8, Hq9, Hq10, Hq11, Hq12, Hq13, HS0, HS1, HS2⟩, Hg⟩, Hw, ⟨%d0, H0⟩, ⟨%d1, H1⟩, ⟨%d2, H2⟩, ⟨%d3, H3⟩, ⟨%d4, H4⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [Hq0 Hq1 Hq2 Hq3 Hq4 Hq5 Hq6 Hq7 Hq8 Hq9 Hq10 Hq11 Hq12 Hq13 HS0 HS1 HS2 Hg]
        · isplitl [Hq0 Hq1 Hq2 Hq3 Hq4 Hq5 Hq6 Hq7 Hq8 Hq9 Hq10 Hq11 Hq12 Hq13 HS0 HS1 HS2]
          · isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            isplitl [Hq8]; · iexact Hq8
            isplitl [Hq9]; · iexact Hq9
            isplitl [Hq10]; · iexact Hq10
            isplitl [Hq11]; · iexact Hq11
            isplitl [Hq12]; · iexact Hq12
            isplitl [Hq13]; · iexact Hq13
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _ _ _ _)
          iexact Hg
        isplitl [Hw]; · iexact Hw
        isplitl [H0]; · iexact H0
        isplitl [H1]; · iexact H1
        isplitl [H2]; · iexact H2
        isplitl [H3]; · iexact H3
        iexists _; iexact H4
  · by_cases h1 : t.val % 8 = 7
    ·
      rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold out1_C_4 sout1_C_0 sout1_C_1 sout1_C_2; (try dsimp only)
      by_cases hz : t.val = 0
      · exfalso; omega
      · rw [PhiS1_castSucc V c t, PhiS1_pos V c _ _ hz]
        iintro ⟨⟨⟨Hq0, Hq1, Hq2, Hq3, Hq4, Hq5, Hq6, Hq7, Hq8, Hq9, Hq10, Hq11, Hq12, Hq13, HS0, HS1, HS2⟩, Hg⟩, Hw, ⟨%d0, H0⟩, ⟨%d1, H1⟩, ⟨%d2, H2⟩, ⟨%d3, H3⟩, ⟨%d4, H4⟩⟩
        iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _ _).2.2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        iintro ⟨H0, H1, H2, H3, ⟨%e4, H4⟩, ⟨%es0, HS0⟩, ⟨%es1, HS1⟩, ⟨%es2, HS2⟩⟩
        isplitl [Hq0 Hq1 Hq2 Hq3 Hq4 Hq5 Hq6 Hq7 Hq8 Hq9 Hq10 Hq11 Hq12 Hq13 HS0 HS1 HS2 Hg]
        · isplitl [Hq0 Hq1 Hq2 Hq3 Hq4 Hq5 Hq6 Hq7 Hq8 Hq9 Hq10 Hq11 Hq12 Hq13 HS0 HS1 HS2]
          · isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            isplitl [Hq8]; · iexact Hq8
            isplitl [Hq9]; · iexact Hq9
            isplitl [Hq10]; · iexact Hq10
            isplitl [Hq11]; · iexact Hq11
            isplitl [Hq12]; · iexact Hq12
            isplitl [Hq13]; · iexact Hq13
            isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_C_1 c _ _ _ _ _ _ _ _ _ _ _ _ _ _ _ _ _ _ _ _ _ _ _ _ _ _)
            unfold owns; iexists _; isplitr
            swap; · iexact HS2
            ipureintro; exact View.read_writes_of_cover _ _ _ _ _ (scover1_C_2 c _ _ _ _ _ _ _ _ _ _ _ _ _ _ _ _ _ _ _ _ _ _ _ _ _ _)
          iexact Hg
        isplitl [Hw]; · iexact Hw
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_C_4 c _ _ _ _ _ _ _ _ _ _ _ _ _ _ _ _ _ _ _ _ _ _ _ _ _ _)
    ·
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold sout1_B_0 sout1_B_1 sout1_B_2; (try dsimp only)
      by_cases hz : t.val = 0
      · exfalso; omega
      · rw [PhiS1_castSucc V c t, PhiS1_pos V c _ _ hz]
        iintro ⟨⟨⟨Hq0, Hq1, Hq2, Hq3, Hq4, Hq5, Hq6, Hq7, Hq8, Hq9, Hq10, Hq11, Hq12, Hq13, HS0, HS1, HS2⟩, Hg⟩, Hw, ⟨%d0, H0⟩, ⟨%d1, H1⟩, ⟨%d2, H2⟩, ⟨%d3, H3⟩, ⟨%d4, H4⟩⟩
        iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _ _).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [Hq0 Hq1 Hq2 Hq3 Hq4 Hq5 Hq6 Hq7 Hq8 Hq9 Hq10 Hq11 Hq12 Hq13 HS0 HS1 HS2 Hg]
        · isplitl [Hq0 Hq1 Hq2 Hq3 Hq4 Hq5 Hq6 Hq7 Hq8 Hq9 Hq10 Hq11 Hq12 Hq13 HS0 HS1 HS2]
          · isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            isplitl [Hq8]; · iexact Hq8
            isplitl [Hq9]; · iexact Hq9
            isplitl [Hq10]; · iexact Hq10
            isplitl [Hq11]; · iexact Hq11
            isplitl [Hq12]; · iexact Hq12
            isplitl [Hq13]; · iexact Hq13
            isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_B_1 c _ _ _ _ _ _ _ _ _ _ _ _ _ _ _ _ _ _ _ _ _ _ _ _ _ _)
            unfold owns; iexists _; isplitr
            swap; · iexact HS2
            ipureintro; exact View.read_writes_of_cover _ _ _ _ _ (scover1_B_2 c _ _ _ _ _ _ _ _ _ _ _ _ _ _ _ _ _ _ _ _ _ _ _ _ _ _)
          iexact Hg
        isplitl [Hw]; · iexact Hw
        isplitl [H0]; · iexact H0
        isplitl [H1]; · iexact H1
        isplitl [H2]; · iexact H2
        isplitl [H3]; · iexact H3
        iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the entry form back: what the scratch buffers hold is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hq0, Hq1, Hq2, Hq3, Hq4, Hq5, Hq6, Hq7, Hq8, Hq9, Hq10, Hq11, Hq12, Hq13, HS0, HS1, HS2⟩, Hg⟩
  isplitl [Hq0 Hq1 Hq2 Hq3 Hq4 Hq5 Hq6 Hq7 Hq8 Hq9 Hq10 Hq11 Hq12 Hq13 HS0 HS1 HS2]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [HS0]; · iexists _; iexact HS0
    isplitl [HS1]; · iexists _; iexact HS1
    iexists _; iexact HS2
  iexact Hg

theorem hout1 (c : Dev nD) : (dat1 V c).Φ (Fin.last cfg1.N) ⊢ Pipeline.ΦA spec1 c :=
  Phi_out1 V c _ (by rw [Fin.val_last]; have : cfg1.N = 64 := N_1; omega)

end

end Cert.Kernel.Hand

end
-- ==== Proof.K.MainRun.lean ====
/-
  The whole program's run: two kernel regions among three reshapes before the first and one between them.
  The buffer contents at each boundary are folded from the launch memory; each region is a segment entered from one
  boundary's contents and left at the next; the run ends with every unscoped buffer at the last boundary's contents,
  which gives at once that the eight argument arrays end as launched and what the result array holds.
-/
import proofs.«124015_j46024869544127_2_alg».proof.Proof.K.Bounds
import proofs.«124015_j46024869544127_2_alg».proof.Proof.K.Region1Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem ops0_fresh : (hostOps0 : List (HloOp τ sig (Elt F))).Forall fun op => op.fresh = ∅ := by
  simp only [List.Forall]; repeat' constructor
theorem ops1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection kernel's region: entered from the contents after the three reshapes, left with its three result
    arrays at what its write-backs leave. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention kernel's region: entered from the contents after the reshape of the second logit half, left with
    the result array at what its write-backs leave. Its invariant carries the three scratch buffers' contents from
    point to point; at the region's two ends it is the plain "every scoped buffer it does not stage at anything". -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m ρ 1 c).Φ 0 from hin1 (V3 m ρ) c)
    unfold Pipeline.ΦA
    iintro ⟨Hp, -, Hr⟩
    isplitl [Hr]; · iexact Hr
    iexact Hp
  hout c := by
    refine BIBase.Entails.trans (show (pdats m ρ 1 c).Φ (Fin.last _) ⊢ Pipeline.ΦA spec1 c from hout1 (V3 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub ops0_fresh (W0 m ρ)),
    .region (reg0 m ρ),
    .host (hseg hostOps1 hostOps1_sub ops1_fresh (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting; the
    result array ends at what the second region's write-backs leave, and the eight argument arrays end as launched. -/
theorem run_all : θ_run defs (onTc (τ := τ) (main (F := F))) ⟨m, fun _ => 0, ρ⟩ (fun r => ∀ c : Dev nD,
      r.2.mem ((c.tc : Thread nD τ).loc main_v5) = (dat1 (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v5 (by decide))).trans (W4_arr m ρ c 4),
        (h c _ (mem_uc main_arg0 (by decide))).trans (W4_main_arg0 m ρ c),
        (h c _ (mem_uc main_arg1 (by decide))).trans (W4_main_arg1 m ρ c),
        (h c _ (mem_uc main_arg2 (by decide))).trans (W4_main_arg2 m ρ c),
        (h c _ (mem_uc main_arg3 (by decide))).trans (W4_main_arg3 m ρ c),
        (h c _ (mem_uc main_arg4 (by decide))).trans (W4_main_arg4 m ρ c),
        (h c _ (mem_uc main_arg5 (by decide))).trans (W4_main_arg5 m ρ c),
        (h c _ (mem_uc main_arg6 (by decide))).trans (W4_main_arg6 m ρ c),
        (h c _ (mem_uc main_arg7 (by decide))).trans (W4_main_arg7 m ρ c)⟩)

end Cert.Kernel.Hand

end
-- ==== Proof.KI.Region0.lean ====
/- The projection kernel's region of @main, at a parameter `V` (the TensorCore's buffer contents when the region
   is entered) and at any float instance: each window's block at a grid point, what the body leaves in each output
   window's staging buffer as a function of the input blocks, the body's triple, the pipeline's proof data and the
   body obligation the launch theorems take. The body loads its seven input buffers whole, computes, and stores each
   of its three output buffers whole, so what it leaves in an output buffer is the store's payload. -/
import proofs.«124015_j46024869544127_2_alg».proof.Proof.Gen.KernelIdeal.Launch
import proofs.«124015_j46024869544127_2_alg».proof.Proof.Gen.KernelIdeal.Skeleton
import proofs.«124015_j46024869544127_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! # The projection kernel's region, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block index
    has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): unfetched, the block index
    has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s (`hA`) and whose body leaves the block in place (`hafter`): unfetched, the block index
    has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof
    data whose array is `V`'s (`hA`) and whose body leaves the block in place (`hafter`): unfetched, the block index
    has not moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof
    data whose array is `V`'s (`hA`) and whose body leaves the block in place (`hafter`): unfetched, the block index
    has not moved; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for any proof
    data whose array is `V`'s (`hA`) and whose body leaves the block in place (`hafter`): unfetched, the block index
    has not moved; the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for any proof
    data whose array is `V`'s (`hA`) and whose body leaves the block in place (`hafter`): unfetched, the block index
    has not moved; the window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S1024x256 := Rect.unit (s := S1024x256) ![0, 0] S1024x256.size inb_S1024x256_S1024x256_0_0
abbrev r0_1 : Rect S128x256 := Rect.unit (s := S128x256) ![0, 0] S128x256.size inb_S128x256_S128x256_0_0
abbrev r0_2 : Rect S1x128 := Rect.unit (s := S1x128) ![0, 0] S1x128.size inb_S1x128_S1x128_0_0
abbrev r0_3 : Rect S1x1 := Rect.unit (s := S1x1) ![0, 0] S1x1.size inb_S1x1_S1x1_0_0
abbrev r0_4 : Rect S1024x128 := Rect.unit (s := S1024x128) ![0, 0] S1024x128.size inb_S1024x128_S1024x128_0_0
abbrev r0_5 : Rect S1024x1 := Rect.unit (s := S1024x1) ![0, 0] S1024x1.size inb_S1024x1_S1024x1_0_0

/-- The zero offsets, as the constant function. -/
theorem hz0 : (![0, 0] : Fin 2 → Nat) = fun _ => 0 := funext fun a => by fin_cases a <;> rfl

/-! ## What the body leaves in each output window's buffer -/

/-- Window 7's staging buffer after the body, from the input windows' blocks: its one store as a piece over the
    store's payload. -/
def out0_7 (x0 : Vec F S1024x256 .f32) (x1 : Vec F S128x256 .f32) (x2 : Vec F S1x128 .f32) : Vec F S1024x128 .bf16 :=
  View.canon [⟨r0_4, k0_pay4 (View.ld x0 r0_0) (View.ld x1 r0_1) (View.ld x2 r0_2)⟩]

/-- Its store tiles the buffer (checked by evaluation), so it covers it. -/
theorem cover0_7 (p0 : Vec F S1024x128 .bf16) (y : S1024x128.Idx) :
    ∃ pc ∈ ([⟨r0_4, p0⟩] : List (View.Piece (Elt F) S1024x128 .bf16)), y ∈ pc.1.set :=
  View.cover_of_tiled [⟨r0_4, p0⟩] S1024x128.size (by rfl) y

/-- The one whole-buffer piece read back is the payload, and each whole-buffer load reads its buffer. -/
theorem out0_7_eq (x0 : Vec F S1024x256 .f32) (x1 : Vec F S128x256 .f32) (x2 : Vec F S1x128 .f32) : out0_7 (F := F) x0 x1 x2 = k0_pay4 x0 x1 x2 := by
  unfold out0_7
  rw [View.canon_unit_zero hz0]
  simp only [View.ld_unit_zero (S := S1024x256) hz0, View.ld_unit_zero (S := S128x256) hz0, View.ld_unit_zero (S := S1x128) hz0]

/-- Window 8's staging buffer after the body, from the input windows' blocks: its one store as a piece over the
    store's payload. -/
def out0_8 (x0 : Vec F S1024x256 .f32) (x1 : Vec F S128x256 .f32) (x2 : Vec F S1x128 .f32) (x3 : Vec F S1x128 .f32) (x4 : Vec F S1x1 .f32) : Vec F S1024x1 .f32 :=
  View.canon [⟨r0_5, k0_pay2 (View.ld x0 r0_0) (View.ld x1 r0_1) (View.ld x2 r0_2) (View.ld x3 r0_2) (View.ld x4 r0_3)⟩]

/-- Its store tiles the buffer (checked by evaluation), so it covers it. -/
theorem cover0_8 (p0 : Vec F S1024x1 .f32) (y : S1024x1.Idx) :
    ∃ pc ∈ ([⟨r0_5, p0⟩] : List (View.Piece (Elt F) S1024x1 .f32)), y ∈ pc.1.set :=
  View.cover_of_tiled [⟨r0_5, p0⟩] S1024x1.size (by rfl) y

/-- The one whole-buffer piece read back is the payload, and each whole-buffer load reads its buffer. -/
theorem out0_8_eq (x0 : Vec F S1024x256 .f32) (x1 : Vec F S128x256 .f32) (x2 : Vec F S1x128 .f32) (x3 : Vec F S1x128 .f32) (x4 : Vec F S1x1 .f32) : out0_8 (F := F) x0 x1 x2 x3 x4 = k0_pay2 x0 x1 x2 x3 x4 := by
  unfold out0_8
  rw [View.canon_unit_zero hz0]
  simp only [View.ld_unit_zero (S := S1024x256) hz0, View.ld_unit_zero (S := S128x256) hz0, View.ld_unit_zero (S := S1x128) hz0, View.ld_unit_zero (S := S1x1) hz0]

/-- Window 9's staging buffer after the body, from the input windows' blocks: its one store as a piece over the
    store's payload. -/
def out0_9 (x0 : Vec F S1024x256 .f32) (x1 : Vec F S128x256 .f32) (x2 : Vec F S1x128 .f32) (x5 : Vec F S1x128 .f32) (x6 : Vec F S1x1 .f32) : Vec F S1024x1 .f32 :=
  View.canon [⟨r0_5, k0_pay3 (View.ld x0 r0_0) (View.ld x1 r0_1) (View.ld x2 r0_2) (View.ld x5 r0_2) (View.ld x6 r0_3)⟩]

/-- Its store tiles the buffer (checked by evaluation), so it covers it. -/
theorem cover0_9 (p0 : Vec F S1024x1 .f32) (y : S1024x1.Idx) :
    ∃ pc ∈ ([⟨r0_5, p0⟩] : List (View.Piece (Elt F) S1024x1 .f32)), y ∈ pc.1.set :=
  View.cover_of_tiled [⟨r0_5, p0⟩] S1024x1.size (by rfl) y

/-- The one whole-buffer piece read back is the payload, and each whole-buffer load reads its buffer. -/
theorem out0_9_eq (x0 : Vec F S1024x256 .f32) (x1 : Vec F S128x256 .f32) (x2 : Vec F S1x128 .f32) (x5 : Vec F S1x128 .f32) (x6 : Vec F S1x1 .f32) : out0_9 (F := F) x0 x1 x2 x5 x6 = k0_pay3 x0 x1 x2 x5 x6 := by
  unfold out0_9
  rw [View.canon_unit_zero hz0]
  simp only [View.ld_unit_zero (S := S1024x256) hz0, View.ld_unit_zero (S := S128x256) hz0, View.ld_unit_zero (S := S1x128) hz0, View.ld_unit_zero (S := S1x1) hz0]

/-! ## The body's triple -/

set_option maxHeartbeats 1000000 in
/-- The kernel body on whole staging memrefs, the inputs' at read contents `xW` and the outputs' at anything, runs to
    the continuation holding the inputs' as they were and each output's at `out0_W` of the inputs': the printed
    function is its skeleton, which the symbolic executor runs. -/
theorem sound_kernel0 (c : Dev nD) (E : Set ℕ) (i : grid0.Coords) (arg1 : Memref sig .tc .vmem S1024x256 .f32) (harg1 : arg1.IsWhole) (arg2 : Memref sig .tc .vmem S128x256 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x128 .f32) (harg6 : arg6.IsWhole) (arg7 : Memref sig .tc .vmem S1x1 .f32) (harg7 : arg7.IsWhole) (arg8 : Memref sig .tc .vmem S1024x128 .bf16) (harg8 : arg8.IsWhole) (arg9 : Memref sig .tc .vmem S1024x1 .f32) (harg9 : arg9.IsWhole) (arg10 : Memref sig .tc .vmem S1024x1 .f32) (harg10 : arg10.IsWhole)
    (x0 : Vec F S1024x256 .f32) (x1 : Vec F S128x256 .f32) (x2 : Vec F S1x128 .f32) (x3 : Vec F S1x128 .f32) (x4 : Vec F S1x1 .f32) (x5 : Vec F S1x128 .f32) (x6 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2) ∗ owns (c : Thread nD τ) arg9 fullShare (out0_8 x0 x1 x2 x3 x4) ∗ owns (c : Thread nD τ) arg10 fullShare (out0_9 x0 x1 x2 x5 x6)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  isplitl [H8]
  · iexists _; isplitr
    swap; · iexact H8
    ipureintro
    exact View.read_writes_eq_canon _ _ _ (cover0_8 _)
  iexists _; isplitr
  swap; · iexact H9
  ipureintro
  exact View.read_writes_eq_canon _ _ _ (cover0_9 _)

/-! ## The pipeline's proof data -/

/-- The proof data of the projection kernel's pipeline on core `c`: the arrays as the region finds them (`V`); after
    the body at point `t` each input's buffer at its block and each output's at `out0_W` of the input blocks; the
    invariant is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t)
    | ⟨8, _⟩ => out0_8 (iblk0 V c 0 t) (iblk0 V c 1 t) (iblk0 V c 2 t) (iblk0 V c 3 t) (iblk0 V c 4 t)
    | ⟨9, _⟩ => out0_9 (iblk0 V c 0 t) (iblk0 V c 1 t) (iblk0 V c 2 t) (iblk0 V c 5 t) (iblk0 V c 6 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) := by dsimp only [dat0]
theorem after0_9 (c : Dev nD) (t : Fin cfg0.N) : (dat0 V c).after 9 t = out0_9 (iblk0 V c 0 t) (iblk0 V c 1 t) (iblk0 V c 2 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Hand

end
-- ==== Proof.KI.R1Runs.lean ====
/-
  Region 1 (the attention kernel) — what its three per-case runs are stated over.

  The grid has 64 points t = 8·i + j: row block i, column block j. The body branches twice on j: at j = 0 it first
  resets the three scratch buffers (running maximum, running normaliser, running weighted sum); at j = 7 it finally
  divides the weighted sum by the normaliser into the output block. So a point is in one of three cases:
  A (j = 0), B (0 < j < 7), C (j = 7). The output window is idle (neither stored nor written back) in cases A and B.
-/
import proofs.«124015_j46024869544127_2_alg».proof.Proof.Gen.KernelIdeal.Launch
import proofs.«124015_j46024869544127_2_alg».proof.Proof.Gen.KernelIdeal.Skeleton
import proofs.«124015_j46024869544127_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the
    block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, the
    block index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, the
    block index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (unfetched, the
    block index has not moved). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's two branch conditions, decided over the grid -/

/-- The first branch is taken: the column block is the first. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second branch is taken: the column block is the last. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
theorem liveAt1_4_C : ∀ t : Fin cfg1.N, ¬cond1_0 (grid1.coords t) → cond1_1 (grid1.coords t) → cfg1.idle 4 (grid1.coords t) = false := by decide +kernel

/-! ## The memrefs the body is called with -/

/-- One staging buffer of the output window, through which its contents are stated. -/
abbrev VO1_4 : View sig .tc .vmem S1024x128 .f32 := (Memref.whole cc1_stg4_0 : Memref sig .tc .vmem S1024x128 .f32).view
abbrev ms1_0 (t : Fin cfg1.N) : Memref sig .tc .vmem S1024x1024 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x128 .f32 := win1_4.stage (cfg1.slots t 4)
abbrev hs1_4 (t : Fin cfg1.N) : (ms1_4 t).IsWhole := hstage1_4 ((cfg1.slots t 4).cast nbuf1_4)
/-- The three scratch operands: the running maximum, the running normaliser, the running weighted sum. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x128 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x128 .f32 := scM1_2.view

/-- A scoped buffer of the core that this region neither stages nor uses, whole at some contents. -/
abbrev oth (c : Dev nD) (b : Ref sig .tc) : sProp 𝕄 :=
  iprop(∃ f : Buf (Elt F) ((c : Thread nD τ).loc b), ((c : Thread nD τ).loc b) ↦{fullShare} f)

/-- The region's invariant before its first point, with the three scratch operands as memrefs owned at some contents. -/
theorem PhiA1_eq (c : Dev nD) :
    (Pipeline.ΦA spec1 c : sProp 𝕄)
      = iprop(iprop(oth c cc0_stg0_0 ∗ oth c cc0_stg0_1 ∗ oth c cc0_stg1_0 ∗ oth c cc0_stg2_0 ∗ oth c cc0_stg3_0 ∗ oth c cc0_stg4_0 ∗ oth c cc0_stg5_0 ∗ oth c cc0_stg6_0 ∗ oth c cc0_stg7_0 ∗ oth c cc0_stg7_1 ∗ oth c cc0_stg8_0 ∗ oth c cc0_stg8_1 ∗ oth c cc0_stg9_0 ∗ oth c cc0_stg9_1 ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.KernelIdeal.Hand

end
-- ==== Proof.KI.Run1A.lean ====
/-
  Region 1, case A: the whole body run once, at the first column block (the scratch buffers are reset first, so they may hold anything when the body starts).
  The run finds, per buffer the body stores into, the list of stored pieces (last first); these lists are the witness.
-/
import proofs.«124015_j46024869544127_2_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output's staging buffer (L4) and in the three scratch buffers (LS0, LS1, LS2) in
    case A, with the proof that on whole staging memrefs holding the four input blocks, the output buffer and the
    scratch buffers as described, the body runs to a continuation that gets the inputs back as they were and every
    stored buffer with its pieces written. -/
noncomputable def kernelRun1_A (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x1024 .i32) (x1 : Vec F S1024x1 .f32) (x2 : Vec F S1x1024 .f32) (x3 : Vec F S1024x128 .bf16) :
    Σ' (L4 : List (View.Piece (Elt F) S1024x128 .f32)) (LS0 : List (View.Piece (Elt F) S1024x1 .f32)) (LS1 : List (View.Piece (Elt F) S1024x1 .f32)), { LS2 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__attn_kernel_eq_skeleton]; unfold cc1__attn_kernel_skel
    repeat (first | (simp only [k1_part1_eq_skeleton]; unfold k1_part1_skel))
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Hand

end
-- ==== Proof.KI.Run1B.lean ====
/-
  Region 1, case B: the whole body run once, at a middle column block (the scratch buffers hold what the point before left; the output block is not touched).
  The run finds, per buffer the body stores into, the list of stored pieces (last first); these lists are the witness.
-/
import proofs.«124015_j46024869544127_2_alg».proof.Proof.KI.Run1A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output's staging buffer (L4) and in the three scratch buffers (LS0, LS1, LS2) in
    case B, with the proof that on whole staging memrefs holding the four input blocks, the output buffer and the
    scratch buffers as described, the body runs to a continuation that gets the inputs back as they were and every
    stored buffer with its pieces written. -/
noncomputable def kernelRun1_B (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x1024 .i32) (x1 : Vec F S1024x1 .f32) (x2 : Vec F S1x1024 .f32) (x3 : Vec F S1024x128 .bf16)
    (xs0 : Vec F S1024x1 .f32) (xs1 : Vec F S1024x1 .f32) (xs2 : Vec F S1024x128 .f32) :
    Σ' (L4 : List (View.Piece (Elt F) S1024x128 .f32)) (LS0 : List (View.Piece (Elt F) S1024x1 .f32)) (LS1 : List (View.Piece (Elt F) S1024x1 .f32)), { LS2 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__attn_kernel_eq_skeleton]; unfold cc1__attn_kernel_skel
    repeat (first | (simp only [k1_part1_eq_skeleton]; unfold k1_part1_skel))
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Hand

end
-- ==== Proof.KI.Run1C.lean ====
/-
  Region 1, case C: the whole body run once, at the last column block (the scratch buffers hold what the point before left; the output block is stored).
  The run finds, per buffer the body stores into, the list of stored pieces (last first); these lists are the witness.
-/
import proofs.«124015_j46024869544127_2_alg».proof.Proof.KI.Run1B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output's staging buffer (L4) and in the three scratch buffers (LS0, LS1, LS2) in
    case C, with the proof that on whole staging memrefs holding the four input blocks, the output buffer and the
    scratch buffers as described, the body runs to a continuation that gets the inputs back as they were and every
    stored buffer with its pieces written. -/
noncomputable def kernelRun1_C (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1024 .i32) (x1 : Vec F S1024x1 .f32) (x2 : Vec F S1x1024 .f32) (x3 : Vec F S1024x128 .bf16)
    (xs0 : Vec F S1024x1 .f32) (xs1 : Vec F S1024x1 .f32) (xs2 : Vec F S1024x128 .f32) :
    Σ' (L4 : List (View.Piece (Elt F) S1024x128 .f32)) (LS0 : List (View.Piece (Elt F) S1024x1 .f32)) (LS1 : List (View.Piece (Elt F) S1024x1 .f32)), { LS2 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    repeat (first | (simp only [k1_part1_eq_skeleton]; unfold k1_part1_skel))
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.KernelIdeal.Hand

end
-- ==== Proof.KI.Region1.lean ====
/-
  Region 1 (the attention kernel): what the output block and the three scratch buffers hold after each grid point,
  the region's invariant (before point n + 1 the scratch buffers hold what point n left), the pipeline's proof data
  and the body obligation at every point.
-/
import proofs.«124015_j46024869544127_2_alg».proof.Proof.KI.Run1C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What case A leaves in the output's staging buffer: its pieces read back (none: the window is idle there and this value is never consulted). -/
def out1_A_4 (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x1024 .i32) (x1 : Vec F S1024x1 .f32) (x2 : Vec F S1x1024 .f32) (x3 : Vec F S1024x128 .bf16) : Vec F S1024x128 .f32 :=
  VO1_4.read (Elt F) (VO1_4.writes (Elt F) VO1_4.junk (kernelRun1_A c i arg2 harg2 arg3 harg3 arg4 harg4 arg5 harg5 arg6 harg6 arg7 harg7 arg8 harg8 arg9 harg9 hc0 hc1 x0 x1 x2 x3).1)

/-- Case A's pieces for scratch 0 cover it. -/
theorem scover1_A_0 (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x1024 .i32) (x1 : Vec F S1024x1 .f32) (x2 : Vec F S1x1024 .f32) (x3 : Vec F S1024x128 .bf16) (y : S1024x1.Idx) :
    ∃ pc ∈ (kernelRun1_A c i arg2 harg2 arg3 harg3 arg4 harg4 arg5 harg5 arg6 harg6 arg7 harg7 arg8 harg8 arg9 harg9 hc0 hc1 x0 x1 x2 x3).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.1 S1024x1.size (by sl_kernel_rfl) y

/-- What case A leaves in scratch 0: its pieces read back. -/
def sout1_A_0 (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x1024 .i32) (x1 : Vec F S1024x1 .f32) (x2 : Vec F S1x1024 .f32) (x3 : Vec F S1024x128 .bf16) : Vec F S1024x1 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3).2.1)

/-- Case A's pieces for scratch 1 cover it. -/
theorem scover1_A_1 (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x1024 .i32) (x1 : Vec F S1024x1 .f32) (x2 : Vec F S1x1024 .f32) (x3 : Vec F S1024x128 .bf16) (y : S1024x1.Idx) :
    ∃ pc ∈ (kernelRun1_A c i arg2 harg2 arg3 harg3 arg4 harg4 arg5 harg5 arg6 harg6 arg7 harg7 arg8 harg8 arg9 harg9 hc0 hc1 x0 x1 x2 x3).2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.1 S1024x1.size (by sl_kernel_rfl) y

/-- What case A leaves in scratch 1: its pieces read back. -/
def sout1_A_1 (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x1024 .i32) (x1 : Vec F S1024x1 .f32) (x2 : Vec F S1x1024 .f32) (x3 : Vec F S1024x128 .bf16) : Vec F S1024x1 .f32 :=
  VS1_1.read (Elt F) (VS1_1.writes (Elt F) VS1_1.junk (kernelRun1_A c i arg2 harg2 arg3 harg3 arg4 harg4 arg5 harg5 arg6 harg6 arg7 harg7 arg8 harg8 arg9 harg9 hc0 hc1 x0 x1 x2 x3).2.2.1)

/-- Case A's pieces for scratch 2 cover it. -/
theorem scover1_A_2 (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x1024 .i32) (x1 : Vec F S1024x1 .f32) (x2 : Vec F S1x1024 .f32) (x3 : Vec F S1024x128 .bf16) (y : S1024x128.Idx) :
    ∃ pc ∈ (kernelRun1_A c i arg2 harg2 arg3 harg3 arg4 harg4 arg5 harg5 arg6 harg6 arg7 harg7 arg8 harg8 arg9 harg9 hc0 hc1 x0 x1 x2 x3).2.2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.2.1 S1024x128.size (by sl_kernel_rfl) y

/-- What case A leaves in scratch 2: its pieces read back. -/
def sout1_A_2 (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x1024 .i32) (x1 : Vec F S1024x1 .f32) (x2 : Vec F S1x1024 .f32) (x3 : Vec F S1024x128 .bf16) : Vec F S1024x128 .f32 :=
  VS1_2.read (Elt F) (VS1_2.writes (Elt F) VS1_2.junk (kernelRun1_A c i arg2 harg2 arg3 harg3 arg4 harg4 arg5 harg5 arg6 harg6 arg7 harg7 arg8 harg8 arg9 harg9 hc0 hc1 x0 x1 x2 x3).2.2.2.1)

/-- What case B leaves in the output's staging buffer: its pieces read back (none: the window is idle there and this value is never consulted). -/
def out1_B_4 (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x1024 .i32) (x1 : Vec F S1024x1 .f32) (x2 : Vec F S1x1024 .f32) (x3 : Vec F S1024x128 .bf16) (xs0 : Vec F S1024x1 .f32) (xs1 : Vec F S1024x1 .f32) (xs2 : Vec F S1024x128 .f32) : Vec F S1024x128 .f32 :=
  VO1_4.read (Elt F) (VO1_4.writes (Elt F) VO1_4.junk (kernelRun1_B c i arg2 harg2 arg3 harg3 arg4 harg4 arg5 harg5 arg6 harg6 arg7 harg7 arg8 harg8 arg9 harg9 hc0 hc1 x0 x1 x2 x3 xs0 xs1 xs2).1)

/-- Case B's pieces for scratch 0 cover it. -/
theorem scover1_B_0 (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x1024 .i32) (x1 : Vec F S1024x1 .f32) (x2 : Vec F S1x1024 .f32) (x3 : Vec F S1024x128 .bf16) (xs0 : Vec F S1024x1 .f32) (xs1 : Vec F S1024x1 .f32) (xs2 : Vec F S1024x128 .f32) (y : S1024x1.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.1 S1024x1.size (by sl_kernel_rfl) y

/-- What case B leaves in scratch 0: its pieces read back. -/
def sout1_B_0 (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x1024 .i32) (x1 : Vec F S1024x1 .f32) (x2 : Vec F S1x1024 .f32) (x3 : Vec F S1024x128 .bf16) (xs0 : Vec F S1024x1 .f32) (xs1 : Vec F S1024x1 .f32) (xs2 : Vec F S1024x128 .f32) : Vec F S1024x1 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 xs0 xs1 xs2).2.1)

/-- Case B's pieces for scratch 1 cover it. -/
theorem scover1_B_1 (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x1024 .i32) (x1 : Vec F S1024x1 .f32) (x2 : Vec F S1x1024 .f32) (x3 : Vec F S1024x128 .bf16) (xs0 : Vec F S1024x1 .f32) (xs1 : Vec F S1024x1 .f32) (xs2 : Vec F S1024x128 .f32) (y : S1024x1.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

/-- What case B leaves in scratch 1: its pieces read back. -/
def sout1_B_1 (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x1024 .i32) (x1 : Vec F S1024x1 .f32) (x2 : Vec F S1x1024 .f32) (x3 : Vec F S1024x128 .bf16) (xs0 : Vec F S1024x1 .f32) (xs1 : Vec F S1024x1 .f32) (xs2 : Vec F S1024x128 .f32) : Vec F S1024x1 .f32 :=
  VS1_1.read (Elt F) (VS1_1.writes (Elt F) VS1_1.junk (kernelRun1_B c i arg2 harg2 arg3 harg3 arg4 harg4 arg5 harg5 arg6 harg6 arg7 harg7 arg8 harg8 arg9 harg9 hc0 hc1 x0 x1 x2 x3 xs0 xs1 xs2).2.2.1)

/-- Case B's pieces for scratch 2 cover it. -/
theorem scover1_B_2 (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x1024 .i32) (x1 : Vec F S1024x1 .f32) (x2 : Vec F S1x1024 .f32) (x3 : Vec F S1024x128 .bf16) (xs0 : Vec F S1024x1 .f32) (xs1 : Vec F S1024x1 .f32) (xs2 : Vec F S1024x128 .f32) (y : S1024x128.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.2.2.1 S1024x128.size (by sl_kernel_rfl) y

/-- What case B leaves in scratch 2: its pieces read back. -/
def sout1_B_2 (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x1024 .i32) (x1 : Vec F S1024x1 .f32) (x2 : Vec F S1x1024 .f32) (x3 : Vec F S1024x128 .bf16) (xs0 : Vec F S1024x1 .f32) (xs1 : Vec F S1024x1 .f32) (xs2 : Vec F S1024x128 .f32) : Vec F S1024x128 .f32 :=
  VS1_2.read (Elt F) (VS1_2.writes (Elt F) VS1_2.junk (kernelRun1_B c i arg2 harg2 arg3 harg3 arg4 harg4 arg5 harg5 arg6 harg6 arg7 harg7 arg8 harg8 arg9 harg9 hc0 hc1 x0 x1 x2 x3 xs0 xs1 xs2).2.2.2.1)

/-- Case C's one store into the output block covers it. -/
theorem cover1_C_4 (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1024 .i32) (x1 : Vec F S1024x1 .f32) (x2 : Vec F S1x1024 .f32) (x3 : Vec F S1024x128 .bf16) (xs0 : Vec F S1024x1 .f32) (xs1 : Vec F S1024x1 .f32) (xs2 : Vec F S1024x128 .f32) (y : S1024x128.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).1 S1024x128.size (by sl_kernel_rfl) y

/-- What case C leaves in the output's staging buffer: its pieces read back. -/
def out1_C_4 (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1024 .i32) (x1 : Vec F S1024x1 .f32) (x2 : Vec F S1x1024 .f32) (x3 : Vec F S1024x128 .bf16) (xs0 : Vec F S1024x1 .f32) (xs1 : Vec F S1024x1 .f32) (xs2 : Vec F S1024x128 .f32) : Vec F S1024x128 .f32 :=
  VO1_4.read (Elt F) (VO1_4.writes (Elt F) VO1_4.junk (kernelRun1_C c i arg2 harg2 arg3 harg3 arg4 harg4 arg5 harg5 arg6 harg6 arg7 harg7 arg8 harg8 arg9 harg9 hc0 hc1 x0 x1 x2 x3 xs0 xs1 xs2).1)

/-- Case C's pieces for scratch 0 cover it. -/
theorem scover1_C_0 (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1024 .i32) (x1 : Vec F S1024x1 .f32) (x2 : Vec F S1x1024 .f32) (x3 : Vec F S1024x128 .bf16) (xs0 : Vec F S1024x1 .f32) (xs1 : Vec F S1024x1 .f32) (xs2 : Vec F S1024x128 .f32) (y : S1024x1.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.1 S1024x1.size (by sl_kernel_rfl) y

/-- What case C leaves in scratch 0: its pieces read back. -/
def sout1_C_0 (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1024 .i32) (x1 : Vec F S1024x1 .f32) (x2 : Vec F S1x1024 .f32) (x3 : Vec F S1024x128 .bf16) (xs0 : Vec F S1024x1 .f32) (xs1 : Vec F S1024x1 .f32) (xs2 : Vec F S1024x128 .f32) : Vec F S1024x1 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 xs0 xs1 xs2).2.1)

/-- Case C's pieces for scratch 1 cover it. -/
theorem scover1_C_1 (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1024 .i32) (x1 : Vec F S1024x1 .f32) (x2 : Vec F S1x1024 .f32) (x3 : Vec F S1024x128 .bf16) (xs0 : Vec F S1024x1 .f32) (xs1 : Vec F S1024x1 .f32) (xs2 : Vec F S1024x128 .f32) (y : S1024x1.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

/-- What case C leaves in scratch 1: its pieces read back. -/
def sout1_C_1 (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1024 .i32) (x1 : Vec F S1024x1 .f32) (x2 : Vec F S1x1024 .f32) (x3 : Vec F S1024x128 .bf16) (xs0 : Vec F S1024x1 .f32) (xs1 : Vec F S1024x1 .f32) (xs2 : Vec F S1024x128 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 arg9 harg9 hc0 hc1 x0 x1 x2 x3 xs0 xs1 xs2).2.2.1)

/-- Case C's pieces for scratch 2 cover it. -/
theorem scover1_C_2 (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1024 .i32) (x1 : Vec F S1024x1 .f32) (x2 : Vec F S1x1024 .f32) (x3 : Vec F S1024x128 .bf16) (xs0 : Vec F S1024x1 .f32) (xs1 : Vec F S1024x1 .f32) (xs2 : Vec F S1024x128 .f32) (y : S1024x128.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.2.2.1 S1024x128.size (by sl_kernel_rfl) y

/-- What case C leaves in scratch 2: its pieces read back. -/
def sout1_C_2 (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1024 .i32) (x1 : Vec F S1024x1 .f32) (x2 : Vec F S1x1024 .f32) (x3 : Vec F S1024x128 .bf16) (xs0 : Vec F S1024x1 .f32) (xs1 : Vec F S1024x1 .f32) (xs2 : Vec F S1024x128 .f32) : Vec F S1024x128 .f32 :=
  VS1_2.read (Elt F) (VS1_2.writes (Elt F) VS1_2.junk (kernelRun1_C c i arg2 harg2 arg3 harg3 arg4 harg4 arg5 harg5 arg6 harg6 arg7 harg7 arg8 harg8 arg9 harg9 hc0 hc1 x0 x1 x2 x3 xs0 xs1 xs2).2.2.2.1)

section
variable (V : (c : Dev nD) → (b : Ref sig .tc) → Buf (Elt F) ((c : Thread nD τ).loc b))

/-! ## What the buffers hold after each point -/

/-- After the body at position n: the output's staging buffer, then the running maximum, normaliser and weighted sum.
    The case is read off n modulo 8; cases B and C start from what position n - 1 left in the scratch buffers. -/
def outsAt1 (c : Dev nD) : (n : ℕ) → n < cfg1.N → Vec F S1024x128 .f32 × Vec F S1024x1 .f32 × Vec F S1024x1 .f32 × Vec F S1024x128 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 8 = 0 then
      if h1 : (n + 1) % 8 = 7 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 8 = 7 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2)

theorem outsAt1_A (c : Dev nD) (t : Fin cfg1.N) (h0 : t.val % 8 = 0) (h1 : ¬t.val % 8 = 7) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position n: at the region's entry every scoped buffer the region does not stage at anything; afterwards the
    three scratch buffers at what position n - 1 left in them, the other such buffers at anything. -/
def PhiS1 (c : Dev nD) : (n : ℕ) → n ≤ cfg1.N → sProp 𝕄
  | 0, _ => Pipeline.ΦA spec1 c
  | n + 1, hn => iprop(iprop(oth c cc0_stg0_0 ∗ oth c cc0_stg0_1 ∗ oth c cc0_stg1_0 ∗ oth c cc0_stg2_0 ∗ oth c cc0_stg3_0 ∗ oth c cc0_stg4_0 ∗ oth c cc0_stg5_0 ∗ oth c cc0_stg6_0 ∗ oth c cc0_stg7_0 ∗ oth c cc0_stg7_1 ∗ oth c cc0_stg8_0 ∗ oth c cc0_stg8_1 ∗ oth c cc0_stg9_0 ∗ oth c cc0_stg9_1 ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(oth c cc0_stg0_0 ∗ oth c cc0_stg0_1 ∗ oth c cc0_stg1_0 ∗ oth c cc0_stg2_0 ∗ oth c cc0_stg3_0 ∗ oth c cc0_stg4_0 ∗ oth c cc0_stg5_0 ∗ oth c cc0_stg6_0 ∗ oth c cc0_stg7_0 ∗ oth c cc0_stg7_1 ∗ oth c cc0_stg8_0 ∗ oth c cc0_stg8_1 ∗ oth c cc0_stg9_0 ∗ oth c cc0_stg9_1 ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

theorem PhiS1_pos (c : Dev nD) (n : ℕ) (h : n ≤ cfg1.N) (hz : n ≠ 0) :
    PhiS1 V c n h = iprop(iprop(oth c cc0_stg0_0 ∗ oth c cc0_stg0_1 ∗ oth c cc0_stg1_0 ∗ oth c cc0_stg2_0 ∗ oth c cc0_stg3_0 ∗ oth c cc0_stg4_0 ∗ oth c cc0_stg5_0 ∗ oth c cc0_stg6_0 ∗ oth c cc0_stg7_0 ∗ oth c cc0_stg7_1 ∗ oth c cc0_stg8_0 ∗ oth c cc0_stg8_1 ∗ oth c cc0_stg9_0 ∗ oth c cc0_stg9_1 ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

end

end Cert.KernelIdeal.Hand

end
-- ==== Proof.KI.Bounds.lean ====
/-
  The buffer contents at each boundary of the program (launch; after the three reshapes; after the projection
  kernel's region; after the reshape of the second logit half; after the attention kernel's region), folded from the
  launch memory, and the fact that every argument array is the same at all five.
-/
import proofs.«124015_j46024869544127_2_alg».proof.Proof.KI.Region0
import proofs.«124015_j46024869544127_2_alg».proof.Proof.KI.Region1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched: no reshape and no region writes one -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 0).trans (((dat1 (V3 m ρ) c).arrAt_in 0 rfl _).trans (A_eq1 (V3 m ρ) c 0))
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := (W2_arr m ρ c 3).trans (((dat0 (V1 m ρ) c).arrAt_in 3 rfl _).trans (A_eq0 (V1 m ρ) c 3))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := (W2_arr m ρ c 5).trans (((dat0 (V1 m ρ) c).arrAt_in 5 rfl _).trans (A_eq0 (V1 m ρ) c 5))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

end Cert.KernelIdeal.Hand

end
-- ==== Proof.KI.Region1Body.lean ====
/-
  Region 1: the body obligation. At any point the four input buffers hold their blocks; the point's position modulo 8
  says which of the three cases it is in; the invariant hands the body the three scratch buffers at what the point
  before left (at anything before the very first point) and takes them back at this point's contents.
-/
import proofs.«124015_j46024869544127_2_alg».proof.Proof.KI.Region1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 8 = 0
  · by_cases h1 : t.val % 8 = 7
    · exfalso; omega
    ·
      rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold sout1_A_0 sout1_A_1 sout1_A_2; (try dsimp only)
      by_cases hz : t.val = 0
      · rw [PhiS1_castSucc V c t, PhiS1_zero V c _ _ hz, PhiA1_eq]
        iintro ⟨⟨⟨Hq0, Hq1, Hq2, Hq3, Hq4, Hq5, Hq6, Hq7, Hq8, Hq9, Hq10, Hq11, Hq12, Hq13, HS0, HS1, HS2⟩, Hg⟩, Hw, ⟨%d0, H0⟩, ⟨%d1, H1⟩, ⟨%d2, H2⟩, ⟨%d3, H3⟩, ⟨%d4, H4⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [Hq0 Hq1 Hq2 Hq3 Hq4 Hq5 Hq6 Hq7 Hq8 Hq9 Hq10 Hq11 Hq12 Hq13 HS0 HS1 HS2 Hg]
        · isplitl [Hq0 Hq1 Hq2 Hq3 Hq4 Hq5 Hq6 Hq7 Hq8 Hq9 Hq10 Hq11 Hq12 Hq13 HS0 HS1 HS2]
          · isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            isplitl [Hq8]; · iexact Hq8
            isplitl [Hq9]; · iexact Hq9
            isplitl [Hq10]; · iexact Hq10
            isplitl [Hq11]; · iexact Hq11
            isplitl [Hq12]; · iexact Hq12
            isplitl [Hq13]; · iexact Hq13
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _ _ _ _)
          iexact Hg
        isplitl [Hw]; · iexact Hw
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨Hq0, Hq1, Hq2, Hq3, Hq4, Hq5, Hq6, Hq7, Hq8, Hq9, Hq10, Hq11, Hq12, Hq13, HS0, HS1, HS2⟩, Hg⟩, Hw, ⟨%d0, H0⟩, ⟨%d1, H1⟩, ⟨%d2, H2⟩, ⟨%d3, H3⟩, ⟨%d4, H4⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [Hq0 Hq1 Hq2 Hq3 Hq4 Hq5 Hq6 Hq7 Hq8 Hq9 Hq10 Hq11 Hq12 Hq13 HS0 HS1 HS2 Hg]
        · isplitl [Hq0 Hq1 Hq2 Hq3 Hq4 Hq5 Hq6 Hq7 Hq8 Hq9 Hq10 Hq11 Hq12 Hq13 HS0 HS1 HS2]
          · isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            isplitl [Hq8]; · iexact Hq8
            isplitl [Hq9]; · iexact Hq9
            isplitl [Hq10]; · iexact Hq10
            isplitl [Hq11]; · iexact Hq11
            isplitl [Hq12]; · iexact Hq12
            isplitl [Hq13]; · iexact Hq13
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _ _ _ _)
          iexact Hg
        isplitl [Hw]; · iexact Hw
        isplitl [H0]; · iexact H0
        isplitl [H1]; · iexact H1
        isplitl [H2]; · iexact H2
        isplitl [H3]; · iexact H3
        iexists _; iexact H4
  · by_cases h1 : t.val % 8 = 7
    ·
      rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold out1_C_4 sout1_C_0 sout1_C_1 sout1_C_2; (try dsimp only)
      by_cases hz : t.val = 0
      · exfalso; omega
      · rw [PhiS1_castSucc V c t, PhiS1_pos V c _ _ hz]
        iintro ⟨⟨⟨Hq0, Hq1, Hq2, Hq3, Hq4, Hq5, Hq6, Hq7, Hq8, Hq9, Hq10, Hq11, Hq12, Hq13, HS0, HS1, HS2⟩, Hg⟩, Hw, ⟨%d0, H0⟩, ⟨%d1, H1⟩, ⟨%d2, H2⟩, ⟨%d3, H3⟩, ⟨%d4, H4⟩⟩
        iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _ _).2.2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        iintro ⟨H0, H1, H2, H3, ⟨%e4, H4⟩, ⟨%es0, HS0⟩, ⟨%es1, HS1⟩, ⟨%es2, HS2⟩⟩
        isplitl [Hq0 Hq1 Hq2 Hq3 Hq4 Hq5 Hq6 Hq7 Hq8 Hq9 Hq10 Hq11 Hq12 Hq13 HS0 HS1 HS2 Hg]
        · isplitl [Hq0 Hq1 Hq2 Hq3 Hq4 Hq5 Hq6 Hq7 Hq8 Hq9 Hq10 Hq11 Hq12 Hq13 HS0 HS1 HS2]
          · isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            isplitl [Hq8]; · iexact Hq8
            isplitl [Hq9]; · iexact Hq9
            isplitl [Hq10]; · iexact Hq10
            isplitl [Hq11]; · iexact Hq11
            isplitl [Hq12]; · iexact Hq12
            isplitl [Hq13]; · iexact Hq13
            isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_C_1 c _ _ _ _ _ _ _ _ _ _ _ _ _ _ _ _ _ _ _ _ _ _ _ _ _ _)
            unfold owns; iexists _; isplitr
            swap; · iexact HS2
            ipureintro; exact View.read_writes_of_cover _ _ _ _ _ (scover1_C_2 c _ _ _ _ _ _ _ _ _ _ _ _ _ _ _ _ _ _ _ _ _ _ _ _ _ _)
          iexact Hg
        isplitl [Hw]; · iexact Hw
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_C_4 c _ _ _ _ _ _ _ _ _ _ _ _ _ _ _ _ _ _ _ _ _ _ _ _ _ _)
    ·
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold sout1_B_0 sout1_B_1 sout1_B_2; (try dsimp only)
      by_cases hz : t.val = 0
      · exfalso; omega
      · rw [PhiS1_castSucc V c t, PhiS1_pos V c _ _ hz]
        iintro ⟨⟨⟨Hq0, Hq1, Hq2, Hq3, Hq4, Hq5, Hq6, Hq7, Hq8, Hq9, Hq10, Hq11, Hq12, Hq13, HS0, HS1, HS2⟩, Hg⟩, Hw, ⟨%d0, H0⟩, ⟨%d1, H1⟩, ⟨%d2, H2⟩, ⟨%d3, H3⟩, ⟨%d4, H4⟩⟩
        iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _ _).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [Hq0 Hq1 Hq2 Hq3 Hq4 Hq5 Hq6 Hq7 Hq8 Hq9 Hq10 Hq11 Hq12 Hq13 HS0 HS1 HS2 Hg]
        · isplitl [Hq0 Hq1 Hq2 Hq3 Hq4 Hq5 Hq6 Hq7 Hq8 Hq9 Hq10 Hq11 Hq12 Hq13 HS0 HS1 HS2]
          · isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            isplitl [Hq8]; · iexact Hq8
            isplitl [Hq9]; · iexact Hq9
            isplitl [Hq10]; · iexact Hq10
            isplitl [Hq11]; · iexact Hq11
            isplitl [Hq12]; · iexact Hq12
            isplitl [Hq13]; · iexact Hq13
            isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_B_1 c _ _ _ _ _ _ _ _ _ _ _ _ _ _ _ _ _ _ _ _ _ _ _ _ _ _)
            unfold owns; iexists _; isplitr
            swap; · iexact HS2
            ipureintro; exact View.read_writes_of_cover _ _ _ _ _ (scover1_B_2 c _ _ _ _ _ _ _ _ _ _ _ _ _ _ _ _ _ _ _ _ _ _ _ _ _ _)
          iexact Hg
        isplitl [Hw]; · iexact Hw
        isplitl [H0]; · iexact H0
        isplitl [H1]; · iexact H1
        isplitl [H2]; · iexact H2
        isplitl [H3]; · iexact H3
        iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the entry form back: what the scratch buffers hold is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hq0, Hq1, Hq2, Hq3, Hq4, Hq5, Hq6, Hq7, Hq8, Hq9, Hq10, Hq11, Hq12, Hq13, HS0, HS1, HS2⟩, Hg⟩
  isplitl [Hq0 Hq1 Hq2 Hq3 Hq4 Hq5 Hq6 Hq7 Hq8 Hq9 Hq10 Hq11 Hq12 Hq13 HS0 HS1 HS2]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [HS0]; · iexists _; iexact HS0
    isplitl [HS1]; · iexists _; iexact HS1
    iexists _; iexact HS2
  iexact Hg

theorem hout1 (c : Dev nD) : (dat1 V c).Φ (Fin.last cfg1.N) ⊢ Pipeline.ΦA spec1 c :=
  Phi_out1 V c _ (by rw [Fin.val_last]; have : cfg1.N = 64 := N_1; omega)

end

end Cert.KernelIdeal.Hand

end
-- ==== Proof.KI.MainRun.lean ====
/-
  The whole program's run: two kernel regions among three reshapes before the first and one between them.
  The buffer contents at each boundary are folded from the launch memory; each region is a segment entered from one
  boundary's contents and left at the next; the run ends with every unscoped buffer at the last boundary's contents,
  which gives at once that the eight argument arrays end as launched and what the result array holds.
-/
import proofs.«124015_j46024869544127_2_alg».proof.Proof.KI.Bounds
import proofs.«124015_j46024869544127_2_alg».proof.Proof.KI.Region1Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem ops0_fresh : (hostOps0 : List (HloOp τ sig (Elt F))).Forall fun op => op.fresh = ∅ := by
  simp only [List.Forall]; repeat' constructor
theorem ops1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection kernel's region: entered from the contents after the three reshapes, left with its three result
    arrays at what its write-backs leave. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention kernel's region: entered from the contents after the reshape of the second logit half, left with
    the result array at what its write-backs leave. Its invariant carries the three scratch buffers' contents from
    point to point; at the region's two ends it is the plain "every scoped buffer it does not stage at anything". -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m ρ 1 c).Φ 0 from hin1 (V3 m ρ) c)
    unfold Pipeline.ΦA
    iintro ⟨Hp, -, Hr⟩
    isplitl [Hr]; · iexact Hr
    iexact Hp
  hout c := by
    refine BIBase.Entails.trans (show (pdats m ρ 1 c).Φ (Fin.last _) ⊢ Pipeline.ΦA spec1 c from hout1 (V3 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub ops0_fresh (W0 m ρ)),
    .region (reg0 m ρ),
    .host (hseg hostOps1 hostOps1_sub ops1_fresh (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting; the
    result array ends at what the second region's write-backs leave, and the eight argument arrays end as launched. -/
theorem run_all : θ_run defs (onTc (τ := τ) (main (F := F))) ⟨m, fun _ => 0, ρ⟩ (fun r => ∀ c : Dev nD,
      r.2.mem ((c.tc : Thread nD τ).loc main_v5) = (dat1 (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v5 (by decide))).trans (W4_arr m ρ c 4),
        (h c _ (mem_uc main_arg0 (by decide))).trans (W4_main_arg0 m ρ c),
        (h c _ (mem_uc main_arg1 (by decide))).trans (W4_main_arg1 m ρ c),
        (h c _ (mem_uc main_arg2 (by decide))).trans (W4_main_arg2 m ρ c),
        (h c _ (mem_uc main_arg3 (by decide))).trans (W4_main_arg3 m ρ c),
        (h c _ (mem_uc main_arg4 (by decide))).trans (W4_main_arg4 m ρ c),
        (h c _ (mem_uc main_arg5 (by decide))).trans (W4_main_arg5 m ρ c),
        (h c _ (mem_uc main_arg6 (by decide))).trans (W4_main_arg6 m ρ c),
        (h c _ (mem_uc main_arg7 (by decide))).trans (W4_main_arg7 m ρ c)⟩)

end Cert.KernelIdeal.Hand

end
-- ==== Proof.KI.HostGlue.lean ====
/-
  The four reshapes of the program read at an index, and the buffers each boundary leaves as they were:
  the bias [128] becomes the row [1,128], the two scalar biases [1] become [1,1], and between the two kernels the
  second logit half, a column [8192,1], becomes the row [1,8192] — in each case the same numbers in the same order.
-/
import proofs.«124015_j46024869544127_2_alg».proof.Proof.KI.Bounds
import Idealize.ShloMosaic.Lib.StableHlo.Run
import Idealize.ShloMosaic.Lib.Pipeline.Value
import Idealize.ShloMosaic.Lib.ValueIdx

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg)

/-! ## After the three reshapes -/

theorem V1_v0 (c : Dev nD) (d : Fin 128) :
    (V1 m ρ c main_v0 : S1x128.Idx → EReal) (ix2 (0 : Fin 1) d) = (m ((c : Thread nD τ).loc main_arg3) : S128.Idx → EReal) (ix1 d) := by
  have e : (V1 m ρ c main_v0 : S1x128.Idx → EReal)
      = shapeCast S1x128 (m ((c : Thread nD τ).loc main_arg3) : S128.Idx → EReal) shapeCasts_S128_S1x128 := by
    dsimp only [V1, W1, hostOps0]; after_results; rfl
  rw [e]
  refine shapeCast_apply _ _ _ (ix1 d) ?_
  rw [Shape.rowMajor_val_one, Shape.rowMajor_val_two]
  show d.val = 0 * 128 + d.val
  omega

theorem V1_v1 (c : Dev nD) :
    (V1 m ρ c main_v1 : S1x1.Idx → EReal) (ix2 (0 : Fin 1) (0 : Fin 1)) = (m ((c : Thread nD τ).loc main_arg5) : S1.Idx → EReal) (ix1 (0 : Fin 1)) := by
  have e : (V1 m ρ c main_v1 : S1x1.Idx → EReal)
      = shapeCast S1x1 (m ((c : Thread nD τ).loc main_arg5) : S1.Idx → EReal) shapeCasts_S1_S1x1 := by
    dsimp only [V1, W1, hostOps0]; after_results; rfl
  rw [e]
  refine shapeCast_apply _ _ _ (ix1 (0 : Fin 1)) ?_
  rw [Shape.rowMajor_val_one, Shape.rowMajor_val_two]
  rfl

theorem V1_v2 (c : Dev nD) :
    (V1 m ρ c main_v2 : S1x1.Idx → EReal) (ix2 (0 : Fin 1) (0 : Fin 1)) = (m ((c : Thread nD τ).loc main_arg7) : S1.Idx → EReal) (ix1 (0 : Fin 1)) := by
  have e : (V1 m ρ c main_v2 : S1x1.Idx → EReal)
      = shapeCast S1x1 (m ((c : Thread nD τ).loc main_arg7) : S1.Idx → EReal) shapeCasts_S1_S1x1 := by
    dsimp only [V1, W1, hostOps0]; after_results; rfl
  rw [e]
  refine shapeCast_apply _ _ _ (ix1 (0 : Fin 1)) ?_
  rw [Shape.rowMajor_val_one, Shape.rowMajor_val_two]
  rfl

theorem V1_arg0 (c : Dev nD) : V1 m ρ c main_arg0 = m ((c : Thread nD τ).loc main_arg0) := by
  dsimp only [V1, W1, hostOps0]; after_results
theorem V1_arg1 (c : Dev nD) : V1 m ρ c main_arg1 = m ((c : Thread nD τ).loc main_arg1) := by
  dsimp only [V1, W1, hostOps0]; after_results
theorem V1_arg2 (c : Dev nD) : V1 m ρ c main_arg2 = m ((c : Thread nD τ).loc main_arg2) := by
  dsimp only [V1, W1, hostOps0]; after_results
theorem V1_arg4 (c : Dev nD) : V1 m ρ c main_arg4 = m ((c : Thread nD τ).loc main_arg4) := by
  dsimp only [V1, W1, hostOps0]; after_results
theorem V1_arg6 (c : Dev nD) : V1 m ρ c main_arg6 = m ((c : Thread nD τ).loc main_arg6) := by
  dsimp only [V1, W1, hostOps0]; after_results

/-! ## After the projection kernel's region -/

theorem V2_v3_0 (c : Dev nD) : V2 m ρ c main_v3_0 = (dat0 (V1 m ρ) c).arrAt 7 cfg0.N := W2_arr m ρ c 7
theorem V2_v3_1 (c : Dev nD) : V2 m ρ c main_v3_1 = (dat0 (V1 m ρ) c).arrAt 8 cfg0.N := W2_arr m ρ c 8
theorem V2_v3_2 (c : Dev nD) : V2 m ρ c main_v3_2 = (dat0 (V1 m ρ) c).arrAt 9 cfg0.N := W2_arr m ρ c 9
theorem V2_arg1 (c : Dev nD) : V2 m ρ c main_arg1 = m ((c : Thread nD τ).loc main_arg1) :=
  (W2_of_ne m ρ c main_arg1 (by decide)).trans (V1_arg1 m ρ c)

/-! ## After the reshape between the kernels -/

theorem V3_v4 (c : Dev nD) (j : Fin 8192) :
    (V3 m ρ c main_v4 : S1x8192.Idx → EReal) (ix2 (0 : Fin 1) j) = (V2 m ρ c main_v3_2 : S8192x1.Idx → EReal) (ix2 j (0 : Fin 1)) := by
  have e : (V3 m ρ c main_v4 : S1x8192.Idx → EReal)
      = shapeCast S1x8192 (V2 m ρ c main_v3_2 : S8192x1.Idx → EReal) shapeCasts_S8192x1_S1x8192 := by
    dsimp only [V3, W3, hostOps1]; after_results; rfl
  rw [e]
  refine shapeCast_apply _ _ _ (ix2 j (0 : Fin 1)) ?_
  rw [Shape.rowMajor_val_two, Shape.rowMajor_val_two]
  show j.val * 1 + 0 = 0 * 8192 + j.val
  omega

theorem V3_v3_0 (c : Dev nD) : V3 m ρ c main_v3_0 = V2 m ρ c main_v3_0 := by
  dsimp only [V3, W3, hostOps1]; after_results
theorem V3_v3_1 (c : Dev nD) : V3 m ρ c main_v3_1 = V2 m ρ c main_v3_1 := by
  dsimp only [V3, W3, hostOps1]; after_results
theorem V3_arg1 (c : Dev nD) : V3 m ρ c main_arg1 = m ((c : Thread nD τ).loc main_arg1) := by
  have e : V3 m ρ c main_arg1 = V2 m ρ c main_arg1 := by
    dsimp only [V3, W3, hostOps1]; after_results
  rw [e]; exact V2_arg1 m ρ c

end Cert.KernelIdeal.HandValue

end
-- ==== Proof.AttnSpec.lean ====
/-
  The graph-attention layer that both programs compute, written once over tables of extended reals, with no
  program and no array in sight.

  Nodes are numbered 0 … 8191; a node has 256 input features and 128 hidden features.
    hid  i d   = (∑ k, feat i k · W d k) + b d                       the hidden features of node i
    half w β i = (∑ d, hid i d · w d) + β                            one half of an attention logit
    score i j  = lrelu (if adj i j > 0 then a1 i + a2 j else fill)   the logit of the edge i → j; a non-edge
                                                                     gets the large negative FINITE number "fill"
    refOut i d = ∑ j, (exp (score i j - M i) / ∑ j', exp (score i j' - M i)) · hid j d,   M i = max over j of score i j
  which is the softmax of row i of the logits applied to the hidden features.

  The second half of the file is the same row computed block by block (the "online" form): the 8192 columns
  are cut into blocks; a running maximum m, a running normaliser l and a running weighted sum acc are kept, and
  passing a block rescales what was accumulated under the old maximum by exp (m - m') and adds the block's own
  terms exp (s - m'). After the last block the row's result is acc / l.
-/
import Idealize.ShloMosaic.PureOps.Ideal
import Mathlib.Data.EReal.Operations

noncomputable section

open scoped BigOperators

namespace Cert.AttnSpec

open Idealize.ShloMosaic

/-! ## The layer -/

/-- The finite stand-in for minus infinity that masks a non-edge (the f32 number -1e16). -/
def fill : EReal := Ideal.ofBits .f32 0xDA0E1BCA#32
/-- The slope of the leaky rectifier on the negative side (the f32 number nearest 0.01). -/
def slope : EReal := Ideal.ofBits .f32 0x3C23D70A#32

/-- The hidden features: a linear map of the input features plus a bias. -/
def hid (feat : Fin 8192 → Fin 256 → EReal) (W : Fin 128 → Fin 256 → EReal) (b : Fin 128 → EReal)
    (i : Fin 8192) (d : Fin 128) : EReal :=
  (∑ k : Fin 256, feat i k * W d k) + b d

/-- One half of an attention logit: a linear functional of a node's hidden features plus a bias. -/
def half (h : Fin 8192 → Fin 128 → EReal) (w : Fin 128 → EReal) (β : EReal) (i : Fin 8192) : EReal :=
  (∑ d : Fin 128, h i d * w d) + β

/-- The leaky rectifier: the identity on the positive side, multiplication by "slope" elsewhere. -/
def lrelu (x : EReal) : EReal := if 0 < x then x else slope * x

/-- The logit of the pair (i, j) before the rectifier: the sum of the two halves on an edge, "fill" elsewhere.
    An edge is a positive entry of the (signed 32-bit) adjacency table. -/
def masked (a1 a2 : Fin 8192 → EReal) (adj : Fin 8192 → Fin 8192 → BitVec 32) (i j : Fin 8192) : EReal :=
  if IntOp.cmpi .sgt (adj i j) 0#32 = 1 then a1 i + a2 j else fill

/-- The logit of the pair (i, j). -/
def score (a1 a2 : Fin 8192 → EReal) (adj : Fin 8192 → Fin 8192 → BitVec 32) (i j : Fin 8192) : EReal :=
  lrelu (masked a1 a2 adj i j)

/-- The largest logit of row i. -/
def rowMax (s : Fin 8192 → Fin 8192 → EReal) (i : Fin 8192) : EReal :=
  Finset.univ.fold max ⊥ (fun j : Fin 8192 => s i j)

/-- The layer's result: row i of the softmax of the logits, applied to column d of the hidden features. -/
def refOut (s : Fin 8192 → Fin 8192 → EReal) (h : Fin 8192 → Fin 128 → EReal) (i : Fin 8192) (d : Fin 128) : EReal :=
  ∑ j : Fin 8192, Ideal.div (Ideal.exp (s i j - rowMax s i)) (∑ j' : Fin 8192, Ideal.exp (s i j' - rowMax s i)) * h j d

/-! ## One row, block by block -/

section Merge

variable {C : Type} [Fintype C]

/-- The largest score of a block. -/
def blockMax (s : C → EReal) : EReal := Finset.univ.fold max ⊥ s

/-- The running maximum after a block. -/
def mNext (m : EReal) (sk : C → EReal) : EReal := max m (blockMax sk)

/-- The factor that moves what was accumulated under the old maximum to the new one. -/
def alpha (m : EReal) (sk : C → EReal) : EReal := Ideal.exp (m - mNext m sk)

/-- A block entry's weight under the new maximum. -/
def weight (m : EReal) (sk : C → EReal) (c : C) : EReal := Ideal.exp (sk c - mNext m sk)

/-- The running normaliser after a block. -/
def lNext (m l : EReal) (sk : C → EReal) : EReal := alpha m sk * l + ∑ c, weight m sk c

/-- The running weighted sum after a block. -/
def accNext (m a : EReal) (sk vk : C → EReal) : EReal := alpha m sk * a + ∑ c, weight m sk c * vk c

/-- The running maximum and normaliser after the first k blocks; before any block: minus infinity and zero. -/
def st (s : ℕ → C → EReal) : ℕ → EReal × EReal
  | 0 => (⊥, 0)
  | k + 1 => (mNext (st s k).1 (s k), lNext (st s k).1 (st s k).2 (s k))

/-- The running weighted sum after the first k blocks; before any block: zero. -/
def acc (s v : ℕ → C → EReal) : ℕ → EReal
  | 0 => 0
  | k + 1 => accNext (st s k).1 (acc s v k) (s k) (v k)

/-- The row's result after k blocks, with the division written as a product with the reciprocal. -/
def out (s v : ℕ → C → EReal) (k : ℕ) : EReal := acc s v k * (1 / (st s k).2)

end Merge

/-- Block b of a row of 8192 entries cut into 8 blocks of 1024 (minus infinity past the last block: never read). -/
def blk (f : Fin 8192 → EReal) (b : ℕ) (c : Fin 1024) : EReal :=
  if h : b < 8 then f ⟨b * 1024 + c.val, by have := c.isLt; omega⟩ else ⊥

/-- The layer's result computed block by block: the running weighted sum over the running normaliser after all
    8 blocks of row i, the values being column d of the hidden features. -/
def kerOut (s : Fin 8192 → Fin 8192 → EReal) (h : Fin 8192 → Fin 128 → EReal) (i : Fin 8192) (d : Fin 128) : EReal :=
  Ideal.div (acc (blk (s i)) (blk (fun j => h j d)) 8) (st (blk (s i)) 8).2

end Cert.AttnSpec

end
-- ==== Proof.LibMatmulNT.lean ====
/-
  A TensorCore product of an M×K matrix with an N×K matrix, each contracted along its SECOND axis (the right factor
  enters transposed without being transposed in memory), at exact arithmetic, read at an entry: the accumulator's
  entry plus the sum over the contracted axis of the products of the left factor's row entries with the right
  factor's ROW entries,

      (acc + l · rᵀ)[j₀, j₁] = acc[j₀, j₁] + Σ_k l[j₀, k] · r[j₁, k].

  Stated for any contraction record between two-axis shapes whose operand indices are "row of the result, contracted
  position" and "column of the result, contracted position" — four facts that hold by computation for the record such
  a product prints. Nothing is asked of the entries: at exact arithmetic the product is this sum by definition, and the
  only step is to re-index the one-axis contraction by its coordinate.
-/
import Idealize.ShloMosaic.Lib.ValueIdx
import Idealize.ShloMosaic.PureOps.Ideal.Laws

noncomputable section

namespace LibMatmulNT

open Idealize.ShloMosaic Idealize.ShloMosaic.ValueIdx

/-- `tpu.matmul` of an M×K by an N×K matrix, both contracted on axis 1, onto an accumulator, at entry `j`:
    `acc[j] + Σ_k l[j₀,k] · r[j₁,k]`. -/
theorem matmul_nt_apply {M K N : ℕ} {φ₁ φ₂ : FTy} (D : DotDims ⟨2, ![M, K]⟩ ⟨2, ![N, K]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (j 1).val) (hr1 : ∀ j k, (D.rhsIdx j k 1).val = (k ⟨0, by omega⟩).val)
    (prec : Option ContractPrecision) (l : FVec Ideal ⟨2, ![M, K]⟩ φ₁) (r : FVec Ideal ⟨2, ![N, K]⟩ φ₂)
    (acc : FVec Ideal ⟨2, ![M, N]⟩ .f32) (j : (⟨2, ![M, N]⟩ : Shape).Idx) :
    FloatOps.matmul (F := Ideal) D prec l r acc j
      = acc j + ∑ k : Fin K, l (ix2 (n0 := M) (n1 := K) (j 0) k) * r (ix2 (n0 := N) (n1 := K) (j 1) k) := by
  rw [Ideal.matmul_apply, ← Equiv.sum_comp (contrEquiv1 D K hr hs).symm]
  refine congrArg (acc j + ·) (Finset.sum_congr rfl fun k _ => ?_)
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := N) (n1 := K) (j 1) k := funext fun a => Fin.ext (by
    match a with
    | ⟨0, _⟩ => exact hr0 _ _
    | ⟨1, _⟩ => exact (hr1 _ _).trans hk)
  rw [e1, e2]

/-- The same into the zero splat: the accumulator's entry is `0`, so the entry is the bare sum. -/
theorem matmul_nt_zero_apply {M K N : ℕ} {φ₁ φ₂ : FTy} (D : DotDims ⟨2, ![M, K]⟩ ⟨2, ![N, K]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (j 1).val) (hr1 : ∀ j k, (D.rhsIdx j k 1).val = (k ⟨0, by omega⟩).val)
    (prec : Option ContractPrecision) (l : FVec Ideal ⟨2, ![M, K]⟩ φ₁) (r : FVec Ideal ⟨2, ![N, K]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := N) (n1 := K) (j 1) k) := by
  rw [matmul_nt_apply D hr hs hl0 hl1 hr0 hr1]
  show Ideal.ofBits .f32 0x00000000#32 + _ = _
  rw [Ideal.ofBits_zero_f32, zero_add]

end LibMatmulNT

end
-- ==== Proof.LibKeepdims.lean ====
/-
  A sum along one axis of a matrix that keeps the reduced axis as a unit axis, read at an index.

  A row sum with the axis kept is printed as a reduction of the [A, B] matrix over axis 1 into a vector of length
  A, followed by a cast of that vector into the [A, 1] column. At exact arithmetic the reduction at row r is the
  sum over k of the entry (r, k); the cast reads the vector at r, because (r, 0) and r have the same row-major
  position. The same for a column sum over axis 0.
-/
import Idealize.ShloMosaic.Lib.ValueIdx
import Idealize.ShloMosaic.Lib.Pipeline.Value
import Idealize.ShloMosaic.PureOps.Ideal.Laws

noncomputable section

namespace LibKeepdims

open Idealize.ShloMosaic Idealize.ShloMosaic.ValueIdx

variable {φ : FTy}

/-- The exact sum over axis 1 of an [A, B] matrix, at row r: the sum over k of the entry (r, k). -/
theorem sum_axis1_apply {A B : ℕ} (src : FVec Ideal ⟨2, ![A, B]⟩ φ) (acc : BitVec φ.bits)
    (h : Shape.Reduces ⟨2, ![A, B]⟩ [1] ⟨1, ![A]⟩) (hφ : FKind.Formats φ) (hacc : acc = FKind.add.neutral φ hφ) (r : Fin A) :
    multiReduction .add [1] ⟨1, ![A]⟩ src acc h hφ hacc (ix1 r) = ∑ k : Fin B, src (ix2 r k) := by
  refine (Ideal.multiReduction_add_single src acc h hφ hacc (ix1 r)).trans ?_
  show ∑ k : Fin B, src (h.lift (ix1 r) k) = _
  refine Finset.sum_congr rfl fun k _ => congrArg src ?_
  funext d
  match d with
  | ⟨0, _⟩ => exact Fin.ext rfl
  | ⟨1, _⟩ => exact Fin.ext rfl

/-- The exact sum over axis 0 of an [A, B] matrix, at column c: the sum over k of the entry (k, c). -/
theorem sum_axis0_apply {A B : ℕ} (src : FVec Ideal ⟨2, ![A, B]⟩ φ) (acc : BitVec φ.bits)
    (h : Shape.Reduces ⟨2, ![A, B]⟩ [0] ⟨1, ![B]⟩) (hφ : FKind.Formats φ) (hacc : acc = FKind.add.neutral φ hφ) (c : Fin B) :
    multiReduction .add [0] ⟨1, ![B]⟩ src acc h hφ hacc (ix1 c) = ∑ k : Fin A, src (ix2 k c) := by
  refine (Ideal.multiReduction_add_single src acc h hφ hacc (ix1 c)).trans ?_
  show ∑ k : Fin A, src (h.lift (ix1 c) k) = _
  refine Finset.sum_congr rfl fun k _ => congrArg src ?_
  funext d
  match d with
  | ⟨0, _⟩ => exact Fin.ext rfl
  | ⟨1, _⟩ => exact Fin.ext rfl

/-- A vector of length a cast into the [a, 1] column, read at (r, 0): the vector at r. -/
theorem shapeCast_col_apply {α : Type} {a : ℕ} (x : (⟨1, ![a]⟩ : Shape).Idx → α)
    (h : (⟨1, ![a]⟩ : Shape).ShapeCasts ⟨2, ![a, 1]⟩) (r : Fin a) (z : Fin 1) :
    shapeCast ⟨2, ![a, 1]⟩ x h (ix2 r z) = x (ix1 r) := by
  refine shapeCast_apply x h _ _ ?_
  rw [Shape.rowMajor_val_one, Shape.rowMajor_val_two]
  show r.val = r.val * 1 + z.val
  omega

end LibKeepdims

end
-- ==== Proof.LibRowOps.lean ====
/-
  A vector used as a row, read at an index.

  A vector of length b cast into the [1, b] row reads, at (z, q), the vector at q: (z, q) with z = 0 and q have the
  same row-major position. A [1, b] row broadcast to [a, b] reads, at (p, q), the row at q.
-/
import Idealize.ShloMosaic.Lib.ValueIdx
import Idealize.ShloMosaic.Lib.Pipeline.Value

noncomputable section

namespace LibRowOps

open Idealize.ShloMosaic Idealize.ShloMosaic.ValueIdx

/-- A vector of length b cast into the [1, b] row, read at (z, q): the vector at q. -/
theorem shapeCast_row_apply {α : Type} {b : ℕ} (x : (⟨1, ![b]⟩ : Shape).Idx → α)
    (h : (⟨1, ![b]⟩ : Shape).ShapeCasts ⟨2, ![1, b]⟩) (z : Fin 1) (q : Fin b) :
    shapeCast ⟨2, ![1, b]⟩ x h (ix2 z q) = x (ix1 q) := by
  refine shapeCast_apply x h _ _ ?_
  rw [Shape.rowMajor_val_one, Shape.rowMajor_val_two]
  show q.val = z.val * b + q.val
  have := z.isLt
  have hz : z.val = 0 := by omega
  rw [hz, Nat.zero_mul, Nat.zero_add]

/-- A [1, b] row broadcast to [a, b] reads, at (p, q), the row at q. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

end LibRowOps

end
-- ==== Proof.Pay0.lean ====
/-
  The projection kernel's arithmetic read at one entry, at exact arithmetic.

  The body forms, for a block of 1024 nodes, the hidden features
      h[r, d] = (Σ_k x[r, k] · W[d, k]) + b[0, d]
  (a product with the weight matrix entering transposed, into a zero accumulator, plus the bias row repeated down
  the rows), stores them in a narrower float format — which changes nothing at exact arithmetic — and forms the two
  halves of the attention logits
      a[r, 0] = (Σ_d h[r, d] · w[0, d]) + β[0, 0]
  (the row w repeated down the rows, an entrywise product, a sum along each row kept as a column, plus the 1×1 bias
  repeated down the column).
-/
import proofs.«124015_j46024869544127_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«124015_j46024869544127_2_alg».proof.Proof.AttnSpec
import proofs.«124015_j46024869544127_2_alg».proof.Proof.LibMatmulNT
import proofs.«124015_j46024869544127_2_alg».proof.Proof.LibKeepdims
import proofs.«124015_j46024869544127_2_alg».proof.Proof.LibRowOps

noncomputable section

open scoped BigOperators

namespace Cert.KernelIdeal.PayValue

open Cert.KernelIdeal Cert.KernelIdeal.Gen Idealize.ShloMosaic Idealize.ShloMosaic.ValueIdx Cert.AttnSpec

/-- The hidden features at (r, d): row r of the features against row d of the weights, plus the bias at d. -/
theorem pay0_1 (v0 : Vec Ideal S1024x256 .f32) (v1 : Vec Ideal S128x256 .f32) (v3 : Vec Ideal S1x128 .f32)
    (r : Fin 1024) (d : Fin 128) :
    k0_pay1 (F := Ideal) v0 v1 v3 (ix2 r d)
      = (∑ k : Fin 256, v0 (ix2 r k) * v1 (ix2 d k)) + v3 (ix2 (0 : Fin 1) d) := by
  unfold k0_pay1
  refine (addf_apply _ _ _).trans (congrArg₂ (· + ·) ?_ ?_)
  · exact LibMatmulNT.matmul_nt_zero_apply dot_S1024x256_S128x256_S1024x128_1_1_0_0_n_n rfl rfl
      (fun _ _ => rfl) (fun _ _ => rfl) (fun _ _ => rfl) (fun _ _ => rfl) none v0 v1 (ix2 r d)
  · rw [shapeCast_self]
    exact LibRowOps.broadcastTo_row_apply v3 _ r d

/-- Storing the hidden features in the narrower format keeps every entry: a change of float format is the
    identity at exact arithmetic. -/
theorem pay0_4 (v0 : Vec Ideal S1024x256 .f32) (v1 : Vec Ideal S128x256 .f32) (v3 : Vec Ideal S1x128 .f32)
    (r : Fin 1024) (d : Fin 128) :
    k0_pay4 (F := Ideal) v0 v1 v3 (ix2 r d) = k0_pay1 (F := Ideal) v0 v1 v3 (ix2 r d) := rfl

/-- A matrix times a repeated row, summed along each row and kept as a column, plus a repeated 1×1 bias, at (r, 0):
    the sum over d of the matrix's entry (r, d) times the row's entry d, plus the bias. -/
theorem half_apply (h : FVec Ideal S1024x128 .f32) (w : Vec Ideal S1x128 .f32) (β : Vec Ideal S1x1 .f32)
    (hφ : FKind.Formats .f32) (hacc : (0x00000000#32 : BitVec 32) = FKind.add.neutral .f32 hφ) (r : Fin 1024) :
    addf (shapeCast S1024x1 (multiReduction .add [1] S1024 (mulf h (broadcastTo S1024x128 w broadcasts_S1x128_S1024x128))
        0x00000000#32 reduces_S1024x128_S1024 hφ hacc) shapeCasts_S1024_S1024x1)
      (broadcastTo S1024x1 (shapeCast S1x1 β shapeCasts_S1x1_S1x1) broadcasts_S1x1_S1024x1) (ix2 r (0 : Fin 1))
      = (∑ d : Fin 128, h (ix2 r d) * w (ix2 (0 : Fin 1) d)) + β (ix2 (0 : Fin 1) (0 : Fin 1)) := by
  refine (addf_apply _ _ _).trans (congrArg₂ (· + ·) ?_ ?_)
  · refine (LibKeepdims.shapeCast_col_apply _ _ r (0 : Fin 1)).trans ?_
    refine (LibKeepdims.sum_axis1_apply _ _ _ _ _ r).trans ?_
    refine Finset.sum_congr rfl fun d _ => ?_
    refine (mulf_apply _ _ _).trans ?_
    exact congrArg (h (ix2 r d) * ·) (LibRowOps.broadcastTo_row_apply w _ r d)
  · rw [shapeCast_self]
    exact LibRowOps.broadcastTo_row_apply β _ r (0 : Fin 1)

/-- The first half of the logits at (r, 0). -/
theorem pay0_2 (v0 : Vec Ideal S1024x256 .f32) (v1 : Vec Ideal S128x256 .f32) (v3 : Vec Ideal S1x128 .f32)
    (v7 : Vec Ideal S1x128 .f32) (v12 : Vec Ideal S1x1 .f32) (r : Fin 1024) :
    k0_pay2 (F := Ideal) v0 v1 v3 v7 v12 (ix2 r (0 : Fin 1))
      = (∑ d : Fin 128, k0_pay1 (F := Ideal) v0 v1 v3 (ix2 r d) * v7 (ix2 (0 : Fin 1) d))
        + v12 (ix2 (0 : Fin 1) (0 : Fin 1)) := by
  unfold k0_pay2
  exact half_apply (k0_pay1 (F := Ideal) v0 v1 v3) v7 v12 _ _ r

/-- The second half of the logits at (r, 0). -/
theorem pay0_3 (v0 : Vec Ideal S1024x256 .f32) (v1 : Vec Ideal S128x256 .f32) (v3 : Vec Ideal S1x128 .f32)
    (v16 : Vec Ideal S1x128 .f32) (v21 : Vec Ideal S1x1 .f32) (r : Fin 1024) :
    k0_pay3 (F := Ideal) v0 v1 v3 v16 v21 (ix2 r (0 : Fin 1))
      = (∑ d : Fin 128, k0_pay1 (F := Ideal) v0 v1 v3 (ix2 r d) * v16 (ix2 (0 : Fin 1) d))
        + v21 (ix2 (0 : Fin 1) (0 : Fin 1)) := by
  unfold k0_pay3
  exact half_apply (k0_pay1 (F := Ideal) v0 v1 v3) v16 v21 _ _ r

end Cert.KernelIdeal.PayValue

end
-- ==== Proof.KI.Value0.lean ====
/- The projection kernel's three output arrays after its region, each as one function of the region's entry
   contents, entry by entry, at exact arithmetic: the hidden features h[i, d] = (Σ_k x[i, k] · W[d, k]) + b[0, d]
   and the two halves of the attention logits a[i, 0] = (Σ_d h[i, d] · w[0, d]) + β[0, 0]. Grid point t works on
   rows 1024·t … 1024·t + 1023; the weights, the bias and the logit rows are whole at every point. -/
import proofs.«124015_j46024869544127_2_alg».proof.Proof.KI.Region0
import proofs.«124015_j46024869544127_2_alg».proof.Proof.Pay0
import Idealize.ShloMosaic.Lib.Pipeline.Value
import Idealize.ShloMosaic.Lib.ValueIdx

noncomputable section

open scoped BigOperators

namespace Cert.KernelIdeal.HandValue

open Cert.KernelIdeal Cert.KernelIdeal.Gen Cert.KernelIdeal.Hand Cert.KernelIdeal.PayValue
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The functions -/

/-- The hidden features at node `i`, feature `d`: row `i` of the node features against row `d` of the weights, plus
    the bias at `d`. -/
def h0 (c : Dev nD) (i : Fin 8192) (d : Fin 128) : EReal :=
  Cert.AttnSpec.hid (fun i k => V c main_arg0 (ix2 i k)) (fun d k => V c main_arg2 (ix2 d k))
    (fun d => V c main_v0 (ix2 (0 : Fin 1) d)) i d

/-! ## The printed index maps, decided over the grid -/

/-- The row-blocked windows (the node features and the three outputs) are at row block `t`, column block 0; every
    other window is at block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- Every row block is some point's. -/
theorem idx_onto0 : ∀ q : Fin 8, ∃ t : Fin cfg0.N, t.val = q.val :=
  (by decide +kernel : ∀ q : Fin 8, ∃ t : Fin grid0.N, t.val = q.val)

/-! ## Each input window's block as entries of its array -/

/-- The node features' block at point `t` is rows `1024·t …` of the array. -/
theorem iblk0_0_apply (c : Dev nD) (t : Fin cfg0.N) (x : S1024x256.Idx) (k : S8192x256.Idx)
    (hk0 : (k 0).val = 1024 * t.val + (x 0).val) (hk1 : (k 1).val = (x 1).val) :
    (iblk0 V c 0 t : Vec Ideal S1024x256 .f32) x = (V c main_arg0 : S8192x256.Idx → EReal) k := by
  obtain ⟨e0, e1, -, -, -, -, -, -, -, -, -, -, -, -, -, -, -, -, -, -⟩ := idx_facts0 t
  unfold iblk0
  rw [View.read_apply]
  show V c main_arg0 _ = V c main_arg0 _
  congr 1
  funext a
  apply Fin.ext
  match a with
  | ⟨0, _⟩ => show win0_0.index t 0 * 1024 + 1 * (x 0).val = (k 0).val; rw [e0, hk0]; omega
  | ⟨1, _⟩ => show win0_0.index t 1 * 256 + 1 * (x 1).val = (k 1).val; rw [e1, hk1]; omega

/-- The weights' block at every point is the whole array. -/
theorem iblk0_1_apply (c : Dev nD) (t : Fin cfg0.N) (x : S128x256.Idx) :
    (iblk0 V c 1 t : Vec Ideal S128x256 .f32) x = (V c main_arg2 : S128x256.Idx → EReal) x := by
  obtain ⟨-, -, e0, e1, -, -, -, -, -, -, -, -, -, -, -, -, -, -, -, -⟩ := idx_facts0 t
  unfold iblk0
  rw [View.read_apply]
  show V c main_arg2 _ = V c main_arg2 _
  congr 1
  funext a
  apply Fin.ext
  match a with
  | ⟨0, _⟩ => show win0_1.index t 0 * 128 + 1 * (x 0).val = (x 0).val; rw [e0]; omega
  | ⟨1, _⟩ => show win0_1.index t 1 * 256 + 1 * (x 1).val = (x 1).val; rw [e1]; omega

/-- The bias row's block at every point is the whole array. -/
theorem iblk0_2_apply (c : Dev nD) (t : Fin cfg0.N) (x : S1x128.Idx) :
    (iblk0 V c 2 t : Vec Ideal S1x128 .f32) x = (V c main_v0 : S1x128.Idx → EReal) x := by
  obtain ⟨-, -, -, -, e0, e1, -, -, -, -, -, -, -, -, -, -, -, -, -, -⟩ := idx_facts0 t
  unfold iblk0
  rw [View.read_apply]
  show V c main_v0 _ = V c main_v0 _
  congr 1
  funext a
  apply Fin.ext
  match a with
  | ⟨0, _⟩ => show win0_2.index t 0 * 1 + 1 * (x 0).val = (x 0).val; rw [e0]; omega
  | ⟨1, _⟩ => show win0_2.index t 1 * 128 + 1 * (x 1).val = (x 1).val; rw [e1]; omega

/-- The first logit row's block at every point is the whole array. -/
theorem iblk0_3_apply (c : Dev nD) (t : Fin cfg0.N) (x : S1x128.Idx) :
    (iblk0 V c 3 t : Vec Ideal S1x128 .f32) x = (V c main_arg4 : S1x128.Idx → EReal) x := by
  obtain ⟨-, -, -, -, -, -, e0, e1, -, -, -, -, -, -, -, -, -, -, -, -⟩ := idx_facts0 t
  unfold iblk0
  rw [View.read_apply]
  show V c main_arg4 _ = V c main_arg4 _
  congr 1
  funext a
  apply Fin.ext
  match a with
  | ⟨0, _⟩ => show win0_3.index t 0 * 1 + 1 * (x 0).val = (x 0).val; rw [e0]; omega
  | ⟨1, _⟩ => show win0_3.index t 1 * 128 + 1 * (x 1).val = (x 1).val; rw [e1]; omega

/-- The first logit bias's block at every point is the whole array. -/
theorem iblk0_4_apply (c : Dev nD) (t : Fin cfg0.N) (x : S1x1.Idx) :
    (iblk0 V c 4 t : Vec Ideal S1x1 .f32) x = (V c main_v1 : S1x1.Idx → EReal) x := by
  obtain ⟨-, -, -, -, -, -, -, -, e0, e1, -, -, -, -, -, -, -, -, -, -⟩ := idx_facts0 t
  unfold iblk0
  rw [View.read_apply]
  show V c main_v1 _ = V c main_v1 _
  congr 1
  funext a
  apply Fin.ext
  match a with
  | ⟨0, _⟩ => show win0_4.index t 0 * 1 + 1 * (x 0).val = (x 0).val; rw [e0]; omega
  | ⟨1, _⟩ => show win0_4.index t 1 * 1 + 1 * (x 1).val = (x 1).val; rw [e1]; omega

/-- The second logit row's block at every point is the whole array. -/
theorem iblk0_5_apply (c : Dev nD) (t : Fin cfg0.N) (x : S1x128.Idx) :
    (iblk0 V c 5 t : Vec Ideal S1x128 .f32) x = (V c main_arg6 : S1x128.Idx → EReal) x := by
  obtain ⟨-, -, -, -, -, -, -, -, -, -, e0, e1, -, -, -, -, -, -, -, -⟩ := idx_facts0 t
  unfold iblk0
  rw [View.read_apply]
  show V c main_arg6 _ = V c main_arg6 _
  congr 1
  funext a
  apply Fin.ext
  match a with
  | ⟨0, _⟩ => show win0_5.index t 0 * 1 + 1 * (x 0).val = (x 0).val; rw [e0]; omega
  | ⟨1, _⟩ => show win0_5.index t 1 * 128 + 1 * (x 1).val = (x 1).val; rw [e1]; omega

/-- The second logit bias's block at every point is the whole array. -/
theorem iblk0_6_apply (c : Dev nD) (t : Fin cfg0.N) (x : S1x1.Idx) :
    (iblk0 V c 6 t : Vec Ideal S1x1 .f32) x = (V c main_v2 : S1x1.Idx → EReal) x := by
  obtain ⟨-, -, -, -, -, -, -, -, -, -, -, -, e0, e1, -, -, -, -, -, -⟩ := idx_facts0 t
  unfold iblk0
  rw [View.read_apply]
  show V c main_v2 _ = V c main_v2 _
  congr 1
  funext a
  apply Fin.ext
  match a with
  | ⟨0, _⟩ => show win0_6.index t 0 * 1 + 1 * (x 0).val = (x 0).val; rw [e0]; omega
  | ⟨1, _⟩ => show win0_6.index t 1 * 1 + 1 * (x 1).val = (x 1).val; rw [e1]; omega

/-! ## The output arrays as functions of the entry contents -/

/-- The hidden-feature array. -/
def G7 (c : Dev nD) : S8192x128.Idx → EReal := fun i => h0 V c (i 0) (i 1)
/-- The first half of the logits, as a column. -/
def G8 (c : Dev nD) : S8192x1.Idx → EReal := fun i => (∑ d : Fin 128, h0 V c (i 0) d * V c main_arg4 (ix2 (0 : Fin 1) d)) + V c main_v1 (ix2 (0 : Fin 1) (0 : Fin 1))
/-- The second half of the logits, as a column. -/
def G9 (c : Dev nD) : S8192x1.Idx → EReal := fun i => (∑ d : Fin 128, h0 V c (i 0) d * V c main_arg6 (ix2 (0 : Fin 1) d)) + V c main_v2 (ix2 (0 : Fin 1) (0 : Fin 1))

/-! ## The payloads at any entry of their block -/

/-- An index of a one-column shape is its row and column 0. -/
theorem eq_ix2_col {n : Nat} (j : (⟨2, ![n, 1]⟩ : Shape).Idx) : j = ix2 (j 0) (0 : Fin 1) := by
  funext a
  match a with
  | ⟨0, _⟩ => rfl
  | ⟨1, _⟩ => exact Fin.ext (Nat.lt_one_iff.mp (idx2_lt1 j))

theorem pay7_at (x0 : Vec Ideal S1024x256 .f32) (x1 : Vec Ideal S128x256 .f32) (x2 : Vec Ideal S1x128 .f32) (j : S1024x128.Idx) :
    k0_pay4 (F := Ideal) x0 x1 x2 j = (∑ k : Fin 256, x0 (ix2 (j 0) k) * x1 (ix2 (j 1) k)) + x2 (ix2 (0 : Fin 1) (j 1)) :=
  (congrArg (k0_pay4 (F := Ideal) x0 x1 x2) (eq_ix2 j)).trans ((pay0_4 x0 x1 x2 (j 0) (j 1)).trans (pay0_1 x0 x1 x2 (j 0) (j 1)))

theorem pay8_at (x0 : Vec Ideal S1024x256 .f32) (x1 : Vec Ideal S128x256 .f32) (x2 : Vec Ideal S1x128 .f32)
    (x3 : Vec Ideal S1x128 .f32) (x4 : Vec Ideal S1x1 .f32) (j : S1024x1.Idx) :
    k0_pay2 (F := Ideal) x0 x1 x2 x3 x4 j
      = (∑ d : Fin 128, ((∑ k : Fin 256, x0 (ix2 (j 0) k) * x1 (ix2 d k)) + x2 (ix2 (0 : Fin 1) d)) * x3 (ix2 (0 : Fin 1) d))
        + x4 (ix2 (0 : Fin 1) (0 : Fin 1)) :=
  (congrArg (k0_pay2 (F := Ideal) x0 x1 x2 x3 x4) (eq_ix2_col j)).trans ((pay0_2 x0 x1 x2 x3 x4 (j 0)).trans
    (congrArg (· + x4 (ix2 (0 : Fin 1) (0 : Fin 1))) (Finset.sum_congr rfl fun d _ =>
      congrArg (· * x3 (ix2 (0 : Fin 1) d)) (pay0_1 x0 x1 x2 (j 0) d))))

theorem pay9_at (x0 : Vec Ideal S1024x256 .f32) (x1 : Vec Ideal S128x256 .f32) (x2 : Vec Ideal S1x128 .f32)
    (x5 : Vec Ideal S1x128 .f32) (x6 : Vec Ideal S1x1 .f32) (j : S1024x1.Idx) :
    k0_pay3 (F := Ideal) x0 x1 x2 x5 x6 j
      = (∑ d : Fin 128, ((∑ k : Fin 256, x0 (ix2 (j 0) k) * x1 (ix2 d k)) + x2 (ix2 (0 : Fin 1) d)) * x5 (ix2 (0 : Fin 1) d))
        + x6 (ix2 (0 : Fin 1) (0 : Fin 1)) :=
  (congrArg (k0_pay3 (F := Ideal) x0 x1 x2 x5 x6) (eq_ix2_col j)).trans ((pay0_3 x0 x1 x2 x5 x6 (j 0)).trans
    (congrArg (· + x6 (ix2 (0 : Fin 1) (0 : Fin 1))) (Finset.sum_congr rfl fun d _ =>
      congrArg (· * x5 (ix2 (0 : Fin 1) d)) (pay0_1 x0 x1 x2 (j 0) d))))

/-! ## The payloads of the blocks at point `t` are the arrays' entries in rows `1024·t …` -/

/-- The hidden features of the blocks at point `t`, at row `r` of the block, are those of the arrays at row `1024·t + r`. -/
theorem hid_at (c : Dev nD) (t : Fin cfg0.N) (r : Fin 1024) (i : Fin 8192) (d : Fin 128) (hi : i.val = 1024 * t.val + r.val)
    (x0 : Vec Ideal S1024x256 .f32) (x1 : Vec Ideal S128x256 .f32) (x2 : Vec Ideal S1x128 .f32)
    (hx0 : x0 = iblk0 V c 0 t) (hx1 : x1 = iblk0 V c 1 t) (hx2 : x2 = iblk0 V c 2 t) :
    (∑ k : Fin 256, x0 (ix2 r k) * x1 (ix2 d k)) + x2 (ix2 (0 : Fin 1) d) = h0 V c i d := by
  subst hx0 hx1 hx2
  unfold h0 Cert.AttnSpec.hid
  refine congrArg₂ (· + ·) (Finset.sum_congr rfl fun k _ => congrArg₂ (· * ·) ?_ ?_) ?_
  · exact iblk0_0_apply V c t (ix2 r k) (ix2 i k) hi rfl
  · exact iblk0_1_apply V c t (ix2 d k)
  · exact iblk0_2_apply V c t (ix2 (0 : Fin 1) d)

theorem blk7_at (c : Dev nD) (t : Fin cfg0.N) (j : S1024x128.Idx) (i : S8192x128.Idx)
    (hi0 : (i 0).val = 1024 * t.val + (j 0).val) (hi1 : (i 1).val = (j 1).val) :
    k0_pay4 (F := Ideal) (iblk0 V c 0 t) (iblk0 V c 1 t) (iblk0 V c 2 t) j = G7 V c i := by
  refine (pay7_at _ _ _ j).trans ?_
  have e1 : j 1 = i 1 := Fin.ext hi1.symm
  exact (hid_at V c t (j 0) (i 0) (j 1) hi0 _ _ _ rfl rfl rfl).trans (congrArg (h0 V c (i 0)) e1)

theorem blk8_at (c : Dev nD) (t : Fin cfg0.N) (j : S1024x1.Idx) (i : S8192x1.Idx)
    (hi0 : (i 0).val = 1024 * t.val + (j 0).val) :
    k0_pay2 (F := Ideal) (iblk0 V c 0 t) (iblk0 V c 1 t) (iblk0 V c 2 t) (iblk0 V c 3 t) (iblk0 V c 4 t) j = G8 V c i := by
  refine (pay8_at _ _ _ _ _ j).trans ?_
  unfold G8
  refine congrArg₂ (· + ·) (Finset.sum_congr rfl fun d _ => congrArg₂ (· * ·) ?_ ?_) ?_
  · exact hid_at V c t (j 0) (i 0) d hi0 _ _ _ rfl rfl rfl
  · exact iblk0_3_apply V c t (ix2 (0 : Fin 1) d)
  · exact iblk0_4_apply V c t (ix2 (0 : Fin 1) (0 : Fin 1))

theorem blk9_at (c : Dev nD) (t : Fin cfg0.N) (j : S1024x1.Idx) (i : S8192x1.Idx)
    (hi0 : (i 0).val = 1024 * t.val + (j 0).val) :
    k0_pay3 (F := Ideal) (iblk0 V c 0 t) (iblk0 V c 1 t) (iblk0 V c 2 t) (iblk0 V c 5 t) (iblk0 V c 6 t) j = G9 V c i := by
  refine (pay9_at _ _ _ _ _ j).trans ?_
  unfold G9
  refine congrArg₂ (· + ·) (Finset.sum_congr rfl fun d _ => congrArg₂ (· * ·) ?_ ?_) ?_
  · exact hid_at V c t (j 0) (i 0) d hi0 _ _ _ rfl rfl rfl
  · exact iblk0_5_apply V c t (ix2 (0 : Fin 1) d)
  · exact iblk0_6_apply V c t (ix2 (0 : Fin 1) (0 : Fin 1))

/-! ## What each point writes back, the cover, and the arrays after the region -/

/-- What point `t` writes back of window 7 is block `t` of `G7`. -/
theorem flushed0_7_eq (c : Dev nD) (t : Fin cfg0.N) :
    (dat0 (F := Ideal) V c).flushed 7 t = ((cfg0.win 7).blk t).view.read (Elt Ideal) (G7 V c) := by
  show (cfg0.win 7).cut (grid0.coords t) ((dat0 (F := Ideal) V c).after 7 t) = _
  rw [after0_7, out0_7_eq]
  obtain ⟨-, -, -, -, -, -, -, -, -, -, -, -, -, -, e0, e1, -, -, -, -⟩ := idx_facts0 t
  funext j
  rw [View.read_apply]
  refine blk7_at V c t j _ ?_ ?_
  · show win0_7.index t (0 : Fin 2) * 1024 + 1 * (j 0).val = 1024 * t.val + (j 0).val; rw [e0]; omega
  · show win0_7.index t (1 : Fin 2) * 128 + 1 * (j 1).val = (j 1).val; rw [e1]; omega

/-- An index of the array is in point `t`'s block iff each coordinate is in the block's range on its axis. -/
theorem mem_blk7 (t : Fin cfg0.N) (i : S8192x128.Idx) :
    i ∈ ((cfg0.win 7).blk t).view.set ↔ ∀ a : Fin 2, win0_7.index t a * S1024x128.size a ≤ (i a).val ∧ (i a).val < win0_7.index t a * S1024x128.size a + S1024x128.size a := by
  show i ∈ ((View.whole main_v3_0).slice (win0_7.rect t)).set ↔ _
  rw [View.set_slice_whole, Rect.mem_set_unit]
  exact Iff.rfl

/-- Row `r` of the array is in the block of point `r / 1024`, which is written back. -/
theorem cover7 (i : S8192x128.Idx) : ∃ t : Fin cfg0.N, (cfg0.win 7).flush t = true ∧ i ∈ ((cfg0.win 7).blk t).view.set := by
  have hi0 : (i 0).val < 8192 := idx2_lt0 i
  have hi1 : (i 1).val < 128 := idx2_lt1 i
  obtain ⟨t, ht⟩ := idx_onto0 ⟨(i 0).val / 1024, by omega⟩
  have ht' : t.val = (i 0).val / 1024 := ht
  obtain ⟨-, -, -, -, -, -, -, -, -, -, -, -, -, -, e0, e1, -, -, -, -⟩ := idx_facts0 t
  refine ⟨t, flush0_7 t, ?_⟩
  rw [mem_blk7]
  intro a
  match a with
  | ⟨0, _⟩ => show win0_7.index t (0 : Fin 2) * 1024 ≤ (i 0).val ∧ (i 0).val < win0_7.index t (0 : Fin 2) * 1024 + 1024; rw [e0]; omega
  | ⟨1, _⟩ => show win0_7.index t (1 : Fin 2) * 128 ≤ (i 1).val ∧ (i 1).val < win0_7.index t (1 : Fin 2) * 128 + 128; rw [e1]; omega

/-- The array after the region is `G7`. -/
theorem final0_7 (c : Dev nD) : (dat0 (F := Ideal) V c).arrAt 7 cfg0.N = G7 V c :=
  (dat0 (F := Ideal) V c).arrAt_eq_of_cover 7 (G7 V c) (fun t _ => flushed0_7_eq V c t) cover7

/-- What point `t` writes back of window 8 is block `t` of `G8`. -/
theorem flushed0_8_eq (c : Dev nD) (t : Fin cfg0.N) :
    (dat0 (F := Ideal) V c).flushed 8 t = ((cfg0.win 8).blk t).view.read (Elt Ideal) (G8 V c) := by
  show (cfg0.win 8).cut (grid0.coords t) ((dat0 (F := Ideal) V c).after 8 t) = _
  rw [after0_8, out0_8_eq]
  obtain ⟨-, -, -, -, -, -, -, -, -, -, -, -, -, -, -, -, e0, e1, -, -⟩ := idx_facts0 t
  funext j
  rw [View.read_apply]
  refine blk8_at V c t j _ ?_
  · show win0_8.index t (0 : Fin 2) * 1024 + 1 * (j 0).val = 1024 * t.val + (j 0).val; rw [e0]; omega

/-- An index of the array is in point `t`'s block iff each coordinate is in the block's range on its axis. -/
theorem mem_blk8 (t : Fin cfg0.N) (i : S8192x1.Idx) :
    i ∈ ((cfg0.win 8).blk t).view.set ↔ ∀ a : Fin 2, win0_8.index t a * S1024x1.size a ≤ (i a).val ∧ (i a).val < win0_8.index t a * S1024x1.size a + S1024x1.size a := by
  show i ∈ ((View.whole main_v3_1).slice (win0_8.rect t)).set ↔ _
  rw [View.set_slice_whole, Rect.mem_set_unit]
  exact Iff.rfl

/-- Row `r` of the array is in the block of point `r / 1024`, which is written back. -/
theorem cover8 (i : S8192x1.Idx) : ∃ t : Fin cfg0.N, (cfg0.win 8).flush t = true ∧ i ∈ ((cfg0.win 8).blk t).view.set := by
  have hi0 : (i 0).val < 8192 := idx2_lt0 i
  have hi1 : (i 1).val < 1 := idx2_lt1 i
  obtain ⟨t, ht⟩ := idx_onto0 ⟨(i 0).val / 1024, by omega⟩
  have ht' : t.val = (i 0).val / 1024 := ht
  obtain ⟨-, -, -, -, -, -, -, -, -, -, -, -, -, -, -, -, e0, e1, -, -⟩ := idx_facts0 t
  refine ⟨t, flush0_8 t, ?_⟩
  rw [mem_blk8]
  intro a
  match a with
  | ⟨0, _⟩ => show win0_8.index t (0 : Fin 2) * 1024 ≤ (i 0).val ∧ (i 0).val < win0_8.index t (0 : Fin 2) * 1024 + 1024; rw [e0]; omega
  | ⟨1, _⟩ => show win0_8.index t (1 : Fin 2) * 1 ≤ (i 1).val ∧ (i 1).val < win0_8.index t (1 : Fin 2) * 1 + 1; rw [e1]; omega

/-- The array after the region is `G8`. -/
theorem final0_8 (c : Dev nD) : (dat0 (F := Ideal) V c).arrAt 8 cfg0.N = G8 V c :=
  (dat0 (F := Ideal) V c).arrAt_eq_of_cover 8 (G8 V c) (fun t _ => flushed0_8_eq V c t) cover8

/-- What point `t` writes back of window 9 is block `t` of `G9`. -/
theorem flushed0_9_eq (c : Dev nD) (t : Fin cfg0.N) :
    (dat0 (F := Ideal) V c).flushed 9 t = ((cfg0.win 9).blk t).view.read (Elt Ideal) (G9 V c) := by
  show (cfg0.win 9).cut (grid0.coords t) ((dat0 (F := Ideal) V c).after 9 t) = _
  rw [after0_9, out0_9_eq]
  obtain ⟨-, -, -, -, -, -, -, -, -, -, -, -, -, -, -, -, -, -, e0, e1⟩ := idx_facts0 t
  funext j
  rw [View.read_apply]
  refine blk9_at V c t j _ ?_
  · show win0_9.index t (0 : Fin 2) * 1024 + 1 * (j 0).val = 1024 * t.val + (j 0).val; rw [e0]; omega

/-- An index of the array is in point `t`'s block iff each coordinate is in the block's range on its axis. -/
theorem mem_blk9 (t : Fin cfg0.N) (i : S8192x1.Idx) :
    i ∈ ((cfg0.win 9).blk t).view.set ↔ ∀ a : Fin 2, win0_9.index t a * S1024x1.size a ≤ (i a).val ∧ (i a).val < win0_9.index t a * S1024x1.size a + S1024x1.size a := by
  show i ∈ ((View.whole main_v3_2).slice (win0_9.rect t)).set ↔ _
  rw [View.set_slice_whole, Rect.mem_set_unit]
  exact Iff.rfl

/-- Row `r` of the array is in the block of point `r / 1024`, which is written back. -/
theorem cover9 (i : S8192x1.Idx) : ∃ t : Fin cfg0.N, (cfg0.win 9).flush t = true ∧ i ∈ ((cfg0.win 9).blk t).view.set := by
  have hi0 : (i 0).val < 8192 := idx2_lt0 i
  have hi1 : (i 1).val < 1 := idx2_lt1 i
  obtain ⟨t, ht⟩ := idx_onto0 ⟨(i 0).val / 1024, by omega⟩
  have ht' : t.val = (i 0).val / 1024 := ht
  obtain ⟨-, -, -, -, -, -, -, -, -, -, -, -, -, -, -, -, -, -, e0, e1⟩ := idx_facts0 t
  refine ⟨t, flush0_9 t, ?_⟩
  rw [mem_blk9]
  intro a
  match a with
  | ⟨0, _⟩ => show win0_9.index t (0 : Fin 2) * 1024 ≤ (i 0).val ∧ (i 0).val < win0_9.index t (0 : Fin 2) * 1024 + 1024; rw [e0]; omega
  | ⟨1, _⟩ => show win0_9.index t (1 : Fin 2) * 1 ≤ (i 1).val ∧ (i 1).val < win0_9.index t (1 : Fin 2) * 1 + 1; rw [e1]; omega

/-- The array after the region is `G9`. -/
theorem final0_9 (c : Dev nD) : (dat0 (F := Ideal) V c).arrAt 9 cfg0.N = G9 V c :=
  (dat0 (F := Ideal) V c).arrAt_eq_of_cover 9 (G9 V c) (fun t _ => flushed0_9_eq V c t) cover9

/-! ## The arrays after the region, entry by entry -/

theorem arr0_7 (c : Dev nD) (i : Fin 8192) (d : Fin 128) : (dat0 (F := Ideal) V c).arrAt 7 cfg0.N (ix2 i d) = h0 V c i d :=
  congrFun (final0_7 V c) (ix2 i d)

theorem arr0_8 (c : Dev nD) (i : Fin 8192) : (dat0 (F := Ideal) V c).arrAt 8 cfg0.N (ix2 i (0 : Fin 1)) = (∑ d : Fin 128, h0 V c i d * V c main_arg4 (ix2 (0 : Fin 1) d)) + V c main_v1 (ix2 (0 : Fin 1) (0 : Fin 1)) :=
  congrFun (final0_8 V c) (ix2 i (0 : Fin 1))

theorem arr0_9 (c : Dev nD) (i : Fin 8192) : (dat0 (F := Ideal) V c).arrAt 9 cfg0.N (ix2 i (0 : Fin 1)) = (∑ d : Fin 128, h0 V c i d * V c main_arg6 (ix2 (0 : Fin 1) d)) + V c main_v2 (ix2 (0 : Fin 1) (0 : Fin 1)) :=
  congrFun (final0_9 V c) (ix2 i (0 : Fin 1))

end Cert.KernelIdeal.HandValue

end
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.LibColumnOps.lean ====
/-
  A column broadcast along the rows' entries, and reductions along a row kept as a column, read at an index,
  at exact arithmetic.

  A matrix [a, 1] broadcast to [a, b] reads, at (p, q), the column's entry p. The maximum over axis 1 of an [A, B]
  matrix at row r is the fold of max over the row's entries from the initial word's value. A sum over axis 1 that is
  kept as an [A, 1] column and broadcast back to C columns reads, at (p, q), the sum of row p — the shape a
  normalisation (a softmax's denominator, a row norm) prints as.
-/
import Idealize.ShloMosaic.Lib.ValueIdx
import Idealize.ShloMosaic.Lib.Pipeline.Value
import Idealize.ShloMosaic.PureOps.Ideal.Laws
import proofs.«124015_j46024869544127_2_alg».proof.Proof.LibKeepdims

noncomputable section

namespace LibColumnOps

open Idealize.ShloMosaic Idealize.ShloMosaic.ValueIdx

/-- An [a, 1] column broadcast to [a, b] reads, at (p, q), the column at p. -/
theorem broadcastTo_col_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over axis 1 of an [A, B] matrix, at row r: the fold of max over the row, from the initial word's value. -/
theorem max_axis1_apply {A B : ℕ} {φ : FTy} (src : FVec Ideal ⟨2, ![A, B]⟩ φ) (acc : BitVec φ.bits)
    (h : Shape.Reduces ⟨2, ![A, B]⟩ [1] ⟨1, ![A]⟩) (hφ : FKind.Formats φ) (hacc : acc = FKind.maximumf.neutral φ hφ) (r : Fin A) :
    multiReduction .maximumf [1] ⟨1, ![A]⟩ src acc h hφ hacc (ix1 r)
      = (Finset.univ : Finset (Fin B)).fold max (Ideal.ofBits φ acc) (fun k => src (ix2 r k)) := by
  refine (Ideal.multiReduction_maximumf_single src acc h hφ hacc (ix1 r)).trans ?_
  refine congrArg (fun g => Finset.fold max (Ideal.ofBits φ acc) g (Finset.univ : Finset (Fin B))) (funext fun k => congrArg src ?_)
  funext d
  match d with
  | ⟨0, _⟩ => exact Fin.ext rfl
  | ⟨1, _⟩ => exact Fin.ext rfl

/-- The sum over the columns, kept as a unit column and broadcast to C columns, at (p, q): the sum of row p. -/
theorem rowsum_bcast_apply {A B C : ℕ} (y : FVec Ideal ⟨2, ![A, B]⟩ .f32)
    (hred : Shape.Reduces ⟨2, ![A, B]⟩ [1] ⟨1, ![A]⟩) (hcast : (⟨1, ![A]⟩ : Shape).ShapeCasts ⟨2, ![A, 1]⟩)
    (hb : (⟨2, ![A, 1]⟩ : Shape).Broadcasts ⟨2, ![A, C]⟩) (hφ : FKind.Formats .f32)
    (hacc : (0x00000000#32 : BitVec 32) = FKind.add.neutral .f32 hφ) (p : Fin A) (q : Fin C) :
    broadcastTo ⟨2, ![A, C]⟩ (shapeCast ⟨2, ![A, 1]⟩ (multiReduction .add [1] ⟨1, ![A]⟩ y 0x00000000#32 hred hφ hacc) hcast) hb (ix2 p q)
      = ∑ l, y (ix2 p l) := by
  rw [broadcastTo_col_apply, LibKeepdims.shapeCast_col_apply, LibKeepdims.sum_axis1_apply]

end LibColumnOps

end
-- ==== Proof.Pay1.lean ====
/-
  The attention kernel's arithmetic read at one entry, at exact arithmetic.

  For a block of 1024 rows against a block of 1024 columns the body forms the logits
      s[r, c] = lrelu (if adj[r, c] > 0 then a1[r, 0] + a2[0, c] else fill)
  (a column repeated along the rows plus a row repeated down the columns, masked by the sign of the adjacency word,
  then the leaky rectifier written as "x where x > 0, else slope · x"), the new running maximum
      m'[r] = max (m[r], max_c s[r, c])
  (the maximum along a row starts from minus infinity, so it is the fold of max from ⊥), the rescaling factor
  exp (m[r] - m'[r]), the weights exp (s[r, c] - m'[r]), the new normaliser
      l'[r] = exp (m[r] - m'[r]) · l[r] + Σ_c exp (s[r, c] - m'[r])
  and the new weighted sum
      acc'[r, d] = α[r] · acc[r, d] + Σ_c p[r, c] · h[c, d]
  (a product into a zero accumulator; the weights enter it in a narrower float format, which changes nothing). The
  last block divides the weighted sum by the normaliser, and the first block starts the three carried arrays at
  ⊥, 0 and 0.
-/
import proofs.«124015_j46024869544127_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«124015_j46024869544127_2_alg».proof.Proof.AttnSpec
import proofs.«124015_j46024869544127_2_alg».proof.Proof.LibMatmulIdx
import proofs.«124015_j46024869544127_2_alg».proof.Proof.LibKeepdims
import proofs.«124015_j46024869544127_2_alg».proof.Proof.LibColumnOps
import proofs.«124015_j46024869544127_2_alg».proof.Proof.LibRowOps

noncomputable section

open scoped BigOperators

namespace Cert.KernelIdeal.PayValue

open Cert.KernelIdeal Cert.KernelIdeal.Gen Idealize.ShloMosaic Idealize.ShloMosaic.ValueIdx Cert.AttnSpec

/-- The logits of a block: row r against column c. -/
def sc (v3 : Vec Ideal S1024x1 .f32) (v5 : Vec Ideal S1x1024 .f32) (v10 : Vec Ideal S1024x1024 .i32)
    (r c : Fin 1024) : EReal :=
  lrelu (if IntOp.cmpi .sgt (v10 (ix2 r c)) 0#32 = 1 then v3 (ix2 r (0 : Fin 1)) + v5 (ix2 (0 : Fin 1) c) else fill)

/-- The word of minus infinity reads ⊥. -/
theorem ofBits_neg_inf_f32 : Ideal.ofBits .f32 0xFF800000#32 = ⊥ := by simp [Ideal.ofBits, Ideal.ieee]

/-- A select on a one-bit word is the "if" on the word being 1. -/
theorem select_ite {α : Type} (c : BitVec 1) (a b : α) : Scalar.select c a b = if c = 1 then a else b := rfl

/-- The rectifier as printed — "x where x is above the zero word, else the slope word times x" — is lrelu. -/
theorem lrelu_word (x : EReal) :
    Scalar.select (FloatOps.cmpf (F := Ideal) (φ := .f32) .ogt x (Scalar.ofBits .f32 0x00000000#32)) x
        (FloatOps.mulf (F := Ideal) (φ := .f32) (Scalar.ofBits .f32 0x3C23D70A#32) x)
      = lrelu x := by
  show (if BitVec.ofBool (decide (Ideal.ofBits .f32 0x00000000#32 < x)) = 1 then x else slope * x) = if 0 < x then x else slope * x
  rw [Ideal.ofBits_zero_f32]
  by_cases h : 0 < x
  · rw [if_pos h, if_pos (by simp [h])]
  · rw [if_neg h, if_neg (by simp [h])]

theorem pay1_8 (v3 : Vec Ideal S1024x1 .f32) (v5 : Vec Ideal S1x1024 .f32) (v10 : Vec Ideal S1024x1024 .i32)
    (r c : Fin 1024) :
    k1_pay8 (F := Ideal) v3 v5 v10 (ix2 r c) = sc v3 v5 v10 r c := by
  unfold k1_pay8 sc
  refine (lrelu_word _).trans (congrArg lrelu ?_)
  refine (select_ite _ _ _).trans (ite_congr rfl (fun _ => ?_) (fun _ => rfl))
  refine (addf_apply _ _ _).trans (congrArg₂ (· + ·) ?_ ?_)
  · rw [shapeCast_self]
    exact LibColumnOps.broadcastTo_col_apply v3 _ r c
  · rw [shapeCast_self]
    exact LibRowOps.broadcastTo_row_apply v5 _ r c

theorem pay1_9 (v3 : Vec Ideal S1024x1 .f32) (v5 : Vec Ideal S1x1024 .f32) (v10 : Vec Ideal S1024x1024 .i32)
    (v22 : Vec Ideal S1024x1 .f32) (r : Fin 1024) :
    k1_pay9 (F := Ideal) v3 v5 v10 v22 (ix2 r (0 : Fin 1)) = mNext (v22 (ix2 r (0 : Fin 1))) (sc v3 v5 v10 r) := by
  unfold k1_pay9 mNext blockMax
  refine (maximumf_apply _ _ _).trans (congrArg (max (v22 (ix2 r (0 : Fin 1)))) ?_)
  refine (LibKeepdims.shapeCast_col_apply _ _ r (0 : Fin 1)).trans ?_
  refine (LibColumnOps.max_axis1_apply _ _ _ _ _ r).trans ?_
  rw [ofBits_neg_inf_f32]
  exact congrArg (fun g => Finset.fold max ⊥ g Finset.univ) (funext fun k => pay1_8 v3 v5 v10 r k)

theorem pay1_10 (v3 : Vec Ideal S1024x1 .f32) (v5 : Vec Ideal S1x1024 .f32) (v10 : Vec Ideal S1024x1024 .i32)
    (v22 v24 : Vec Ideal S1024x1 .f32) (r : Fin 1024) :
    k1_pay10 (F := Ideal) v3 v5 v10 v22 v24 (ix2 r (0 : Fin 1))
      = Ideal.exp (v24 (ix2 r (0 : Fin 1)) - mNext (v22 (ix2 r (0 : Fin 1))) (sc v3 v5 v10 r)) := by
  unfold k1_pay10
  exact congrArg (fun z => Ideal.exp (v24 (ix2 r (0 : Fin 1)) - z)) (pay1_9 v3 v5 v10 v22 r)

theorem pay1_11 (v3 : Vec Ideal S1024x1 .f32) (v5 : Vec Ideal S1x1024 .f32) (v10 : Vec Ideal S1024x1024 .i32)
    (v22 : Vec Ideal S1024x1 .f32) (r c : Fin 1024) :
    k1_pay11 (F := Ideal) v3 v5 v10 v22 (ix2 r c) = weight (v22 (ix2 r (0 : Fin 1))) (sc v3 v5 v10 r) c := by
  unfold k1_pay11 weight
  refine congrArg Ideal.exp (congrArg₂ (· - ·) (pay1_8 v3 v5 v10 r c) ?_)
  refine (LibColumnOps.broadcastTo_col_apply _ _ r c).trans ?_
  exact pay1_9 v3 v5 v10 v22 r

theorem pay1_12 (v3 : Vec Ideal S1024x1 .f32) (v5 : Vec Ideal S1x1024 .f32) (v10 : Vec Ideal S1024x1024 .i32)
    (v22 v24 v30 : Vec Ideal S1024x1 .f32) (r : Fin 1024) :
    k1_pay12 (F := Ideal) v3 v5 v10 v22 v24 v30 (ix2 r (0 : Fin 1))
      = Ideal.exp (v24 (ix2 r (0 : Fin 1)) - mNext (v22 (ix2 r (0 : Fin 1))) (sc v3 v5 v10 r)) * v30 (ix2 r (0 : Fin 1))
        + ∑ c : Fin 1024, weight (v22 (ix2 r (0 : Fin 1))) (sc v3 v5 v10 r) c := by
  unfold k1_pay12
  refine (addf_apply _ _ _).trans (congrArg₂ (· + ·) ?_ ?_)
  · refine (mulf_apply _ _ _).trans ?_
    exact congrArg (· * v30 (ix2 r (0 : Fin 1))) (pay1_10 v3 v5 v10 v22 v24 r)
  · refine (LibKeepdims.shapeCast_col_apply _ _ r (0 : Fin 1)).trans ?_
    refine (LibKeepdims.sum_axis1_apply _ _ _ _ _ r).trans ?_
    exact Finset.sum_congr rfl fun c _ => pay1_11 v3 v5 v10 v22 r c

theorem pay1_1 (v34 : FVec Ideal S1024x1 .f32) : k1_pay1 (F := Ideal) v34 = v34 := by
  unfold k1_pay1
  exact shapeCast_self _ _

theorem pay1_3 (v23 : FVec Ideal S1024x1 .f32) : k1_pay3 (F := Ideal) v23 = v23 := by
  unfold k1_pay3
  exact shapeCast_self _ _

theorem pay1_2 (v26 : FVec Ideal S1024x1 .f32) (v29 : FVec Ideal S1024x1024 .f32) (v38 : Vec Ideal S1024x128 .f32)
    (v42 : Vec Ideal S1024x128 .bf16) (r : Fin 1024) (d : Fin 128) :
    k1_pay2 (F := Ideal) v26 v29 v38 v42 (ix2 r d)
      = v26 (ix2 r (0 : Fin 1)) * v38 (ix2 r d) + ∑ c : Fin 1024, v29 (ix2 r c) * v42 (ix2 c d) := by
  unfold k1_pay2
  refine (congrFun (shapeCast_self _ _) (ix2 r d)).trans ?_
  refine (addf_apply _ _ _).trans (congrArg₂ (· + ·) ?_ ?_)
  · refine (mulf_apply _ _ _).trans ?_
    exact congrArg (· * v38 (ix2 r d)) (LibColumnOps.broadcastTo_col_apply v26 _ r d)
  · refine (LibMatmulIdx.matmul2_apply dot_S1024x1024_S1024x128_S1024x128_1_0_0_1_n_n rfl rfl
      (fun _ _ => rfl) (fun _ _ => rfl) (fun _ _ => rfl) (fun _ _ => rfl) none _ _ (ix2 r d)).trans ?_
    refine Finset.sum_congr rfl fun k _ => ?_
    rw [shapeCast_self]
    rfl

theorem pay1_4 (v55 : Vec Ideal S1024x128 .f32) (v56 : Vec Ideal S1024x1 .f32) (r : Fin 1024) (d : Fin 128) :
    k1_pay4 (F := Ideal) v55 v56 (ix2 r d) = Ideal.div (v55 (ix2 r d)) (v56 (ix2 r (0 : Fin 1))) := by
  unfold k1_pay4
  refine (divf_apply _ _ _).trans ?_
  exact congrArg (Ideal.div (v55 (ix2 r d))) (LibColumnOps.broadcastTo_col_apply v56 _ r d)

theorem pay1_5 (r : Fin 1024) : k1_pay5 (F := Ideal) (ix2 r (0 : Fin 1)) = ⊥ := by
  unfold k1_pay5
  rw [shapeCast_self]
  exact ofBits_neg_inf_f32

theorem pay1_6 (r : Fin 1024) : k1_pay6 (F := Ideal) (ix2 r (0 : Fin 1)) = 0 := by
  unfold k1_pay6
  rw [shapeCast_self]
  exact Ideal.ofBits_zero_f32

theorem pay1_7 (r : Fin 1024) (d : Fin 128) : k1_pay7 (F := Ideal) (ix2 r d) = 0 := by
  unfold k1_pay7
  rw [shapeCast_self]
  exact Ideal.ofBits_zero_f32

end Cert.KernelIdeal.PayValue

end
-- ==== Proof.KI.Value1Defs.lean ====
/-
  Region 1's values — the vocabulary.

  The attention kernel's grid has 64 points: point 8·ib + jb handles row block ib (1024 rows) against column block
  jb (1024 columns). For a fixed row block and a row r inside it, the eight column blocks are the eight blocks of the
  block-by-block merge: block b contributes the logits "sB … b" of row r against its 1024 columns and the values
  "vB … b", column d of the hidden features of its 1024 nodes. "s1" and "h1" are the same two tables read off the
  whole arrays: the logit of the pair (i, j), and the hidden feature d of node j.
-/
import proofs.«124015_j46024869544127_2_alg».proof.Proof.KI.R1Runs
import proofs.«124015_j46024869544127_2_alg».proof.Proof.Pay1

noncomputable section

namespace Cert.KernelIdeal.HandValue

open Cert.KernelIdeal Cert.KernelIdeal.Gen Cert.KernelIdeal.Hand Cert.KernelIdeal.PayValue Cert.AttnSpec
open Idealize.ShloMosaic Idealize.ShloMosaic.ValueIdx Idealize.ShloMosaic.TcCoe

variable (V : (c : Dev nD) → (b : Ref sig .tc) → Buf (Elt Ideal) ((c : Thread nD τ).loc b))

/-- The grid point of row block ib and column block jb. -/
def pt (ib jb : Fin 8) : Fin cfg1.N :=
  ⟨8 * ib.val + jb.val, by have := N_1; have := ib.isLt; have := jb.isLt; show _ < grid1.N; omega⟩

theorem pt_val (ib jb : Fin 8) : (pt ib jb).val = 8 * ib.val + jb.val := rfl

/-- Row r of row block ib against column block b: the rectified masked logits of the three blocks loaded at that
    point (⊥ past the last block: never read). -/
def sB (c : Dev nD) (ib : Fin 8) (r : Fin 1024) (b : ℕ) (q : Fin 1024) : EReal :=
  if h : b < 8 then
    sc (iblk1 V c 1 (pt ib ⟨b, h⟩)) (iblk1 V c 2 (pt ib ⟨b, h⟩)) (iblk1 V c 0 (pt ib ⟨b, h⟩)) r q
  else ⊥

/-- Column d of the hidden features of column block b's 1024 nodes, as loaded at that point (⊥ past the last block). -/
def vB (c : Dev nD) (ib : Fin 8) (d : Fin 128) (b : ℕ) (q : Fin 1024) : EReal :=
  if h : b < 8 then iblk1 V c 3 (pt ib ⟨b, h⟩) (ix2 q d) else ⊥

/-- The logit of the pair (i, j), read off the whole arrays the region finds. -/
def s1 (c : Dev nD) (i j : Fin 8192) : EReal :=
  lrelu (if IntOp.cmpi .sgt (V c main_arg1 (ix2 i j)) 0#32 = 1
    then @HAdd.hAdd EReal EReal EReal instHAdd (V c main_v3_1 (ix2 i (0 : Fin 1))) (V c main_v4 (ix2 (0 : Fin 1) j))
    else fill)

/-- The hidden feature d of node j, read off the whole array the region finds. -/
def h1 (c : Dev nD) (j : Fin 8192) (d : Fin 128) : EReal := V c main_v3_0 (ix2 j d)

end Cert.KernelIdeal.HandValue

end
-- ==== Proof.KI.Value1Blocks.lean ====
/-
  Region 1 (the attention kernel): from blocks to arrays.

  The grid point t = 8·ib + jb handles row block ib against column block jb. Each window's block index at t is
  decided once over the 64 points; a block's entry sits in its array, on each axis, at the block index times the block's
  size plus the coordinate inside the block. Hence the blocks the body loads at the eight points of row block ib are
  the eight blocks of 1024 columns of the whole tables of logits and of hidden features, and the result array, written
  back at the last point of each row block only, is covered by those eight write-backs.
-/
import proofs.«124015_j46024869544127_2_alg».proof.Proof.KI.Region1
import proofs.«124015_j46024869544127_2_alg».proof.Proof.Pay1
import proofs.«124015_j46024869544127_2_alg».proof.Proof.KI.Value1Defs
import Idealize.ShloMosaic.Lib.Pipeline.Value
import Idealize.ShloMosaic.Lib.ValueIdx

noncomputable section

namespace Cert.KernelIdeal.HandValue

open Cert.KernelIdeal Cert.KernelIdeal.Gen Cert.KernelIdeal.Hand Cert.KernelIdeal.PayValue Cert.AttnSpec
open Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

/-! ## The block indices, decided over the grid -/

theorem idx1 : ∀ t : Fin cfg1.N,
    win1_0.index t (0 : Fin 2) = t.val / 8 ∧ win1_0.index t (1 : Fin 2) = t.val % 8
    ∧ win1_1.index t (0 : Fin 2) = t.val / 8 ∧ win1_1.index t (1 : Fin 2) = 0
    ∧ win1_2.index t (0 : Fin 2) = 0 ∧ win1_2.index t (1 : Fin 2) = t.val % 8
    ∧ win1_3.index t (0 : Fin 2) = t.val % 8 ∧ win1_3.index t (1 : Fin 2) = 0
    ∧ win1_4.index t (0 : Fin 2) = t.val / 8 ∧ win1_4.index t (1 : Fin 2) = 0 :=
  (by decide +kernel : ∀ t : Fin grid1.N, _)

theorem lt_of_pt (t : Fin cfg1.N) : t.val < 64 := by
  have h := t.isLt
  have hN : cfg1.N = 64 := N_1
  omega

/-! ## A block's entry in its array -/

theorem iblk1_0_apply (c : Dev nD) (t : Fin cfg1.N) (r q : Fin 1024) (i j : Fin 8192)
    (hi : i.val = 1024 * (t.val / 8) + r.val) (hj : j.val = 1024 * (t.val % 8) + q.val) :
    iblk1 V c 0 t (ix2 r q) = V c main_arg1 (ix2 i j) := by
  obtain ⟨e00, e01, -⟩ := idx1 t
  unfold iblk1
  rw [View.read_apply]
  show V c main_arg1 (((cfg1.win 0).blk t).view.emb (ix2 r q)) = V c main_arg1 _
  congr 1
  funext a
  apply Fin.ext
  match a with
  | ⟨0, _⟩ => show win1_0.index t (0 : Fin 2) * 1024 + 1 * r.val = i.val; rw [e00, hi]; omega
  | ⟨1, _⟩ => show win1_0.index t (1 : Fin 2) * 1024 + 1 * q.val = j.val; rw [e01, hj]; omega

theorem iblk1_1_apply (c : Dev nD) (t : Fin cfg1.N) (r : Fin 1024) (i : Fin 8192)
    (hi : i.val = 1024 * (t.val / 8) + r.val) :
    iblk1 V c 1 t (ix2 r (0 : Fin 1)) = V c main_v3_1 (ix2 i (0 : Fin 1)) := by
  obtain ⟨-, -, e10, e11, -⟩ := idx1 t
  unfold iblk1
  rw [View.read_apply]
  show V c main_v3_1 (((cfg1.win 1).blk t).view.emb (ix2 r (0 : Fin 1))) = V c main_v3_1 _
  congr 1
  funext a
  apply Fin.ext
  match a with
  | ⟨0, _⟩ => show win1_1.index t (0 : Fin 2) * 1024 + 1 * r.val = i.val; rw [e10, hi]; omega
  | ⟨1, _⟩ => show win1_1.index t (1 : Fin 2) * 1 + 1 * 0 = 0; rw [e11]

theorem iblk1_2_apply (c : Dev nD) (t : Fin cfg1.N) (q : Fin 1024) (j : Fin 8192)
    (hj : j.val = 1024 * (t.val % 8) + q.val) :
    iblk1 V c 2 t (ix2 (0 : Fin 1) q) = V c main_v4 (ix2 (0 : Fin 1) j) := by
  obtain ⟨-, -, -, -, e20, e21, -⟩ := idx1 t
  unfold iblk1
  rw [View.read_apply]
  show V c main_v4 (((cfg1.win 2).blk t).view.emb (ix2 (0 : Fin 1) q)) = V c main_v4 _
  congr 1
  funext a
  apply Fin.ext
  match a with
  | ⟨0, _⟩ => show win1_2.index t (0 : Fin 2) * 1 + 1 * 0 = 0; rw [e20]
  | ⟨1, _⟩ => show win1_2.index t (1 : Fin 2) * 1024 + 1 * q.val = j.val; rw [e21, hj]; omega

theorem iblk1_3_apply (c : Dev nD) (t : Fin cfg1.N) (q : Fin 1024) (d : Fin 128) (j : Fin 8192)
    (hj : j.val = 1024 * (t.val % 8) + q.val) :
    iblk1 V c 3 t (ix2 q d) = V c main_v3_0 (ix2 j d) := by
  obtain ⟨-, -, -, -, -, -, e30, e31, -⟩ := idx1 t
  unfold iblk1
  rw [View.read_apply]
  show V c main_v3_0 (((cfg1.win 3).blk t).view.emb (ix2 q d)) = V c main_v3_0 _
  congr 1
  funext a
  apply Fin.ext
  match a with
  | ⟨0, _⟩ => show win1_3.index t (0 : Fin 2) * 1024 + 1 * q.val = j.val; rw [e30, hj]; omega
  | ⟨1, _⟩ => show win1_3.index t (1 : Fin 2) * 128 + 1 * d.val = d.val; rw [e31]; omega

/-! ## The eight column blocks of a row block are the blocks of the whole tables -/

/-- Row r of row block ib: its logits against column block b are block b of row 1024 · ib + r of the logits. -/
theorem sB_eq (c : Dev nD) (ib : Fin 8) (r : Fin 1024) (i : Fin 8192) (hi : i.val = 1024 * ib.val + r.val) :
    sB V c ib r = blk (s1 V c i) := by
  funext b q
  unfold sB blk
  by_cases hb : b < 8
  · rw [dif_pos hb, dif_pos hb]
    unfold sc s1
    have hq := q.isLt
    have hib := ib.isLt
    have e0 := iblk1_0_apply V c (pt ib ⟨b, hb⟩) r q i ⟨b * 1024 + q.val, by omega⟩
      (by rw [hi, pt_val]; show 1024 * ib.val + r.val = 1024 * ((8 * ib.val + b) / 8) + r.val; omega)
      (by rw [pt_val]; show b * 1024 + q.val = 1024 * ((8 * ib.val + b) % 8) + q.val; omega)
    have e1 := iblk1_1_apply V c (pt ib ⟨b, hb⟩) r i
      (by rw [hi, pt_val]; show 1024 * ib.val + r.val = 1024 * ((8 * ib.val + b) / 8) + r.val; omega)
    have e2 := iblk1_2_apply V c (pt ib ⟨b, hb⟩) q ⟨b * 1024 + q.val, by omega⟩
      (by rw [pt_val]; show b * 1024 + q.val = 1024 * ((8 * ib.val + b) % 8) + q.val; omega)
    rw [e0, e1, e2]
  · rw [dif_neg hb, dif_neg hb]

/-- Column d of the hidden features as loaded at the eight points of a row block: the blocks of the column. -/
theorem vB_eq (c : Dev nD) (ib : Fin 8) (d : Fin 128) :
    vB V c ib d = blk (fun j => h1 V c j d) := by
  funext b q
  unfold vB blk
  by_cases hb : b < 8
  · rw [dif_pos hb, dif_pos hb]
    unfold h1
    have hq := q.isLt
    have hib := ib.isLt
    exact iblk1_3_apply V c (pt ib ⟨b, hb⟩) q d ⟨b * 1024 + q.val, by omega⟩
      (by rw [pt_val]; show b * 1024 + q.val = 1024 * ((8 * ib.val + b) % 8) + q.val; omega)
  · rw [dif_neg hb, dif_neg hb]

/-! ## The result array -/

/-- An index of the result array is in point t's block iff each coordinate is in the block's range on its axis. -/
theorem mem_blk4 (t : Fin cfg1.N) (x : S8192x128.Idx) :
    x ∈ ((cfg1.win 4).blk t).view.set ↔ ∀ a : Fin 2, win1_4.index t a * S1024x128.size a ≤ (x a).val ∧ (x a).val < win1_4.index t a * S1024x128.size a + S1024x128.size a := by
  show x ∈ ((View.whole main_v5).slice (win1_4.rect t)).set ↔ _
  rw [View.set_slice_whole, Rect.mem_set_unit]
  exact Iff.rfl

/-- The result array after the region, given what the last point of each row block leaves in the output block:
    row by row, column by column the block-by-block merge over the blocks of the whole tables. -/
theorem arr1_4_of (c : Dev nD)
    (hlast : ∀ (ib : Fin 8) (r : Fin 1024) (d : Fin 128),
      (outsAt1 (F := Ideal) V c (pt ib 7).val (pt ib 7).isLt).1 (ix2 r d)
        = Ideal.div (acc (sB V c ib r) (vB V c ib d) 8) (st (sB V c ib r) 8).2)
    (i : Fin 8192) (d : Fin 128) :
    (dat1 (F := Ideal) V c).arrAt 4 cfg1.N (ix2 i d) = kerOut (s1 V c) (h1 V c) i d := by
  have hfin : (dat1 (F := Ideal) V c).arrAt 4 cfg1.N
      = (fun x : S8192x128.Idx => kerOut (s1 V c) (h1 V c) (x 0) (x 1)) := by
    refine (dat1 (F := Ideal) V c).arrAt_eq_of_cover 4 (fun x : S8192x128.Idx => kerOut (s1 V c) (h1 V c) (x 0) (x 1)) ?_ ?_
    · intro t hf
      have h7 : t.val % 8 = 7 := (flush1_4 t).mp hf
      have ht := lt_of_pt t
      obtain ⟨ib, rfl⟩ : ∃ ib : Fin 8, t = pt ib 7 :=
        ⟨⟨t.val / 8, by omega⟩, Fin.ext (by show t.val = 8 * (t.val / 8) + 7; omega)⟩
      show (cfg1.win 4).cut (grid1.coords (pt ib 7)) ((dat1 (F := Ideal) V c).after 4 (pt ib 7)) = _
      rw [after1_4]
      funext y
      obtain ⟨r, d', rfl⟩ : ∃ (r : Fin 1024) (d' : Fin 128), y = ix2 r d' := ⟨y 0, y 1, eq_ix2 y⟩
      rw [View.read_apply]
      obtain ⟨-, -, -, -, -, -, -, -, e40, e41⟩ := idx1 (pt ib 7)
      have hib := ib.isLt
      have hr := r.isLt
      have hemb : ((cfg1.win 4).blk (pt ib 7)).view.emb (ix2 r d')
          = ix2 (⟨1024 * ib.val + r.val, by omega⟩ : Fin 8192) d' := by
        funext a
        apply Fin.ext
        match a with
        | ⟨0, _⟩ => show win1_4.index (pt ib 7) (0 : Fin 2) * 1024 + 1 * r.val = 1024 * ib.val + r.val; rw [e40, pt_val]; show (8 * ib.val + 7) / 8 * 1024 + 1 * r.val = _; omega
        | ⟨1, _⟩ => show win1_4.index (pt ib 7) (1 : Fin 2) * 128 + 1 * d'.val = d'.val; rw [e41]; omega
      show (outsAt1 (F := Ideal) V c (pt ib 7).val (pt ib 7).isLt).1 (ix2 r d')
        = (fun x : S8192x128.Idx => kerOut (s1 V c) (h1 V c) (x 0) (x 1)) (((cfg1.win 4).blk (pt ib 7)).view.emb (ix2 r d'))
      rw [hemb, hlast ib r d', sB_eq V c ib r ⟨1024 * ib.val + r.val, by omega⟩ rfl, vB_eq V c ib d']
      rfl
    · intro x
      have hx0 := (x 0).isLt
      have hx1 := (x 1).isLt
      have hx0' : (x 0).val < 8192 := hx0
      have hx1' : (x 1).val < 128 := hx1
      obtain ⟨-, -, -, -, -, -, -, -, e40, e41⟩ := idx1 (pt ⟨(x 0).val / 1024, by omega⟩ 7)
      refine ⟨pt ⟨(x 0).val / 1024, by omega⟩ 7, (flush1_4 _).mpr (by rw [pt_val]; show (8 * ((x 0).val / 1024) + 7) % 8 = 7; omega), ?_⟩
      rw [mem_blk4]
      intro a
      match a with
      | ⟨0, _⟩ =>
        show win1_4.index (pt ⟨(x 0).val / 1024, _⟩ 7) (0 : Fin 2) * 1024 ≤ (x 0).val ∧ (x 0).val < win1_4.index (pt ⟨(x 0).val / 1024, _⟩ 7) (0 : Fin 2) * 1024 + 1024
        rw [e40, pt_val]
        show (8 * ((x 0).val / 1024) + 7) / 8 * 1024 ≤ (x 0).val ∧ (x 0).val < (8 * ((x 0).val / 1024) + 7) / 8 * 1024 + 1024
        omega
      | ⟨1, _⟩ =>
        show win1_4.index (pt ⟨(x 0).val / 1024, _⟩ 7) (1 : Fin 2) * 128 ≤ (x 1).val ∧ (x 1).val < win1_4.index (pt ⟨(x 0).val / 1024, _⟩ 7) (1 : Fin 2) * 128 + 128
        rw [e41]
        omega
  exact congrFun hfin (ix2 i d)

end Cert.KernelIdeal.HandValue

end
-- ==== Proof.KI.Value1Pieces.lean ====
/-
  Region 1's values — what one run of the body leaves, case by case.

  Whatever the case, the body replaces the running maximum m, the running normaliser l and the running weighted
  sum a of each row by
      m' = max (m, the block's row maximum),   l' = e^(m - m') · l + Σ_c e^(s_c - m'),   a' = e^(m - m') · a + Σ_c e^(s_c - m') · v_c,
  computed from the three blocks that give the logits s, the block of values v, and what the three carried arrays
  held when the body read them: in the middle and last column blocks what the point before left there; in the first
  column block the reset values ⊥, 0, 0 that the body itself has just stored. The last column block also stores the
  quotient a' / l' into the output block, reading back the two arrays it has just stored.
-/
import proofs.«124015_j46024869544127_2_alg».proof.Proof.KI.Region1
import proofs.«124015_j46024869544127_2_alg».proof.Proof.Pay1
import Idealize.ShloMosaic.Lib.Pipeline.Value
import Idealize.ShloMosaic.Lib.Tactic

set_option maxRecDepth 16384

noncomputable section

open scoped BigOperators

namespace Cert.KernelIdeal.HandValue

open Cert.KernelIdeal Cert.KernelIdeal.Gen Cert.KernelIdeal.Hand Cert.KernelIdeal.PayValue Cert.AttnSpec
open Idealize.ShloMosaic Idealize.ShloMosaic.ValueIdx Idealize.ShloMosaic.TcCoe Idealize.ShloMosaic.Tactic
open Idealize.SL.Sem

theorem hz2 : (![0, 0] : Fin 2 → Nat) = fun _ => 0 := funext fun a => by fin_cases a <;> rfl

/-! ## The three carried arrays after a point -/

/-- The new running maximum, from the logits' three blocks and the old maximum. -/
def newM (x0 : Vec Ideal S1024x1024 .i32) (x1 : Vec Ideal S1024x1 .f32) (x2 : Vec Ideal S1x1024 .f32)
    (xs0 : Vec Ideal S1024x1 .f32) : FVec Ideal S1024x1 .f32 :=
  k1_pay3 (k1_pay9 (F := Ideal) x1 x2 x0 xs0)

/-- The new running normaliser, from the logits' three blocks, the old maximum and the old normaliser. -/
def newL (x0 : Vec Ideal S1024x1024 .i32) (x1 : Vec Ideal S1024x1 .f32) (x2 : Vec Ideal S1x1024 .f32)
    (xs0 xs1 : Vec Ideal S1024x1 .f32) : FVec Ideal S1024x1 .f32 :=
  k1_pay1 (k1_pay12 (F := Ideal) x1 x2 x0 xs0 xs0 xs1)

/-- The new running weighted sum, from the logits' three blocks, the block of values, the old maximum and the old
    weighted sum. -/
def newA (x0 : Vec Ideal S1024x1024 .i32) (x1 : Vec Ideal S1024x1 .f32) (x2 : Vec Ideal S1x1024 .f32)
    (x3 : Vec Ideal S1024x128 .bf16) (xs0 : Vec Ideal S1024x1 .f32) (xs2 : Vec Ideal S1024x128 .f32) :
    FVec Ideal S1024x128 .f32 :=
  k1_pay2 (k1_pay10 (F := Ideal) x1 x2 x0 xs0 xs0) (k1_pay11 (F := Ideal) x1 x2 x0 xs0) xs2 x3

/-- Row r's new maximum is the merge's: the larger of the old one and the block's. -/
theorem newM_apply (x0 : Vec Ideal S1024x1024 .i32) (x1 : Vec Ideal S1024x1 .f32) (x2 : Vec Ideal S1x1024 .f32)
    (xs0 : Vec Ideal S1024x1 .f32) (r : Fin 1024) :
    newM x0 x1 x2 xs0 (ix2 r (0 : Fin 1)) = mNext (xs0 (ix2 r (0 : Fin 1))) (sc x1 x2 x0 r) := by
  unfold newM
  rw [pay1_3]
  exact pay1_9 x1 x2 x0 xs0 r

/-- Row r's new normaliser is the merge's. -/
theorem newL_apply (x0 : Vec Ideal S1024x1024 .i32) (x1 : Vec Ideal S1024x1 .f32) (x2 : Vec Ideal S1x1024 .f32)
    (xs0 xs1 : Vec Ideal S1024x1 .f32) (r : Fin 1024) :
    newL x0 x1 x2 xs0 xs1 (ix2 r (0 : Fin 1))
      = lNext (xs0 (ix2 r (0 : Fin 1))) (xs1 (ix2 r (0 : Fin 1))) (sc x1 x2 x0 r) := by
  unfold newL lNext alpha
  rw [pay1_1]
  exact pay1_12 x1 x2 x0 xs0 xs0 xs1 r

/-- Entry (r, d) of the new weighted sum is the merge's, the block's values being column d of the loaded block. -/
theorem newA_apply (x0 : Vec Ideal S1024x1024 .i32) (x1 : Vec Ideal S1024x1 .f32) (x2 : Vec Ideal S1x1024 .f32)
    (x3 : Vec Ideal S1024x128 .bf16) (xs0 : Vec Ideal S1024x1 .f32) (xs2 : Vec Ideal S1024x128 .f32)
    (r : Fin 1024) (d : Fin 128) :
    newA x0 x1 x2 x3 xs0 xs2 (ix2 r d)
      = accNext (xs0 (ix2 r (0 : Fin 1))) (xs2 (ix2 r d)) (sc x1 x2 x0 r) (fun q => x3 (ix2 q d)) := by
  unfold newA accNext alpha
  refine (pay1_2 _ _ xs2 x3 r d).trans ?_
  rw [pay1_10]
  refine congrArg₂ (· + ·) rfl (Finset.sum_congr rfl fun q _ => ?_)
  rw [pay1_11]

/-! ## A middle column block (case B) -/

theorem sout1_B_0_eq (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec Ideal S1024x1024 .i32) (x1 : Vec Ideal S1024x1 .f32) (x2 : Vec Ideal S1x1024 .f32) (x3 : Vec Ideal S1024x128 .bf16) (xs0 xs1 : Vec Ideal S1024x1 .f32) (xs2 : Vec Ideal S1024x128 .f32) :
    sout1_B_0 (F := Ideal) c i arg2 harg2 arg3 harg3 arg4 harg4 arg5 harg5 arg6 harg6 arg7 harg7 arg8 harg8 arg9 harg9 hc0 hc1 x0 x1 x2 x3 xs0 xs1 xs2 = newM x0 x1 x2 xs0 := by
  unfold sout1_B_0
  rw [View.read_writes_eq_canon _ _ _ (scover1_B_0 c i arg2 harg2 arg3 harg3 arg4 harg4 arg5 harg5 arg6 harg6 arg7 harg7 arg8 harg8 arg9 harg9 hc0 hc1 x0 x1 x2 x3 xs0 xs1 xs2)]
  unfold kernelRun1_B
  dsimp only
  try sl_unfold_words
  try dsimp only
  rw [View.canon_unit_zero hz2]
  simp only [View.readAt_eq_ld, harg2.read_unread, harg3.read_unread, harg4.read_unread, harg5.read_unread,
    harg7.read_unread, harg8.read_unread, harg9.read_unread,
    View.ld_unit_zero (S := S1024x1) hz2, View.ld_unit_zero (S := S1x1024) hz2, View.ld_unit_zero (S := S1024x1024) hz2,
    View.ld_unit_zero (S := S1024x128) hz2]
  rfl

theorem sout1_B_1_eq (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec Ideal S1024x1024 .i32) (x1 : Vec Ideal S1024x1 .f32) (x2 : Vec Ideal S1x1024 .f32) (x3 : Vec Ideal S1024x128 .bf16) (xs0 xs1 : Vec Ideal S1024x1 .f32) (xs2 : Vec Ideal S1024x128 .f32) :
    sout1_B_1 (F := Ideal) c i arg2 harg2 arg3 harg3 arg4 harg4 arg5 harg5 arg6 harg6 arg7 harg7 arg8 harg8 arg9 harg9 hc0 hc1 x0 x1 x2 x3 xs0 xs1 xs2 = newL x0 x1 x2 xs0 xs1 := by
  unfold sout1_B_1
  rw [View.read_writes_eq_canon _ _ _ (scover1_B_1 c i arg2 harg2 arg3 harg3 arg4 harg4 arg5 harg5 arg6 harg6 arg7 harg7 arg8 harg8 arg9 harg9 hc0 hc1 x0 x1 x2 x3 xs0 xs1 xs2)]
  unfold kernelRun1_B
  dsimp only
  try sl_unfold_words
  try dsimp only
  rw [View.canon_unit_zero hz2]
  simp only [View.readAt_eq_ld, harg2.read_unread, harg3.read_unread, harg4.read_unread, harg5.read_unread,
    harg7.read_unread, harg8.read_unread, harg9.read_unread,
    View.ld_unit_zero (S := S1024x1) hz2, View.ld_unit_zero (S := S1x1024) hz2, View.ld_unit_zero (S := S1024x1024) hz2,
    View.ld_unit_zero (S := S1024x128) hz2]
  rfl

theorem sout1_B_2_eq (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec Ideal S1024x1024 .i32) (x1 : Vec Ideal S1024x1 .f32) (x2 : Vec Ideal S1x1024 .f32) (x3 : Vec Ideal S1024x128 .bf16) (xs0 xs1 : Vec Ideal S1024x1 .f32) (xs2 : Vec Ideal S1024x128 .f32) :
    sout1_B_2 (F := Ideal) c i arg2 harg2 arg3 harg3 arg4 harg4 arg5 harg5 arg6 harg6 arg7 harg7 arg8 harg8 arg9 harg9 hc0 hc1 x0 x1 x2 x3 xs0 xs1 xs2 = newA x0 x1 x2 x3 xs0 xs2 := by
  unfold sout1_B_2
  rw [View.read_writes_eq_canon _ _ _ (scover1_B_2 c i arg2 harg2 arg3 harg3 arg4 harg4 arg5 harg5 arg6 harg6 arg7 harg7 arg8 harg8 arg9 harg9 hc0 hc1 x0 x1 x2 x3 xs0 xs1 xs2)]
  unfold kernelRun1_B
  dsimp only
  try sl_unfold_words
  try dsimp only
  rw [View.canon_unit_zero hz2]
  simp only [View.readAt_eq_ld, harg2.read_unread, harg3.read_unread, harg4.read_unread, harg5.read_unread,
    harg7.read_unread, harg8.read_unread, harg9.read_unread,
    View.ld_unit_zero (S := S1024x1) hz2, View.ld_unit_zero (S := S1x1024) hz2, View.ld_unit_zero (S := S1024x1024) hz2,
    View.ld_unit_zero (S := S1024x128) hz2]
  rfl

/-! ## The first column block (case A): the reset values stand in for what the arrays held -/

theorem sout1_A_0_eq (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec Ideal S1024x1024 .i32) (x1 : Vec Ideal S1024x1 .f32) (x2 : Vec Ideal S1x1024 .f32) (x3 : Vec Ideal S1024x128 .bf16) :
    sout1_A_0 (F := Ideal) c i arg2 harg2 arg3 harg3 arg4 harg4 arg5 harg5 arg6 harg6 arg7 harg7 arg8 harg8 arg9 harg9 hc0 hc1 x0 x1 x2 x3 = newM x0 x1 x2 (k1_pay5 (F := Ideal)) := by
  unfold sout1_A_0
  rw [View.read_writes_eq_canon _ _ _ (scover1_A_0 c i arg2 harg2 arg3 harg3 arg4 harg4 arg5 harg5 arg6 harg6 arg7 harg7 arg8 harg8 arg9 harg9 hc0 hc1 x0 x1 x2 x3)]
  unfold kernelRun1_A
  dsimp only
  try sl_unfold_words
  try dsimp only
  rw [View.canon_cons_unit_zero (S := S1024x1) hz2]
  simp only [View.readCov_unit_zero (S := S1024x1) _ hz2, View.readCov_unit_zero (S := S1024x128) _ hz2,
    View.readAt_eq_ld, harg2.read_unread, harg3.read_unread, harg4.read_unread, harg5.read_unread,
    harg7.read_unread, harg8.read_unread, harg9.read_unread,
    View.ld_unit_zero (S := S1024x1) hz2, View.ld_unit_zero (S := S1x1024) hz2, View.ld_unit_zero (S := S1024x1024) hz2,
    View.ld_unit_zero (S := S1024x128) hz2]
  rfl

theorem sout1_A_1_eq (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec Ideal S1024x1024 .i32) (x1 : Vec Ideal S1024x1 .f32) (x2 : Vec Ideal S1x1024 .f32) (x3 : Vec Ideal S1024x128 .bf16) :
    sout1_A_1 (F := Ideal) c i arg2 harg2 arg3 harg3 arg4 harg4 arg5 harg5 arg6 harg6 arg7 harg7 arg8 harg8 arg9 harg9 hc0 hc1 x0 x1 x2 x3 = newL x0 x1 x2 (k1_pay5 (F := Ideal)) (k1_pay6 (F := Ideal)) := by
  unfold sout1_A_1
  rw [View.read_writes_eq_canon _ _ _ (scover1_A_1 c i arg2 harg2 arg3 harg3 arg4 harg4 arg5 harg5 arg6 harg6 arg7 harg7 arg8 harg8 arg9 harg9 hc0 hc1 x0 x1 x2 x3)]
  unfold kernelRun1_A
  dsimp only
  try sl_unfold_words
  try dsimp only
  rw [View.canon_cons_unit_zero (S := S1024x1) hz2]
  simp only [View.readCov_unit_zero (S := S1024x1) _ hz2, View.readCov_unit_zero (S := S1024x128) _ hz2,
    View.readAt_eq_ld, harg2.read_unread, harg3.read_unread, harg4.read_unread, harg5.read_unread,
    harg7.read_unread, harg8.read_unread, harg9.read_unread,
    View.ld_unit_zero (S := S1024x1) hz2, View.ld_unit_zero (S := S1x1024) hz2, View.ld_unit_zero (S := S1024x1024) hz2,
    View.ld_unit_zero (S := S1024x128) hz2]
  rfl

theorem sout1_A_2_eq (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec Ideal S1024x1024 .i32) (x1 : Vec Ideal S1024x1 .f32) (x2 : Vec Ideal S1x1024 .f32) (x3 : Vec Ideal S1024x128 .bf16) :
    sout1_A_2 (F := Ideal) c i arg2 harg2 arg3 harg3 arg4 harg4 arg5 harg5 arg6 harg6 arg7 harg7 arg8 harg8 arg9 harg9 hc0 hc1 x0 x1 x2 x3 = newA x0 x1 x2 x3 (k1_pay5 (F := Ideal)) (k1_pay7 (F := Ideal)) := by
  unfold sout1_A_2
  rw [View.read_writes_eq_canon _ _ _ (scover1_A_2 c i arg2 harg2 arg3 harg3 arg4 harg4 arg5 harg5 arg6 harg6 arg7 harg7 arg8 harg8 arg9 harg9 hc0 hc1 x0 x1 x2 x3)]
  unfold kernelRun1_A
  dsimp only
  try sl_unfold_words
  try dsimp only
  rw [View.canon_cons_unit_zero (S := S1024x128) hz2]
  simp only [View.readCov_unit_zero (S := S1024x1) _ hz2, View.readCov_unit_zero (S := S1024x128) _ hz2,
    View.readAt_eq_ld, harg2.read_unread, harg3.read_unread, harg4.read_unread, harg5.read_unread,
    harg7.read_unread, harg8.read_unread, harg9.read_unread,
    View.ld_unit_zero (S := S1024x1) hz2, View.ld_unit_zero (S := S1x1024) hz2, View.ld_unit_zero (S := S1024x1024) hz2,
    View.ld_unit_zero (S := S1024x128) hz2]
  rfl

/-! ## The last column block (case C): the same three, and the quotient -/

theorem sout1_C_0_eq (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec Ideal S1024x1024 .i32) (x1 : Vec Ideal S1024x1 .f32) (x2 : Vec Ideal S1x1024 .f32) (x3 : Vec Ideal S1024x128 .bf16) (xs0 xs1 : Vec Ideal S1024x1 .f32) (xs2 : Vec Ideal S1024x128 .f32) :
    sout1_C_0 (F := Ideal) c i arg2 harg2 arg3 harg3 arg4 harg4 arg5 harg5 arg6 harg6 arg7 harg7 arg8 harg8 arg9 harg9 hc0 hc1 x0 x1 x2 x3 xs0 xs1 xs2 = newM x0 x1 x2 xs0 := by
  unfold sout1_C_0
  rw [View.read_writes_eq_canon _ _ _ (scover1_C_0 c i arg2 harg2 arg3 harg3 arg4 harg4 arg5 harg5 arg6 harg6 arg7 harg7 arg8 harg8 arg9 harg9 hc0 hc1 x0 x1 x2 x3 xs0 xs1 xs2)]
  unfold kernelRun1_C
  dsimp only
  try sl_unfold_words
  try dsimp only
  rw [View.canon_unit_zero hz2]
  simp only [View.readAt_eq_ld, harg2.read_unread, harg3.read_unread, harg4.read_unread, harg5.read_unread,
    harg7.read_unread, harg8.read_unread, harg9.read_unread,
    View.ld_unit_zero (S := S1024x1) hz2, View.ld_unit_zero (S := S1x1024) hz2, View.ld_unit_zero (S := S1024x1024) hz2,
    View.ld_unit_zero (S := S1024x128) hz2]
  rfl

theorem sout1_C_1_eq (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec Ideal S1024x1024 .i32) (x1 : Vec Ideal S1024x1 .f32) (x2 : Vec Ideal S1x1024 .f32) (x3 : Vec Ideal S1024x128 .bf16) (xs0 xs1 : Vec Ideal S1024x1 .f32) (xs2 : Vec Ideal S1024x128 .f32) :
    sout1_C_1 (F := Ideal) c i arg2 harg2 arg3 harg3 arg4 harg4 arg5 harg5 arg6 harg6 arg7 harg7 arg8 harg8 arg9 harg9 hc0 hc1 x0 x1 x2 x3 xs0 xs1 xs2 = newL x0 x1 x2 xs0 xs1 := by
  unfold sout1_C_1
  rw [View.read_writes_eq_canon _ _ _ (scover1_C_1 c i arg2 harg2 arg3 harg3 arg4 harg4 arg5 harg5 arg6 harg6 arg7 harg7 arg8 harg8 arg9 harg9 hc0 hc1 x0 x1 x2 x3 xs0 xs1 xs2)]
  unfold kernelRun1_C
  dsimp only
  try sl_unfold_words
  try dsimp only
  rw [View.canon_unit_zero hz2]
  simp only [View.readAt_eq_ld, harg2.read_unread, harg3.read_unread, harg4.read_unread, harg5.read_unread,
    harg7.read_unread, harg8.read_unread, harg9.read_unread,
    View.ld_unit_zero (S := S1024x1) hz2, View.ld_unit_zero (S := S1x1024) hz2, View.ld_unit_zero (S := S1024x1024) hz2,
    View.ld_unit_zero (S := S1024x128) hz2]
  rfl

theorem sout1_C_2_eq (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec Ideal S1024x1024 .i32) (x1 : Vec Ideal S1024x1 .f32) (x2 : Vec Ideal S1x1024 .f32) (x3 : Vec Ideal S1024x128 .bf16) (xs0 xs1 : Vec Ideal S1024x1 .f32) (xs2 : Vec Ideal S1024x128 .f32) :
    sout1_C_2 (F := Ideal) c i arg2 harg2 arg3 harg3 arg4 harg4 arg5 harg5 arg6 harg6 arg7 harg7 arg8 harg8 arg9 harg9 hc0 hc1 x0 x1 x2 x3 xs0 xs1 xs2 = newA x0 x1 x2 x3 xs0 xs2 := by
  unfold sout1_C_2
  rw [View.read_writes_eq_canon _ _ _ (scover1_C_2 c i arg2 harg2 arg3 harg3 arg4 harg4 arg5 harg5 arg6 harg6 arg7 harg7 arg8 harg8 arg9 harg9 hc0 hc1 x0 x1 x2 x3 xs0 xs1 xs2)]
  unfold kernelRun1_C
  dsimp only
  try sl_unfold_words
  try dsimp only
  rw [View.canon_unit_zero hz2]
  simp only [View.readAt_eq_ld, harg2.read_unread, harg3.read_unread, harg4.read_unread, harg5.read_unread,
    harg7.read_unread, harg8.read_unread, harg9.read_unread,
    View.ld_unit_zero (S := S1024x1) hz2, View.ld_unit_zero (S := S1x1024) hz2, View.ld_unit_zero (S := S1024x1024) hz2,
    View.ld_unit_zero (S := S1024x128) hz2]
  rfl

/-- The output block after the last column block: the new weighted sum over the new normaliser. -/
theorem out1_C_4_eq (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec Ideal S1024x1024 .i32) (x1 : Vec Ideal S1024x1 .f32) (x2 : Vec Ideal S1x1024 .f32) (x3 : Vec Ideal S1024x128 .bf16) (xs0 xs1 : Vec Ideal S1024x1 .f32) (xs2 : Vec Ideal S1024x128 .f32) :
    out1_C_4 (F := Ideal) c i arg2 harg2 arg3 harg3 arg4 harg4 arg5 harg5 arg6 harg6 arg7 harg7 arg8 harg8 arg9 harg9 hc0 hc1 x0 x1 x2 x3 xs0 xs1 xs2
      = k1_pay4 (F := Ideal) (newA x0 x1 x2 x3 xs0 xs2) (newL x0 x1 x2 xs0 xs1) := by
  unfold out1_C_4
  rw [View.read_writes_eq_canon _ _ _ (cover1_C_4 c i arg2 harg2 arg3 harg3 arg4 harg4 arg5 harg5 arg6 harg6 arg7 harg7 arg8 harg8 arg9 harg9 hc0 hc1 x0 x1 x2 x3 xs0 xs1 xs2)]
  unfold kernelRun1_C
  dsimp only
  sl_unfold_words
  dsimp only
  try sl_unfold_words
  try dsimp only
  rw [View.canon_unit_zero hz2]
  simp only [View.readCov_unit_zero (S := S1024x1) _ hz2, View.readCov_unit_zero (S := S1024x128) _ hz2,
    View.readAt_eq_ld, harg2.read_unread, harg3.read_unread, harg4.read_unread, harg5.read_unread,
    harg7.read_unread, harg8.read_unread, harg9.read_unread,
    View.ld_unit_zero (S := S1024x1) hz2, View.ld_unit_zero (S := S1x1024) hz2, View.ld_unit_zero (S := S1024x1024) hz2,
    View.ld_unit_zero (S := S1024x128) hz2]
  rfl

end Cert.KernelIdeal.HandValue

end
-- ==== Proof.KI.Value1Merge.lean ====
/-
  Region 1's values — the carried arrays after every grid point are the block-by-block merge.

  Fix a row block ib, a row r inside it and a feature d. Walking the eight column blocks jb = 0 … 7 of that row block,
  the running maximum, normaliser and weighted sum the body leaves after column block jb are the merge's state
  after jb + 1 blocks, the blocks being the logits of row r against each column block and column d of each block of
  hidden features: the first column block starts the merge from ⊥, 0, 0 (the reset), every later one continues from
  what the point before left. After the last column block the output block holds the weighted sum over the
  normaliser.
-/
import proofs.«124015_j46024869544127_2_alg».proof.Proof.KI.Value1Pieces
import proofs.«124015_j46024869544127_2_alg».proof.Proof.KI.Value1Defs

set_option maxRecDepth 16384

noncomputable section

open scoped BigOperators

namespace Cert.KernelIdeal.HandValue

open Cert.KernelIdeal Cert.KernelIdeal.Gen Cert.KernelIdeal.Hand Cert.KernelIdeal.PayValue Cert.AttnSpec
open Idealize.ShloMosaic Idealize.ShloMosaic.ValueIdx Idealize.ShloMosaic.TcCoe

variable (V : (c : Dev nD) → (b : Ref sig .tc) → Buf (Elt Ideal) ((c : Thread nD τ).loc b))

/-! ## The merge's equations -/

section
variable {C : Type} [Fintype C]
theorem st_zero (s : ℕ → C → EReal) : st s 0 = (⊥, 0) := rfl
theorem st_succ (s : ℕ → C → EReal) (k : ℕ) :
    st s (k + 1) = (mNext (st s k).1 (s k), lNext (st s k).1 (st s k).2 (s k)) := rfl
theorem acc_zero (s v : ℕ → C → EReal) : acc s v 0 = 0 := rfl
theorem acc_succ (s v : ℕ → C → EReal) (k : ℕ) :
    acc s v (k + 1) = accNext (st s k).1 (acc s v k) (s k) (v k) := rfl
end

/-! ## The blocks of a row block's walk, at a point -/

/-- Block b of the logits of row r is read off the three blocks loaded at the point of column block b. -/
theorem sB_at (c : Dev nD) (ib : Fin 8) (r : Fin 1024) (b : ℕ) (hb : b < 8) :
    sB V c ib r b = sc (iblk1 V c 1 (pt ib ⟨b, hb⟩)) (iblk1 V c 2 (pt ib ⟨b, hb⟩)) (iblk1 V c 0 (pt ib ⟨b, hb⟩)) r :=
  funext fun q => dif_pos hb

/-- Block b of the values is column d of the block of hidden features loaded at the point of column block b. -/
theorem vB_at (c : Dev nD) (ib : Fin 8) (d : Fin 128) (b : ℕ) (hb : b < 8) :
    vB V c ib d b = fun q => iblk1 V c 3 (pt ib ⟨b, hb⟩) (ix2 q d) :=
  funext fun q => dif_pos hb

/-! ## One point, as whole arrays -/

/-- At the first column block the carried arrays restart from the reset values. -/
theorem step_A (c : Dev nD) (t : Fin cfg1.N) (h0 : t.val % 8 = 0) (h1 : ¬t.val % 8 = 7) :
    (outsAt1 (F := Ideal) V c t.val t.isLt).2.1 = newM (iblk1 V c 0 t) (iblk1 V c 1 t) (iblk1 V c 2 t) (k1_pay5 (F := Ideal))
    ∧ (outsAt1 (F := Ideal) V c t.val t.isLt).2.2.1 = newL (iblk1 V c 0 t) (iblk1 V c 1 t) (iblk1 V c 2 t) (k1_pay5 (F := Ideal)) (k1_pay6 (F := Ideal))
    ∧ (outsAt1 (F := Ideal) V c t.val t.isLt).2.2.2
        = newA (iblk1 V c 0 t) (iblk1 V c 1 t) (iblk1 V c 2 t) (iblk1 V c 3 t) (k1_pay5 (F := Ideal)) (k1_pay7 (F := Ideal)) := by
  have e := outsAt1_A (F := Ideal) V c t h0 h1
  have e0 := congrArg (fun p => p.2.1) e
  have e1 := congrArg (fun p => p.2.2.1) e
  have e2 := congrArg (fun p => p.2.2.2) e
  dsimp only at e0 e1 e2
  exact ⟨e0.trans (sout1_A_0_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)),
    e1.trans (sout1_A_1_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)),
    e2.trans (sout1_A_2_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t))⟩

/-- At a middle column block they continue from what position n, the one before, left. -/
theorem step_B (c : Dev nD) (t : Fin cfg1.N) (h0 : ¬t.val % 8 = 0) (h1 : ¬t.val % 8 = 7)
    (n : ℕ) (hn : n < cfg1.N) (hnt : n = t.val - 1) :
    (outsAt1 (F := Ideal) V c t.val t.isLt).2.1 = newM (iblk1 V c 0 t) (iblk1 V c 1 t) (iblk1 V c 2 t) (outsAt1 V c n hn).2.1
    ∧ (outsAt1 (F := Ideal) V c t.val t.isLt).2.2.1 = newL (iblk1 V c 0 t) (iblk1 V c 1 t) (iblk1 V c 2 t) (outsAt1 V c n hn).2.1 (outsAt1 V c n hn).2.2.1
    ∧ (outsAt1 (F := Ideal) V c t.val t.isLt).2.2.2
        = newA (iblk1 V c 0 t) (iblk1 V c 1 t) (iblk1 V c 2 t) (iblk1 V c 3 t) (outsAt1 V c n hn).2.1 (outsAt1 V c n hn).2.2.2 := by
  subst hnt
  have e := outsAt1_B (F := Ideal) V c t h0 h1
  have e0 := congrArg (fun p => p.2.1) e
  have e1 := congrArg (fun p => p.2.2.1) e
  have e2 := congrArg (fun p => p.2.2.2) e
  dsimp only at e0 e1 e2
  exact ⟨e0.trans (sout1_B_0_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) hn).2.1 (outsAt1 V c (t.val - 1) hn).2.2.1 (outsAt1 V c (t.val - 1) hn).2.2.2),
    e1.trans (sout1_B_1_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) hn).2.1 (outsAt1 V c (t.val - 1) hn).2.2.1 (outsAt1 V c (t.val - 1) hn).2.2.2),
    e2.trans (sout1_B_2_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) hn).2.1 (outsAt1 V c (t.val - 1) hn).2.2.1 (outsAt1 V c (t.val - 1) hn).2.2.2)⟩

/-- At the last column block likewise, and the output block holds the quotient of the two new arrays. -/
theorem step_C (c : Dev nD) (t : Fin cfg1.N) (h0 : ¬t.val % 8 = 0) (h1 : t.val % 8 = 7)
    (n : ℕ) (hn : n < cfg1.N) (hnt : n = t.val - 1) :
    ((outsAt1 (F := Ideal) V c t.val t.isLt).2.1 = newM (iblk1 V c 0 t) (iblk1 V c 1 t) (iblk1 V c 2 t) (outsAt1 V c n hn).2.1
    ∧ (outsAt1 (F := Ideal) V c t.val t.isLt).2.2.1 = newL (iblk1 V c 0 t) (iblk1 V c 1 t) (iblk1 V c 2 t) (outsAt1 V c n hn).2.1 (outsAt1 V c n hn).2.2.1
    ∧ (outsAt1 (F := Ideal) V c t.val t.isLt).2.2.2
        = newA (iblk1 V c 0 t) (iblk1 V c 1 t) (iblk1 V c 2 t) (iblk1 V c 3 t) (outsAt1 V c n hn).2.1 (outsAt1 V c n hn).2.2.2)
    ∧ (outsAt1 (F := Ideal) V c t.val t.isLt).1
        = k1_pay4 (F := Ideal) (outsAt1 (F := Ideal) V c t.val t.isLt).2.2.2 (outsAt1 (F := Ideal) V c t.val t.isLt).2.2.1 := by
  subst hnt
  have e := outsAt1_C (F := Ideal) V c t h0 h1
  have e0 := congrArg (fun p => p.2.1) e
  have e1 := congrArg (fun p => p.2.2.1) e
  have e2 := congrArg (fun p => p.2.2.2) e
  have e4 := congrArg (fun p => p.1) e
  dsimp only at e0 e1 e2 e4
  have f0 := e0.trans (sout1_C_0_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) hn).2.1 (outsAt1 V c (t.val - 1) hn).2.2.1 (outsAt1 V c (t.val - 1) hn).2.2.2)
  have f1 := e1.trans (sout1_C_1_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) hn).2.1 (outsAt1 V c (t.val - 1) hn).2.2.1 (outsAt1 V c (t.val - 1) hn).2.2.2)
  have f2 := e2.trans (sout1_C_2_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) hn).2.1 (outsAt1 V c (t.val - 1) hn).2.2.1 (outsAt1 V c (t.val - 1) hn).2.2.2)
  have f4 := e4.trans (out1_C_4_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) hn).2.1 (outsAt1 V c (t.val - 1) hn).2.2.1 (outsAt1 V c (t.val - 1) hn).2.2.2)
  refine ⟨⟨f0, f1, f2⟩, ?_⟩
  rw [f2, f1]
  exact f4

/-! ## One point, at an entry -/

/-- Past the first column block, the point's three carried entries are one merge step from the entries position n,
    the one before, left. -/
theorem stepI_BC (c : Dev nD) (t : Fin cfg1.N) (h0 : ¬t.val % 8 = 0) (n : ℕ) (hn : n < cfg1.N) (hnt : n = t.val - 1)
    (r : Fin 1024) (d : Fin 128) :
    (outsAt1 (F := Ideal) V c t.val t.isLt).2.1 (ix2 r (0 : Fin 1))
        = mNext ((outsAt1 (F := Ideal) V c n hn).2.1 (ix2 r (0 : Fin 1))) (sc (iblk1 V c 1 t) (iblk1 V c 2 t) (iblk1 V c 0 t) r)
    ∧ (outsAt1 (F := Ideal) V c t.val t.isLt).2.2.1 (ix2 r (0 : Fin 1))
        = lNext ((outsAt1 (F := Ideal) V c n hn).2.1 (ix2 r (0 : Fin 1))) ((outsAt1 (F := Ideal) V c n hn).2.2.1 (ix2 r (0 : Fin 1)))
            (sc (iblk1 V c 1 t) (iblk1 V c 2 t) (iblk1 V c 0 t) r)
    ∧ (outsAt1 (F := Ideal) V c t.val t.isLt).2.2.2 (ix2 r d)
        = accNext ((outsAt1 (F := Ideal) V c n hn).2.1 (ix2 r (0 : Fin 1))) ((outsAt1 (F := Ideal) V c n hn).2.2.2 (ix2 r d))
            (sc (iblk1 V c 1 t) (iblk1 V c 2 t) (iblk1 V c 0 t) r) (fun q => iblk1 V c 3 t (ix2 q d)) := by
  have key : (outsAt1 (F := Ideal) V c t.val t.isLt).2.1 = newM (iblk1 V c 0 t) (iblk1 V c 1 t) (iblk1 V c 2 t) (outsAt1 V c n hn).2.1
      ∧ (outsAt1 (F := Ideal) V c t.val t.isLt).2.2.1 = newL (iblk1 V c 0 t) (iblk1 V c 1 t) (iblk1 V c 2 t) (outsAt1 V c n hn).2.1 (outsAt1 V c n hn).2.2.1
      ∧ (outsAt1 (F := Ideal) V c t.val t.isLt).2.2.2
          = newA (iblk1 V c 0 t) (iblk1 V c 1 t) (iblk1 V c 2 t) (iblk1 V c 3 t) (outsAt1 V c n hn).2.1 (outsAt1 V c n hn).2.2.2 := by
    by_cases h1 : t.val % 8 = 7
    · exact (step_C V c t h0 h1 n hn hnt).1
    · exact step_B V c t h0 h1 n hn hnt
  obtain ⟨e0, e1, e2⟩ := key
  exact ⟨(congrFun e0 _).trans (newM_apply (iblk1 V c 0 t) (iblk1 V c 1 t) (iblk1 V c 2 t) (outsAt1 V c n hn).2.1 r),
    (congrFun e1 _).trans (newL_apply (iblk1 V c 0 t) (iblk1 V c 1 t) (iblk1 V c 2 t) (outsAt1 V c n hn).2.1 (outsAt1 V c n hn).2.2.1 r),
    (congrFun e2 _).trans (newA_apply (iblk1 V c 0 t) (iblk1 V c 1 t) (iblk1 V c 2 t) (iblk1 V c 3 t) (outsAt1 V c n hn).2.1 (outsAt1 V c n hn).2.2.2 r d)⟩

/-- At the first column block they are one merge step from ⊥, 0, 0. -/
theorem stepI_A (c : Dev nD) (t : Fin cfg1.N) (h0 : t.val % 8 = 0) (r : Fin 1024) (d : Fin 128) :
    (outsAt1 (F := Ideal) V c t.val t.isLt).2.1 (ix2 r (0 : Fin 1))
        = mNext ⊥ (sc (iblk1 V c 1 t) (iblk1 V c 2 t) (iblk1 V c 0 t) r)
    ∧ (outsAt1 (F := Ideal) V c t.val t.isLt).2.2.1 (ix2 r (0 : Fin 1))
        = lNext ⊥ 0 (sc (iblk1 V c 1 t) (iblk1 V c 2 t) (iblk1 V c 0 t) r)
    ∧ (outsAt1 (F := Ideal) V c t.val t.isLt).2.2.2 (ix2 r d)
        = accNext ⊥ 0 (sc (iblk1 V c 1 t) (iblk1 V c 2 t) (iblk1 V c 0 t) r) (fun q => iblk1 V c 3 t (ix2 q d)) := by
  have h1 : ¬t.val % 8 = 7 := by omega
  obtain ⟨e0, e1, e2⟩ := step_A V c t h0 h1
  have a0 := (congrFun e0 _).trans (newM_apply (iblk1 V c 0 t) (iblk1 V c 1 t) (iblk1 V c 2 t) (k1_pay5 (F := Ideal)) r)
  have a1 := (congrFun e1 _).trans (newL_apply (iblk1 V c 0 t) (iblk1 V c 1 t) (iblk1 V c 2 t) (k1_pay5 (F := Ideal)) (k1_pay6 (F := Ideal)) r)
  have a2 := (congrFun e2 _).trans (newA_apply (iblk1 V c 0 t) (iblk1 V c 1 t) (iblk1 V c 2 t) (iblk1 V c 3 t) (k1_pay5 (F := Ideal)) (k1_pay7 (F := Ideal)) r d)
  rw [pay1_5] at a0 a1 a2
  rw [pay1_6] at a1
  rw [pay1_7] at a2
  exact ⟨a0, a1, a2⟩

/-! ## The walk along a row block -/

theorem merge_inv_aux (c : Dev nD) (ib : Fin 8) (r : Fin 1024) (d : Fin 128) : ∀ (b : ℕ) (hb : b < 8),
    (outsAt1 (F := Ideal) V c (pt ib ⟨b, hb⟩).val (pt ib ⟨b, hb⟩).isLt).2.1 (ix2 r (0 : Fin 1)) = (st (sB V c ib r) (b + 1)).1
    ∧ (outsAt1 (F := Ideal) V c (pt ib ⟨b, hb⟩).val (pt ib ⟨b, hb⟩).isLt).2.2.1 (ix2 r (0 : Fin 1)) = (st (sB V c ib r) (b + 1)).2
    ∧ (outsAt1 (F := Ideal) V c (pt ib ⟨b, hb⟩).val (pt ib ⟨b, hb⟩).isLt).2.2.2 (ix2 r d)
        = acc (sB V c ib r) (vB V c ib d) (b + 1)
  | 0, hb => by
    have h0 : (pt ib ⟨0, hb⟩).val % 8 = 0 := by rw [pt_val]; show (8 * ib.val + 0) % 8 = 0; omega
    obtain ⟨a0, a1, a2⟩ := stepI_A V c (pt ib ⟨0, hb⟩) h0 r d
    rw [st_succ, acc_succ, st_zero, acc_zero, sB_at V c ib r 0 hb, vB_at V c ib d 0 hb]
    exact ⟨a0, a1, a2⟩
  | b + 1, hb => by
    have hb' : b < 8 := Nat.lt_of_succ_lt hb
    have h0 : ¬(pt ib ⟨b + 1, hb⟩).val % 8 = 0 := by rw [pt_val]; show ¬(8 * ib.val + (b + 1)) % 8 = 0; omega
    have hnt : (pt ib ⟨b, hb'⟩).val = (pt ib ⟨b + 1, hb⟩).val - 1 := by
      rw [pt_val, pt_val]; show 8 * ib.val + b = 8 * ib.val + (b + 1) - 1; omega
    obtain ⟨i0, i1, i2⟩ := merge_inv_aux c ib r d b hb'
    obtain ⟨a0, a1, a2⟩ := stepI_BC V c (pt ib ⟨b + 1, hb⟩) h0 (pt ib ⟨b, hb'⟩).val (pt ib ⟨b, hb'⟩).isLt hnt r d
    rw [i0] at a0 a1 a2
    rw [i1] at a1
    rw [i2] at a2
    rw [st_succ, acc_succ, sB_at V c ib r (b + 1) hb, vB_at V c ib d (b + 1) hb]
    exact ⟨a0, a1, a2⟩

/-- After column block jb of row block ib, row r's running maximum and normaliser and entry (r, d) of the running
    weighted sum are the merge's state after jb + 1 blocks. -/
theorem merge_inv (c : Dev nD) (ib jb : Fin 8) (r : Fin 1024) (d : Fin 128) :
    (outsAt1 (F := Ideal) V c (pt ib jb).val (pt ib jb).isLt).2.1 (ix2 r (0 : Fin 1)) = (st (sB V c ib r) (jb.val + 1)).1
    ∧ (outsAt1 (F := Ideal) V c (pt ib jb).val (pt ib jb).isLt).2.2.1 (ix2 r (0 : Fin 1)) = (st (sB V c ib r) (jb.val + 1)).2
    ∧ (outsAt1 (F := Ideal) V c (pt ib jb).val (pt ib jb).isLt).2.2.2 (ix2 r d)
        = acc (sB V c ib r) (vB V c ib d) (jb.val + 1) :=
  merge_inv_aux V c ib r d jb.val jb.isLt

/-- After the last column block of row block ib, entry (r, d) of the output block is the merged weighted sum over the
    merged normaliser. -/
theorem out_last (c : Dev nD) (ib : Fin 8) (r : Fin 1024) (d : Fin 128) :
    (outsAt1 (F := Ideal) V c (pt ib 7).val (pt ib 7).isLt).1 (ix2 r d)
      = Ideal.div (acc (sB V c ib r) (vB V c ib d) 8) (st (sB V c ib r) 8).2 := by
  have h0 : ¬(pt ib 7).val % 8 = 0 := by rw [pt_val]; show ¬(8 * ib.val + 7) % 8 = 0; omega
  have h1 : (pt ib 7).val % 8 = 7 := by rw [pt_val]; show (8 * ib.val + 7) % 8 = 7; omega
  have hnt : (pt ib 6).val = (pt ib 7).val - 1 := by rw [pt_val, pt_val]; show 8 * ib.val + 6 = 8 * ib.val + 7 - 1; omega
  have e4 := (step_C V c (pt ib 7) h0 h1 (pt ib 6).val (pt ib 6).isLt hnt).2
  obtain ⟨-, i1, i2⟩ := merge_inv V c ib 7 r d
  refine (congrFun e4 _).trans ((pay1_4 _ _ r d).trans ?_)
  rw [i1, i2]
  rfl

end Cert.KernelIdeal.HandValue

end
-- ==== Proof.Tables.lean ====
/-
  The eight argument arrays of either program read as the tables of "AttnSpec", and the layer's result as one
  function of the argument arrays, in its two forms: "G" (the softmax of a whole row) and "GK" (the same row
  accumulated block by block).
-/
import proofs.«124015_j46024869544127_2_alg».proof.Proof.AttnSpec
import Idealize.ShloMosaic.Lib.ValueIdx

noncomputable section

namespace Cert.Tables

open Idealize.ShloMosaic Idealize.ShloMosaic.ValueIdx Cert.AttnSpec

/-- The hidden features from the feature array [8192, 256], the weight array [128, 256] and the bias [128]. -/
def hidT (feat : (⟨2, ![8192, 256]⟩ : Shape).Idx → EReal) (W : (⟨2, ![128, 256]⟩ : Shape).Idx → EReal)
    (b : (⟨1, ![128]⟩ : Shape).Idx → EReal) : Fin 8192 → Fin 128 → EReal :=
  hid (fun i k => feat (ix2 i k)) (fun d k => W (ix2 d k)) (fun d => b (ix1 d))

/-- One half of the logits from a row vector [1, 128] and a bias [1]. -/
def halfT (h : Fin 8192 → Fin 128 → EReal) (w : (⟨2, ![1, 128]⟩ : Shape).Idx → EReal)
    (β : (⟨1, ![1]⟩ : Shape).Idx → EReal) : Fin 8192 → EReal :=
  half h (fun d => w (ix2 (0 : Fin 1) d)) (β (ix1 (0 : Fin 1)))

/-- The logits from the argument arrays. -/
def scoreT (feat : (⟨2, ![8192, 256]⟩ : Shape).Idx → EReal) (adj : (⟨2, ![8192, 8192]⟩ : Shape).Idx → BitVec 32)
    (W : (⟨2, ![128, 256]⟩ : Shape).Idx → EReal) (b : (⟨1, ![128]⟩ : Shape).Idx → EReal)
    (w1 : (⟨2, ![1, 128]⟩ : Shape).Idx → EReal) (b1 : (⟨1, ![1]⟩ : Shape).Idx → EReal)
    (w2 : (⟨2, ![1, 128]⟩ : Shape).Idx → EReal) (b2 : (⟨1, ![1]⟩ : Shape).Idx → EReal) :
    Fin 8192 → Fin 8192 → EReal :=
  score (halfT (hidT feat W b) w1 b1) (halfT (hidT feat W b) w2 b2) (fun i j => adj (ix2 i j))

/-- The layer's result array [8192, 128] as the softmax of whole rows. -/
def G (feat : (⟨2, ![8192, 256]⟩ : Shape).Idx → EReal) (adj : (⟨2, ![8192, 8192]⟩ : Shape).Idx → BitVec 32)
    (W : (⟨2, ![128, 256]⟩ : Shape).Idx → EReal) (b : (⟨1, ![128]⟩ : Shape).Idx → EReal)
    (w1 : (⟨2, ![1, 128]⟩ : Shape).Idx → EReal) (b1 : (⟨1, ![1]⟩ : Shape).Idx → EReal)
    (w2 : (⟨2, ![1, 128]⟩ : Shape).Idx → EReal) (b2 : (⟨1, ![1]⟩ : Shape).Idx → EReal) :
    (⟨2, ![8192, 128]⟩ : Shape).Idx → EReal :=
  fun x => refOut (scoreT feat adj W b w1 b1 w2 b2) (hidT feat W b) (x 0) (x 1)

/-- The layer's result array [8192, 128] accumulated over 8 blocks of 1024 columns. -/
def GK (feat : (⟨2, ![8192, 256]⟩ : Shape).Idx → EReal) (adj : (⟨2, ![8192, 8192]⟩ : Shape).Idx → BitVec 32)
    (W : (⟨2, ![128, 256]⟩ : Shape).Idx → EReal) (b : (⟨1, ![128]⟩ : Shape).Idx → EReal)
    (w1 : (⟨2, ![1, 128]⟩ : Shape).Idx → EReal) (b1 : (⟨1, ![1]⟩ : Shape).Idx → EReal)
    (w2 : (⟨2, ![1, 128]⟩ : Shape).Idx → EReal) (b2 : (⟨1, ![1]⟩ : Shape).Idx → EReal) :
    (⟨2, ![8192, 128]⟩ : Shape).Idx → EReal :=
  fun x => kerOut (scoreT feat adj W b w1 b1 w2 b2) (hidT feat W b) (x 0) (x 1)

/-- Every entry of an array of extended reals is a real number. -/
def AllReal {s : Shape} (x : s.Idx → EReal) : Prop := ∀ i, x i ≠ ⊤ ∧ x i ≠ ⊥

end Cert.Tables

end
-- ==== Proof.KI.KValue.lean ====
/-
  What the idealized kernel program's result array holds, as a function of the launch memory: the hidden features and
  the two logit halves the projection kernel leaves are those of the specification (read through the reshapes), the
  attention kernel's result is the block-by-block merge over them, so the result array is "GK" of the eight arguments.
-/
import proofs.«124015_j46024869544127_2_alg».proof.Proof.KI.HostGlue
import proofs.«124015_j46024869544127_2_alg».proof.Proof.KI.Value0
import proofs.«124015_j46024869544127_2_alg».proof.Proof.KI.Value1Blocks
import proofs.«124015_j46024869544127_2_alg».proof.Proof.KI.Value1Merge
import proofs.«124015_j46024869544127_2_alg».proof.Proof.Tables

noncomputable section

namespace Cert.KernelIdeal.HandValue

open Cert.KernelIdeal Cert.KernelIdeal.Gen Cert.KernelIdeal.Hand Cert.AttnSpec Cert.Tables
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- The hidden features the projection kernel computes from the contents after the three reshapes are the
    specification's. -/
theorem h0_eq (c : Dev nD) (i : Fin 8192) (d : Fin 128) :
    h0 (V1 m ρ) c i d = hidT (m ((c : Thread nD τ).loc main_arg0)) (m ((c : Thread nD τ).loc main_arg2)) (m ((c : Thread nD τ).loc main_arg3)) i d := by
  unfold h0 hidT
  rw [V1_arg0 m ρ c, V1_arg2 m ρ c]
  refine congrArg (fun b => hid _ _ b i d) (funext fun d' => ?_)
  exact V1_v0 m ρ c d'

theorem hid_eq (c : Dev nD) (j : Fin 8192) (d : Fin 128) :
    h1 (V3 m ρ) c j d = hidT (m ((c : Thread nD τ).loc main_arg0)) (m ((c : Thread nD τ).loc main_arg2)) (m ((c : Thread nD τ).loc main_arg3)) j d := by
  unfold h1
  rw [V3_v3_0 m ρ c, V2_v3_0 m ρ c]
  exact (arr0_7 (V1 m ρ) c j d).trans (h0_eq m ρ c j d)

theorem a1_eq (c : Dev nD) (i : Fin 8192) :
    (V3 m ρ c main_v3_1 : S8192x1.Idx → EReal) (ix2 i (0 : Fin 1))
      = halfT (hidT (m ((c : Thread nD τ).loc main_arg0)) (m ((c : Thread nD τ).loc main_arg2)) (m ((c : Thread nD τ).loc main_arg3))) (m ((c : Thread nD τ).loc main_arg4)) (m ((c : Thread nD τ).loc main_arg5)) i := by
  rw [V3_v3_1 m ρ c, V2_v3_1 m ρ c]
  refine (arr0_8 (V1 m ρ) c i).trans ?_
  unfold halfT half
  rw [V1_v1 m ρ c, V1_arg4 m ρ c]
  refine congrArg (· + _) (Finset.sum_congr rfl fun d _ => ?_)
  rw [h0_eq m ρ c i d]

theorem a2_eq (c : Dev nD) (j : Fin 8192) :
    (V3 m ρ c main_v4 : S1x8192.Idx → EReal) (ix2 (0 : Fin 1) j)
      = halfT (hidT (m ((c : Thread nD τ).loc main_arg0)) (m ((c : Thread nD τ).loc main_arg2)) (m ((c : Thread nD τ).loc main_arg3))) (m ((c : Thread nD τ).loc main_arg6)) (m ((c : Thread nD τ).loc main_arg7)) j := by
  rw [V3_v4 m ρ c j, V2_v3_2 m ρ c]
  refine (arr0_9 (V1 m ρ) c j).trans ?_
  unfold halfT half
  rw [V1_v2 m ρ c, V1_arg6 m ρ c]
  refine congrArg (· + _) (Finset.sum_congr rfl fun d _ => ?_)
  rw [h0_eq m ρ c j d]

theorem score_eq (c : Dev nD) (i j : Fin 8192) :
    s1 (V3 m ρ) c i j = scoreT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) i j := by
  unfold s1 scoreT score masked
  rw [V3_arg1 m ρ c, a1_eq m ρ c i, a2_eq m ρ c j]

/-- The result array after the attention kernel's region. -/
theorem kvalue (c : Dev nD) :
    ((dat1 (F := Ideal) (V3 m ρ) c).arrAt 4 cfg1.N : S8192x128.Idx → EReal) = GK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext x
  obtain ⟨i, d, rfl⟩ : ∃ (i : Fin 8192) (d : Fin 128), x = ix2 i d := ⟨x 0, x 1, eq_ix2 x⟩
  rw [arr1_4_of (V3 m ρ) c (out_last (V3 m ρ) c) i d]
  unfold GK
  have hs : s1 (V3 m ρ) c = scoreT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := funext fun i => funext fun j => score_eq m ρ c i j
  have hh : h1 (V3 m ρ) c = hidT (m ((c : Thread nD τ).loc main_arg0)) (m ((c : Thread nD τ).loc main_arg2)) (m ((c : Thread nD τ).loc main_arg3)) := funext fun j => funext fun d => hid_eq m ρ c j d
  rw [hs, hh]

end Cert.KernelIdeal.HandValue

end
-- ==== Proof.RefTerm.lean ====
/-
  The reference program's arithmetic as pure functions of arrays, one definition per step of the layer, each the
  composition of the host operations the program prints for that step, read at exact arithmetic:

    hidden     the feature array times the transposed weight array, plus the bias repeated over the rows;
    halfCol    the hidden features times a transposed row vector, plus a one-entry bias repeated over the rows:
               one half of the logits, kept as a column;
    logits0    the first half repeated along the rows' entries plus the transposed second half repeated over the rows;
    edge       the adjacency array compared (signed, greater than) with zero;
    maskedT    the logits on an edge and the fill number elsewhere;
    rect       the leaky rectifier as the program writes it: x where x is at least zero, slope times x elsewhere;
    rowMaxT    each row's largest entry: the larger of minus infinity and the reduction by maximum from minus infinity;
    colBack    a vector of one number per row, kept as a column and repeated along the rows' entries;
    expT       the exponential of each entry less its row's largest entry;
    softT      each entry divided by its row's sum;
    outT       the weights times the hidden features;
    refTerm    the whole layer.
-/
import proofs.«124015_j46024869544127_2_alg».proof.Proof.Gen.ReferenceIdeal
import Idealize.ShloMosaic.PureOps.Ideal

noncomputable section

namespace Cert.RefSide

open Cert.ReferenceIdeal Cert.ReferenceIdeal.Gen Idealize.ShloMosaic

/-- The hidden features [8192, 128]. -/
def hidden (a0 : FVec Ideal S8192x256 .f32) (a2 : FVec Ideal S128x256 .f32) (a3 : FVec Ideal S128 .f32) :
    FVec Ideal S8192x128 .f32 :=
  addf (Host.dotGeneral (F := Ideal) dot_S8192x256_S256x128_S8192x128_1_0_0_1_n_n none a0
      (transpose S256x128 [1, 0] a2 transposes_S128x256_S256x128_1_0))
    (broadcastInDim S8192x128 ![0, 1] bcast_S1x128_S8192x128_0_1 (broadcastInDim S1x128 ![1] bcast_S128_S1x128_1 a3))

/-- One half of the logits, as a column [8192, 1]. -/
def halfCol (h : FVec Ideal S8192x128 .f32) (w : FVec Ideal S1x128 .f32) (β : FVec Ideal S1 .f32) :
    FVec Ideal S8192x1 .f32 :=
  addf (Host.dotGeneral (F := Ideal) dot_S8192x128_S128x1_S8192x1_1_0_0_1_n_n none h
      (transpose S128x1 [1, 0] w transposes_S1x128_S128x1_1_0))
    (broadcastInDim S8192x1 ![0, 1] bcast_S1x1_S8192x1_0_1 (broadcastInDim S1x1 ![1] bcast_S1_S1x1_1 β))

/-- The sum of the two halves over all pairs of nodes [8192, 8192]. -/
def logits0 (p q : FVec Ideal S8192x1 .f32) : FVec Ideal S8192x8192 .f32 :=
  addf (broadcastInDim S8192x8192 ![0, 1] bcast_S8192x1_S8192x8192_0_1 p)
    (broadcastInDim S8192x8192 ![0, 1] bcast_S1x8192_S8192x8192_0_1
      (transpose S1x8192 [1, 0] q transposes_S8192x1_S1x8192_1_0))

/-- Where the adjacency array is positive. -/
def edge (a1 : IVec S8192x8192 32) : IVec S8192x8192 1 :=
  cmpi .sgt a1 (broadcastInDim S8192x8192 ![] bcast_S_S8192x8192 (constantI S_ 32 0#32))

/-- The logits on an edge, the fill number elsewhere. -/
def maskedT (e : IVec S8192x8192 1) (x : FVec Ideal S8192x8192 .f32) : FVec Ideal S8192x8192 .f32 :=
  select e x (broadcastInDim S8192x8192 ![] bcast_S_S8192x8192 (constant (F := Ideal) S_ .f32 0xDA0E1BCA#32))

/-- The leaky rectifier as the program writes it. -/
def rect (x : FVec Ideal S8192x8192 .f32) : FVec Ideal S8192x8192 .f32 :=
  select (cmpf .oge x (broadcastInDim S8192x8192 ![] bcast_S_S8192x8192 (constant (F := Ideal) S_ .f32 0x00000000#32)))
    x
    (mulf (broadcastInDim S8192x8192 ![] bcast_S_S8192x8192 (id (constant (F := Ideal) S_ .f32 0x3C23D70A#32))) x)

/-- Each row's largest entry [8192]. -/
def rowMaxT (s : FVec Ideal S8192x8192 .f32) : FVec Ideal S8192 .f32 :=
  maximumf (broadcastInDim S8192 ![] bcast_S_S8192 (constant (F := Ideal) S_ .f32 0xFF800000#32))
    (Host.reduce FloatOps.maximumf s (constant (F := Ideal) S_ .f32 0xFF800000#32) reducesTo_S8192x8192_S8192_d1 h_S_)

/-- One number per row, repeated along the row's entries [8192, 8192]. -/
def colBack (v : FVec Ideal S8192 .f32) : FVec Ideal S8192x8192 .f32 :=
  broadcastInDim S8192x8192 ![0, 1] bcast_S8192x1_S8192x8192_0_1 (broadcastInDim S8192x1 ![0] bcast_S8192_S8192x1_0 v)

/-- The exponential of each entry less its row's largest entry. -/
def expT (s : FVec Ideal S8192x8192 .f32) : FVec Ideal S8192x8192 .f32 :=
  Host.exp (F := Ideal) (subf s (colBack (rowMaxT s)))

/-- Each entry divided by its row's sum. -/
def softT (e : FVec Ideal S8192x8192 .f32) : FVec Ideal S8192x8192 .f32 :=
  Host.divf (F := Ideal) e
    (colBack (Host.reduceAdd (F := Ideal) e (constant (F := Ideal) S_ .f32 0x00000000#32) reducesTo_S8192x8192_S8192_d1 h_S_))

/-- The weights [8192, 8192] times the hidden features [8192, 128]. -/
def outT (p : FVec Ideal S8192x8192 .f32) (h : FVec Ideal S8192x128 .f32) : FVec Ideal S8192x128 .f32 :=
  Host.dotGeneral (F := Ideal) dot_S8192x8192_S8192x128_S8192x128_1_0_0_1_n_n none p h

/-- The logits of the layer, after the rectifier. -/
def logitsT (a0 : FVec Ideal S8192x256 .f32) (a1 : IVec S8192x8192 32) (a2 : FVec Ideal S128x256 .f32)
    (a3 : FVec Ideal S128 .f32) (a4 : FVec Ideal S1x128 .f32) (a5 : FVec Ideal S1 .f32) (a6 : FVec Ideal S1x128 .f32)
    (a7 : FVec Ideal S1 .f32) : FVec Ideal S8192x8192 .f32 :=
  rect (maskedT (edge a1) (logits0 (halfCol (hidden a0 a2 a3) a4 a5) (halfCol (hidden a0 a2 a3) a6 a7)))

/-- The whole layer as the reference computes it. -/
def refTerm (a0 : FVec Ideal S8192x256 .f32) (a1 : IVec S8192x8192 32) (a2 : FVec Ideal S128x256 .f32)
    (a3 : FVec Ideal S128 .f32) (a4 : FVec Ideal S1x128 .f32) (a5 : FVec Ideal S1 .f32) (a6 : FVec Ideal S1x128 .f32)
    (a7 : FVec Ideal S1 .f32) : FVec Ideal S8192x128 .f32 :=
  outT (softT (expT (logitsT a0 a1 a2 a3 a4 a5 a6 a7))) (hidden a0 a2 a3)

end Cert.RefSide

end
-- ==== Proof.RefRun.lean ====
/-
  The reference program's run. The program is a straight line of 48 host operations once its three outlined
  functions (the masking select, the leaky rectifier, and the select inside it) are written out at their call
  sites over the buffers each call names. Every weakly fair execution therefore terminates, and each buffer ends at
  the fold of the operations over the launch contents; read at the result buffer that fold is "refTerm" of the eight
  argument arrays, and at an argument buffer it is the argument itself, since no operation writes an argument.
-/
import proofs.«124015_j46024869544127_2_alg».proof.Proof.RefTerm
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The program's 48 operations in order, the callees' operations written out at the call sites. -/
abbrev ops : List (HloOp τ sig (Elt F)) :=
  [ unary main_arg2 main_v0 ((transpose S256x128 [1, 0] · transposes_S128x256_S256x128_1_0) : (⟨S128x256, .f32⟩ : BufTy).Contents (Elt F) → (⟨S256x128, .f32⟩ : BufTy).Contents (Elt F)),
    binary main_arg0 main_v0 main_v1 ((fun l r => Host.dotGeneral dot_S8192x256_S256x128_S8192x128_1_0_0_1_n_n none l r) : (⟨S8192x256, .f32⟩ : BufTy).Contents (Elt F) → (⟨S256x128, .f32⟩ : BufTy).Contents (Elt F) → (⟨S8192x128, .f32⟩ : BufTy).Contents (Elt F)),
    unary main_arg3 main_v2 (broadcastInDim S1x128 ![1] bcast_S128_S1x128_1 : (⟨S128, .f32⟩ : BufTy).Contents (Elt F) → (⟨S1x128, .f32⟩ : BufTy).Contents (Elt F)),
    unary main_v2 main_v3 (broadcastInDim S8192x128 ![0, 1] bcast_S1x128_S8192x128_0_1 : (⟨S1x128, .f32⟩ : BufTy).Contents (Elt F) → (⟨S8192x128, .f32⟩ : BufTy).Contents (Elt F)),
    binary main_v1 main_v3 main_v4 (addf : (⟨S8192x128, .f32⟩ : BufTy).Contents (Elt F) → (⟨S8192x128, .f32⟩ : BufTy).Contents (Elt F) → (⟨S8192x128, .f32⟩ : BufTy).Contents (Elt F)),
    unary main_arg4 main_v5 ((transpose S128x1 [1, 0] · transposes_S1x128_S128x1_1_0) : (⟨S1x128, .f32⟩ : BufTy).Contents (Elt F) → (⟨S128x1, .f32⟩ : BufTy).Contents (Elt F)),
    binary main_v4 main_v5 main_v6 ((fun l r => Host.dotGeneral dot_S8192x128_S128x1_S8192x1_1_0_0_1_n_n none l r) : (⟨S8192x128, .f32⟩ : BufTy).Contents (Elt F) → (⟨S128x1, .f32⟩ : BufTy).Contents (Elt F) → (⟨S8192x1, .f32⟩ : BufTy).Contents (Elt F)),
    unary main_arg5 main_v7 (broadcastInDim S1x1 ![1] bcast_S1_S1x1_1 : (⟨S1, .f32⟩ : BufTy).Contents (Elt F) → (⟨S1x1, .f32⟩ : BufTy).Contents (Elt F)),
    unary main_v7 main_v8 (broadcastInDim S8192x1 ![0, 1] bcast_S1x1_S8192x1_0_1 : (⟨S1x1, .f32⟩ : BufTy).Contents (Elt F) → (⟨S8192x1, .f32⟩ : BufTy).Contents (Elt F)),
    binary main_v6 main_v8 main_v9 (addf : (⟨S8192x1, .f32⟩ : BufTy).Contents (Elt F) → (⟨S8192x1, .f32⟩ : BufTy).Contents (Elt F) → (⟨S8192x1, .f32⟩ : BufTy).Contents (Elt F)),
    unary main_arg6 main_v10 ((transpose S128x1 [1, 0] · transposes_S1x128_S128x1_1_0) : (⟨S1x128, .f32⟩ : BufTy).Contents (Elt F) → (⟨S128x1, .f32⟩ : BufTy).Contents (Elt F)),
    binary main_v4 main_v10 main_v11 ((fun l r => Host.dotGeneral dot_S8192x128_S128x1_S8192x1_1_0_0_1_n_n none l r) : (⟨S8192x128, .f32⟩ : BufTy).Contents (Elt F) → (⟨S128x1, .f32⟩ : BufTy).Contents (Elt F) → (⟨S8192x1, .f32⟩ : BufTy).Contents (Elt F)),
    unary main_arg7 main_v12 (broadcastInDim S1x1 ![1] bcast_S1_S1x1_1 : (⟨S1, .f32⟩ : BufTy).Contents (Elt F) → (⟨S1x1, .f32⟩ : BufTy).Contents (Elt F)),
    unary main_v12 main_v13 (broadcastInDim S8192x1 ![0, 1] bcast_S1x1_S8192x1_0_1 : (⟨S1x1, .f32⟩ : BufTy).Contents (Elt F) → (⟨S8192x1, .f32⟩ : BufTy).Contents (Elt F)),
    binary main_v11 main_v13 main_v14 (addf : (⟨S8192x1, .f32⟩ : BufTy).Contents (Elt F) → (⟨S8192x1, .f32⟩ : BufTy).Contents (Elt F) → (⟨S8192x1, .f32⟩ : BufTy).Contents (Elt F)),
    unary main_v14 main_v15 ((transpose S1x8192 [1, 0] · transposes_S8192x1_S1x8192_1_0) : (⟨S8192x1, .f32⟩ : BufTy).Contents (Elt F) → (⟨S1x8192, .f32⟩ : BufTy).Contents (Elt F)),
    unary main_v9 main_v16 (broadcastInDim S8192x8192 ![0, 1] bcast_S8192x1_S8192x8192_0_1 : (⟨S8192x1, .f32⟩ : BufTy).Contents (Elt F) → (⟨S8192x8192, .f32⟩ : BufTy).Contents (Elt F)),
    unary main_v15 main_v17 (broadcastInDim S8192x8192 ![0, 1] bcast_S1x8192_S8192x8192_0_1 : (⟨S1x8192, .f32⟩ : BufTy).Contents (Elt F) → (⟨S8192x8192, .f32⟩ : BufTy).Contents (Elt F)),
    binary main_v16 main_v17 main_v18 (addf : (⟨S8192x8192, .f32⟩ : BufTy).Contents (Elt F) → (⟨S8192x8192, .f32⟩ : BufTy).Contents (Elt F) → (⟨S8192x8192, .f32⟩ : BufTy).Contents (Elt F)),
    nullary main_c (constantI S_ 32 0#32),
    unary main_c main_v19 (broadcastInDim S8192x8192 ![] bcast_S_S8192x8192 : (⟨S_, .i32⟩ : BufTy).Contents (Elt F) → (⟨S8192x8192, .i32⟩ : BufTy).Contents (Elt F)),
    binary main_arg1 main_v19 main_v20 (cmpi .sgt : (⟨S8192x8192, .i32⟩ : BufTy).Contents (Elt F) → (⟨S8192x8192, .i32⟩ : BufTy).Contents (Elt F) → (⟨S8192x8192, .i1⟩ : BufTy).Contents (Elt F)),
    nullary main_cst (constant S_ .f32 0xDA0E1BCA#32),
    TRef.unary (TRef.of main_cst : TRef sig ⟨S_, .f32⟩) main_call0.v0 (broadcastInDim S8192x8192 ![] bcast_S_S8192x8192 : (⟨S_, .f32⟩ : BufTy).Contents (Elt F) → (⟨S8192x8192, .f32⟩ : BufTy).Contents (Elt F)),
    TRef.ternary (TRef.of main_v20 : TRef sig ⟨S8192x8192, .i1⟩) (TRef.of main_v18 : TRef sig ⟨S8192x8192, .f32⟩) main_call0.v0 main_call0.v1 (select : (⟨S8192x8192, .i1⟩ : BufTy).Contents (Elt F) → (⟨S8192x8192, .f32⟩ : BufTy).Contents (Elt F) → (⟨S8192x8192, .f32⟩ : BufTy).Contents (Elt F) → (⟨S8192x8192, .f32⟩ : BufTy).Contents (Elt F)),
    nullary main_cst_0 (constant S_ .f32 0x3C23D70A#32),
    TRef.nullary main_call1.cst (constant S_ .f32 0x00000000#32 : (⟨S_, .f32⟩ : BufTy).Contents (Elt F)),
    TRef.unary main_call1.cst main_call1.v0 (broadcastInDim S8192x8192 ![] bcast_S_S8192x8192 : (⟨S_, .f32⟩ : BufTy).Contents (Elt F) → (⟨S8192x8192, .f32⟩ : BufTy).Contents (Elt F)),
    TRef.binary (TRef.of main_v21 : TRef sig ⟨S8192x8192, .f32⟩) main_call1.v0 main_call1.v1 (cmpf .oge : (⟨S8192x8192, .f32⟩ : BufTy).Contents (Elt F) → (⟨S8192x8192, .f32⟩ : BufTy).Contents (Elt F) → (⟨S8192x8192, .i1⟩ : BufTy).Contents (Elt F)),
    TRef.unary (TRef.of main_cst_0 : TRef sig ⟨S_, .f32⟩) main_call1.v2 (id : (⟨S_, .f32⟩ : BufTy).Contents (Elt F) → (⟨S_, .f32⟩ : BufTy).Contents (Elt F)),
    TRef.unary main_call1.v2 main_call1.v3 (broadcastInDim S8192x8192 ![] bcast_S_S8192x8192 : (⟨S_, .f32⟩ : BufTy).Contents (Elt F) → (⟨S8192x8192, .f32⟩ : BufTy).Contents (Elt F)),
    TRef.binary main_call1.v3 (TRef.of main_v21 : TRef sig ⟨S8192x8192, .f32⟩) main_call1.v4 (mulf : (⟨S8192x8192, .f32⟩ : BufTy).Contents (Elt F) → (⟨S8192x8192, .f32⟩ : BufTy).Contents (Elt F) → (⟨S8192x8192, .f32⟩ : BufTy).Contents (Elt F)),
    TRef.ternary main_call1.v1 (TRef.of main_v21 : TRef sig ⟨S8192x8192, .f32⟩) main_call1.v4 main_call1.call0.v0 (select : (⟨S8192x8192, .i1⟩ : BufTy).Contents (Elt F) → (⟨S8192x8192, .f32⟩ : BufTy).Contents (Elt F) → (⟨S8192x8192, .f32⟩ : BufTy).Contents (Elt F) → (⟨S8192x8192, .f32⟩ : BufTy).Contents (Elt F)),
    nullary main_cst_1 (constant S_ .f32 0xFF800000#32),
    binary main_v22 main_cst_1 main_v23 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_2 (constant S_ .f32 0xFF800000#32),
    unary main_cst_2 main_v24 (broadcastInDim S8192 ![] bcast_S_S8192 : (⟨S_, .f32⟩ : BufTy).Contents (Elt F) → (⟨S8192, .f32⟩ : BufTy).Contents (Elt F)),
    binary main_v24 main_v23 main_v25 (maximumf : (⟨S8192, .f32⟩ : BufTy).Contents (Elt F) → (⟨S8192, .f32⟩ : BufTy).Contents (Elt F) → (⟨S8192, .f32⟩ : BufTy).Contents (Elt F)),
    unary main_v25 main_v26 (broadcastInDim S8192x1 ![0] bcast_S8192_S8192x1_0 : (⟨S8192, .f32⟩ : BufTy).Contents (Elt F) → (⟨S8192x1, .f32⟩ : BufTy).Contents (Elt F)),
    unary main_v26 main_v27 (broadcastInDim S8192x8192 ![0, 1] bcast_S8192x1_S8192x8192_0_1 : (⟨S8192x1, .f32⟩ : BufTy).Contents (Elt F) → (⟨S8192x8192, .f32⟩ : BufTy).Contents (Elt F)),
    binary main_v22 main_v27 main_v28 (subf : (⟨S8192x8192, .f32⟩ : BufTy).Contents (Elt F) → (⟨S8192x8192, .f32⟩ : BufTy).Contents (Elt F) → (⟨S8192x8192, .f32⟩ : BufTy).Contents (Elt F)),
    unary main_v28 main_v29 (Host.exp : (⟨S8192x8192, .f32⟩ : BufTy).Contents (Elt F) → (⟨S8192x8192, .f32⟩ : BufTy).Contents (Elt F)),
    nullary main_cst_3 (constant S_ .f32 0x00000000#32),
    binary main_v29 main_cst_3 main_v30 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v30 main_v31 (broadcastInDim S8192x1 ![0] bcast_S8192_S8192x1_0 : (⟨S8192, .f32⟩ : BufTy).Contents (Elt F) → (⟨S8192x1, .f32⟩ : BufTy).Contents (Elt F)),
    unary main_v31 main_v32 (broadcastInDim S8192x8192 ![0, 1] bcast_S8192x1_S8192x8192_0_1 : (⟨S8192x1, .f32⟩ : BufTy).Contents (Elt F) → (⟨S8192x8192, .f32⟩ : BufTy).Contents (Elt F)),
    binary main_v29 main_v32 main_v33 (Host.divf : (⟨S8192x8192, .f32⟩ : BufTy).Contents (Elt F) → (⟨S8192x8192, .f32⟩ : BufTy).Contents (Elt F) → (⟨S8192x8192, .f32⟩ : BufTy).Contents (Elt F)),
    binary main_v33 main_v4 main_v34 ((fun l r => Host.dotGeneral dot_S8192x8192_S8192x128_S8192x128_1_0_0_1_n_n none l r) : (⟨S8192x8192, .f32⟩ : BufTy).Contents (Elt F) → (⟨S8192x128, .f32⟩ : BufTy).Contents (Elt F) → (⟨S8192x128, .f32⟩ : BufTy).Contents (Elt F)) ]

set_option maxRecDepth 2048 in
/-- The program is that straight line: the callees unfold at their calls, and sequencing reassociates. -/
theorem main_eq (c : Dev nD) : main (F := F) c = seq ops := by
  simp only [main, fn_where.body, fn_leaky_relu.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., ternary_bufs_sub .., nullary_bufs_sub .., nullary_bufs_sub .., unary_bufs_sub .., binary_bufs_sub .., unary_bufs_sub .., unary_bufs_sub .., binary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub ..⟩

/-- Every buffer after the run is the fold of the operations over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.RefSide

end
-- ==== Proof.LibMatIdx.lean ====
/-
  A host product of two matrices at exact arithmetic, read at an entry: the sum over the contracted axis of the
  products of the left factor's row entries with the right factor's column entries. Stated for any contraction
  record between two-axis shapes whose operand indices are "row of the result, contracted position" and "contracted
  position, column of the result" — facts that hold by computation for the records a product of two matrices prints.
-/
import Idealize.ShloMosaic.Lib.ValueIdx
import Idealize.ShloMosaic.PureOps.Ideal.Laws

noncomputable section

namespace LibMatIdx

open Idealize.ShloMosaic Idealize.ShloMosaic.ValueIdx

theorem dot2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) D prec l r j = ∑ k : Fin K, l (ix2 (n0 := M) (n1 := K) (j 0) k) * r (ix2 (n0 := K) (n1 := N) k (j 1)) := by
  show FloatOps.dotGeneral (F := Ideal) D prec .single l r j = _
  rw [Ideal.dotGeneral_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatIdx

end
-- ==== Proof.LibBatchLayouts.lean ====
/-
  Batched layouts read at an entry.

  A stack of n rows, matrices or numbers is moved between shapes that differ only by unit axes or by repeating
  entries: a row statistic [n, a] kept as a column [n, a, 1] and repeated along a new last axis [n, a, m]; one
  matrix [a, b] repeated over the batch [n, a, b]; one number per batch element [n] repeated over its matrix
  [n, 1, 1] → [n, a, b]; one number per (batch, channel) [n, a] repeated over two trailing axes [n, a, 1, 1] →
  [n, a, h, w]; a row [a] repeated over the batch [1, a] → [n, a].  Each is stated both for a TensorCore
  cast-then-broadcast and for the host's broadcast-in-dimensions, at an entry written by its coordinates; the
  extents are arbitrary.
-/
import Idealize.ShloMosaic.Lib.ValueIdx
import Idealize.ShloMosaic.Lib.Pipeline.Value

noncomputable section

namespace LibBatchLayouts

open Idealize.ShloMosaic Idealize.ShloMosaic.ValueIdx

variable {α : Type}

/-! ## TensorCore forms: shape casts that add unit axes, broadcasts that repeat along them -/

/-- [n, a] cast to [n, a, 1]: entry (b, c, u) is entry (b, c). -/
theorem shapeCast_na_na1_apply {n a : ℕ} (x : (⟨2, ![n, a]⟩ : Shape).Idx → α)
    (h : (⟨2, ![n, a]⟩ : Shape).ShapeCasts ⟨3, ![n, a, 1]⟩) (b : Fin n) (c : Fin a) (u : Fin 1) :
    shapeCast ⟨3, ![n, a, 1]⟩ x h (ix3 b c u) = x (ix2 b c) :=
  shapeCast_apply x h _ _ (by
    have hu : u.val = 0 := by omega
    rw [Shape.rowMajor_val_two, Shape.rowMajor_val_three]
    show b.val * a + c.val = (b.val * a + c.val) * 1 + u.val
    rw [hu, Nat.mul_one, Nat.add_zero])

/-- [n, a, 1] broadcast to [n, a, m]: entry (b, c, q) is entry (b, c, 0). -/
theorem broadcastTo_na1_nam_apply {n a m : ℕ} (x : (⟨3, ![n, a, 1]⟩ : Shape).Idx → α)
    (h : (⟨3, ![n, a, 1]⟩ : Shape).Broadcasts ⟨3, ![n, a, m]⟩) (b : Fin n) (c : Fin a) (q : Fin m) :
    broadcastTo ⟨3, ![n, a, m]⟩ x h (ix3 b c q) = x (ix3 b c (0 : Fin 1)) := by
  refine broadcastTo_apply x h (ix3 b c q) (ix3 b c (0 : Fin 1)) fun ax => ?_
  match ax with
  | ⟨0, _⟩ =>
    show b.val = if n = 1 then 0 else b.val
    split
    · have := b.isLt; omega
    · rfl
  | ⟨1, _⟩ =>
    show c.val = if a = 1 then 0 else c.val
    split
    · have := c.isLt; omega
    · rfl
  | ⟨2, _⟩ => rfl

/-- [1, a, b] broadcast to [n, a, b]: entry (p, i, j) is entry (0, i, j). -/
theorem broadcastTo_1ab_nab_apply {n a b : ℕ} (x : (⟨3, ![1, a, b]⟩ : Shape).Idx → α)
    (h : (⟨3, ![1, a, b]⟩ : Shape).Broadcasts ⟨3, ![n, a, b]⟩) (p : Fin n) (i : Fin a) (j : Fin b) :
    broadcastTo ⟨3, ![n, a, b]⟩ x h (ix3 p i j) = x (ix3 (0 : Fin 1) i j) := by
  refine broadcastTo_apply x h (ix3 p i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- [n] cast to [n, 1, 1]: entry (b, u, v) is entry b. -/
theorem shapeCast_n_n11_apply {n : ℕ} (x : (⟨1, ![n]⟩ : Shape).Idx → α)
    (h : (⟨1, ![n]⟩ : Shape).ShapeCasts ⟨3, ![n, 1, 1]⟩) (b : Fin n) (u v : Fin 1) :
    shapeCast ⟨3, ![n, 1, 1]⟩ x h (ix3 b u v) = x (ix1 b) :=
  shapeCast_apply x h _ _ (by
    have hu : u.val = 0 := by omega
    have hv : v.val = 0 := by omega
    rw [Shape.rowMajor_val_one, Shape.rowMajor_val_three]
    show b.val = (b.val * 1 + u.val) * 1 + v.val
    omega)

/-- [n, 1, 1] broadcast to [n, a, b]: entry (p, i, j) is entry (p, 0, 0). -/
theorem broadcastTo_n11_nab_apply {n a b : ℕ} (x : (⟨3, ![n, 1, 1]⟩ : Shape).Idx → α)
    (h : (⟨3, ![n, 1, 1]⟩ : Shape).Broadcasts ⟨3, ![n, a, b]⟩) (p : Fin n) (i : Fin a) (j : Fin b) :
    broadcastTo ⟨3, ![n, a, b]⟩ x h (ix3 p i j) = x (ix3 p (0 : Fin 1) (0 : Fin 1)) := by
  refine broadcastTo_apply x h (ix3 p i j) (ix3 p (0 : Fin 1) (0 : Fin 1)) fun ax => ?_
  match ax with
  | ⟨0, _⟩ =>
    show p.val = if n = 1 then 0 else p.val
    split
    · have := p.isLt; omega
    · rfl
  | ⟨1, _⟩ => rfl
  | ⟨2, _⟩ => rfl

/-! ## Host forms: broadcast in dimensions -/

/-- [n, a] placed on axes 0, 1 of [n, a, 1]. -/
theorem bcast_na_na1_apply {n a : ℕ} (h : (⟨2, ![n, a]⟩ : Shape).BroadcastsInDim ⟨3, ![n, a, 1]⟩ (![0, 1] : Fin 2 → Fin 3))
    (x : (⟨2, ![n, a]⟩ : Shape).Idx → α) (b : Fin n) (c : Fin a) (u : Fin 1) :
    broadcastInDim ⟨3, ![n, a, 1]⟩ (![0, 1] : Fin 2 → Fin 3) h x (ix3 b c u) = x (ix2 b c) := by
  refine broadcastInDim_apply (![0, 1] : Fin 2 → Fin 3) h x (ix3 b c u) (ix2 b c) fun ax => ?_
  match ax with
  | ⟨0, _⟩ =>
    show b.val = if n = 1 then 0 else b.val
    split
    · have := b.isLt; omega
    · rfl
  | ⟨1, _⟩ =>
    show c.val = if a = 1 then 0 else c.val
    split
    · have := c.isLt; omega
    · rfl

/-- [n, a, 1] repeated along the last axis of [n, a, m]. -/
theorem bcast_na1_nam_apply {n a m : ℕ} (h : (⟨3, ![n, a, 1]⟩ : Shape).BroadcastsInDim ⟨3, ![n, a, m]⟩ (![0, 1, 2] : Fin 3 → Fin 3))
    (x : (⟨3, ![n, a, 1]⟩ : Shape).Idx → α) (b : Fin n) (c : Fin a) (q : Fin m) :
    broadcastInDim ⟨3, ![n, a, m]⟩ (![0, 1, 2] : Fin 3 → Fin 3) h x (ix3 b c q) = x (ix3 b c (0 : Fin 1)) := by
  refine broadcastInDim_apply (![0, 1, 2] : Fin 3 → Fin 3) h x (ix3 b c q) (ix3 b c (0 : Fin 1)) fun ax => ?_
  match ax with
  | ⟨0, _⟩ =>
    show b.val = if n = 1 then 0 else b.val
    split
    · have := b.isLt; omega
    · rfl
  | ⟨1, _⟩ =>
    show c.val = if a = 1 then 0 else c.val
    split
    · have := c.isLt; omega
    · rfl
  | ⟨2, _⟩ => rfl

/-- [a, b] placed on axes 1, 2 of [1, a, b]. -/
theorem bcast_ab_1ab_apply {a b : ℕ} (h : (⟨2, ![a, b]⟩ : Shape).BroadcastsInDim ⟨3, ![1, a, b]⟩ (![1, 2] : Fin 2 → Fin 3))
    (x : (⟨2, ![a, b]⟩ : Shape).Idx → α) (u : Fin 1) (i : Fin a) (j : Fin b) :
    broadcastInDim ⟨3, ![1, a, b]⟩ (![1, 2] : Fin 2 → Fin 3) h x (ix3 u i j) = x (ix2 i j) := by
  refine broadcastInDim_apply (![1, 2] : Fin 2 → Fin 3) h x (ix3 u i j) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- [a, b] placed on axes 1, 2 of [n, a, b]: the same matrix for every batch element. -/
theorem bcast_ab_nab_apply {n a b : ℕ} (h : (⟨2, ![a, b]⟩ : Shape).BroadcastsInDim ⟨3, ![n, a, b]⟩ (![1, 2] : Fin 2 → Fin 3))
    (x : (⟨2, ![a, b]⟩ : Shape).Idx → α) (p : Fin n) (i : Fin a) (j : Fin b) :
    broadcastInDim ⟨3, ![n, a, b]⟩ (![1, 2] : Fin 2 → Fin 3) h x (ix3 p i j) = x (ix2 i j) := by
  refine broadcastInDim_apply (![1, 2] : Fin 2 → Fin 3) h x (ix3 p i j) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- [1, a, b] repeated over the batch axis of [n, a, b]. -/
theorem bcast_1ab_nab_apply {n a b : ℕ} (h : (⟨3, ![1, a, b]⟩ : Shape).BroadcastsInDim ⟨3, ![n, a, b]⟩ (![0, 1, 2] : Fin 3 → Fin 3))
    (x : (⟨3, ![1, a, b]⟩ : Shape).Idx → α) (p : Fin n) (i : Fin a) (j : Fin b) :
    broadcastInDim ⟨3, ![n, a, b]⟩ (![0, 1, 2] : Fin 3 → Fin 3) h x (ix3 p i j) = x (ix3 (0 : Fin 1) i j) := by
  refine broadcastInDim_apply (![0, 1, 2] : Fin 3 → Fin 3) h x (ix3 p i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- [n] placed on axis 0 of [n, 1, 1]. -/
theorem bcast_n_n11_apply {n : ℕ} (h : (⟨1, ![n]⟩ : Shape).BroadcastsInDim ⟨3, ![n, 1, 1]⟩ (![0] : Fin 1 → Fin 3))
    (x : (⟨1, ![n]⟩ : Shape).Idx → α) (b : Fin n) (u v : Fin 1) :
    broadcastInDim ⟨3, ![n, 1, 1]⟩ (![0] : Fin 1 → Fin 3) h x (ix3 b u v) = x (ix1 b) := by
  refine broadcastInDim_apply (![0] : Fin 1 → Fin 3) h x (ix3 b u v) (ix1 b) fun ax => ?_
  match ax with
  | ⟨0, _⟩ =>
    show b.val = if n = 1 then 0 else b.val
    split
    · have := b.isLt; omega
    · rfl

/-- [n, 1, 1] repeated over the two matrix axes of [n, a, b]. -/
theorem bcast_n11_nab_apply {n a b : ℕ} (h : (⟨3, ![n, 1, 1]⟩ : Shape).BroadcastsInDim ⟨3, ![n, a, b]⟩ (![0, 1, 2] : Fin 3 → Fin 3))
    (x : (⟨3, ![n, 1, 1]⟩ : Shape).Idx → α) (p : Fin n) (i : Fin a) (j : Fin b) :
    broadcastInDim ⟨3, ![n, a, b]⟩ (![0, 1, 2] : Fin 3 → Fin 3) h x (ix3 p i j) = x (ix3 p (0 : Fin 1) (0 : Fin 1)) := by
  refine broadcastInDim_apply (![0, 1, 2] : Fin 3 → Fin 3) h x (ix3 p i j) (ix3 p (0 : Fin 1) (0 : Fin 1)) fun ax => ?_
  match ax with
  | ⟨0, _⟩ =>
    show p.val = if n = 1 then 0 else p.val
    split
    · have := p.isLt; omega
    · rfl
  | ⟨1, _⟩ => rfl
  | ⟨2, _⟩ => rfl

/-- [a] placed on axis 1 of [1, a]. -/
theorem bcast_a_1a_apply {a : ℕ} (h : (⟨1, ![a]⟩ : Shape).BroadcastsInDim ⟨2, ![1, a]⟩ (![1] : Fin 1 → Fin 2))
    (x : (⟨1, ![a]⟩ : Shape).Idx → α) (u : Fin 1) (i : Fin a) :
    broadcastInDim ⟨2, ![1, a]⟩ (![1] : Fin 1 → Fin 2) h x (ix2 u i) = x (ix1 i) := by
  refine broadcastInDim_apply (![1] : Fin 1 → Fin 2) h x (ix2 u i) (ix1 i) fun ax => ?_
  match ax with
  | ⟨0, _⟩ =>
    show i.val = if a = 1 then 0 else i.val
    split
    · have := i.isLt; omega
    · rfl

/-- [1, a] repeated over the rows of [n, a]. -/
theorem bcast_1a_na_apply {n a : ℕ} (h : (⟨2, ![1, a]⟩ : Shape).BroadcastsInDim ⟨2, ![n, a]⟩ (![0, 1] : Fin 2 → Fin 2))
    (x : (⟨2, ![1, a]⟩ : Shape).Idx → α) (p : Fin n) (i : Fin a) :
    broadcastInDim ⟨2, ![n, a]⟩ (![0, 1] : Fin 2 → Fin 2) h x (ix2 p i) = x (ix2 (0 : Fin 1) i) := by
  refine broadcastInDim_apply (![0, 1] : Fin 2 → Fin 2) h x (ix2 p i) (ix2 (0 : Fin 1) i) fun ax => ?_
  match ax with
  | ⟨0, _⟩ => rfl
  | ⟨1, _⟩ =>
    show i.val = if a = 1 then 0 else i.val
    split
    · have := i.isLt; omega
    · rfl

/-- [n, a] placed on axes 0, 1 of [n, a, 1, 1]. -/
theorem bcast_na_na11_apply {n a : ℕ} (h : (⟨2, ![n, a]⟩ : Shape).BroadcastsInDim ⟨4, ![n, a, 1, 1]⟩ (![0, 1] : Fin 2 → Fin 4))
    (x : (⟨2, ![n, a]⟩ : Shape).Idx → α) (b : Fin n) (c : Fin a) (u v : Fin 1) :
    broadcastInDim ⟨4, ![n, a, 1, 1]⟩ (![0, 1] : Fin 2 → Fin 4) h x (ix4 b c u v) = x (ix2 b c) := by
  refine broadcastInDim_apply (![0, 1] : Fin 2 → Fin 4) h x (ix4 b c u v) (ix2 b c) fun ax => ?_
  match ax with
  | ⟨0, _⟩ =>
    show b.val = if n = 1 then 0 else b.val
    split
    · have := b.isLt; omega
    · rfl
  | ⟨1, _⟩ =>
    show c.val = if a = 1 then 0 else c.val
    split
    · have := c.isLt; omega
    · rfl

/-- [n, a, 1, 1] repeated over the two trailing axes of [n, a, h, w]. -/
theorem bcast_na11_nahw_apply {n a hh w : ℕ}
    (h : (⟨4, ![n, a, 1, 1]⟩ : Shape).BroadcastsInDim ⟨4, ![n, a, hh, w]⟩ (![0, 1, 2, 3] : Fin 4 → Fin 4))
    (x : (⟨4, ![n, a, 1, 1]⟩ : Shape).Idx → α) (b : Fin n) (c : Fin a) (y : Fin hh) (z : Fin w) :
    broadcastInDim ⟨4, ![n, a, hh, w]⟩ (![0, 1, 2, 3] : Fin 4 → Fin 4) h x (ix4 b c y z) = x (ix4 b c (0 : Fin 1) (0 : Fin 1)) := by
  refine broadcastInDim_apply (![0, 1, 2, 3] : Fin 4 → Fin 4) h x (ix4 b c y z) (ix4 b c (0 : Fin 1) (0 : Fin 1)) fun ax => ?_
  match ax with
  | ⟨0, _⟩ =>
    show b.val = if n = 1 then 0 else b.val
    split
    · have := b.isLt; omega
    · rfl
  | ⟨1, _⟩ =>
    show c.val = if a = 1 then 0 else c.val
    split
    · have := c.isLt; omega
    · rfl
  | ⟨2, _⟩ => rfl
  | ⟨3, _⟩ => rfl

/-- A number (a rank-0 array) repeated over a two-axis shape. -/
theorem bcast_scalar2_apply {d : Fin 2 → ℕ} (h : (⟨0, ![]⟩ : Shape).BroadcastsInDim ⟨2, d⟩ (![] : Fin 0 → Fin 2))
    (x : (⟨0, ![]⟩ : Shape).Idx → α) (j : (⟨2, d⟩ : Shape).Idx) :
    broadcastInDim ⟨2, d⟩ (![] : Fin 0 → Fin 2) h x j = x ix0 := by
  unfold broadcastInDim; exact congrArg x (funext fun a => a.elim0)

/-- A number repeated over a three-axis shape. -/
theorem bcast_scalar3_apply {d : Fin 3 → ℕ} (h : (⟨0, ![]⟩ : Shape).BroadcastsInDim ⟨3, d⟩ (![] : Fin 0 → Fin 3))
    (x : (⟨0, ![]⟩ : Shape).Idx → α) (j : (⟨3, d⟩ : Shape).Idx) :
    broadcastInDim ⟨3, d⟩ (![] : Fin 0 → Fin 3) h x j = x ix0 := by
  unfold broadcastInDim; exact congrArg x (funext fun a => a.elim0)

/-- A matrix transposed: entry (j, i) is entry (i, j). -/
theorem transpose_2d_apply {a b : ℕ} (x : (⟨2, ![a, b]⟩ : Shape).Idx → α)
    (h : (⟨2, ![a, b]⟩ : Shape).Transposes ([1, 0] : List (Fin 2)) ⟨2, ![b, a]⟩) (j : Fin b) (i : Fin a) :
    transpose ⟨2, ![b, a]⟩ ([1, 0] : List (Fin 2)) x h (ix2 j i) = x (ix2 i j) :=
  transpose_apply _ x h _ _ fun c => match c with | ⟨0, _⟩ => rfl | ⟨1, _⟩ => rfl

end LibBatchLayouts

end
-- ==== Proof.RefLayouts.lean ====
/-
  Three host re-layouts read at an entry, for any element type and any extents: a column [a, 1] repeated along the
  rows' entries [a, b]; a vector [a] kept as the column [a, 1]; a number repeated over a vector.
-/
import Idealize.ShloMosaic.Lib.ValueIdx
import Idealize.ShloMosaic.Lib.Pipeline.Value

noncomputable section

namespace Cert.RefLayouts

open Idealize.ShloMosaic Idealize.ShloMosaic.ValueIdx

variable {α : Type}

/-- [a, 1] repeated along the last axis of [a, b]: entry (p, q) is entry (p, 0). -/
theorem bcast_col_apply {a b : ℕ} (h : (⟨2, ![a, 1]⟩ : Shape).BroadcastsInDim ⟨2, ![a, b]⟩ (![0, 1] : Fin 2 → Fin 2))
    (x : (⟨2, ![a, 1]⟩ : Shape).Idx → α) (p : Fin a) (q : Fin b) :
    broadcastInDim ⟨2, ![a, b]⟩ (![0, 1] : Fin 2 → Fin 2) h x (ix2 p q) = x (ix2 p (0 : Fin 1)) := by
  refine broadcastInDim_apply (![0, 1] : Fin 2 → Fin 2) h x (ix2 p q) (ix2 p (0 : Fin 1)) fun ax => ?_
  match ax with
  | ⟨0, _⟩ =>
    show p.val = if a = 1 then 0 else p.val
    split
    · have := p.isLt; omega
    · rfl
  | ⟨1, _⟩ => rfl

/-- [a] placed on axis 0 of [a, 1]: entry (p, u) is entry p. -/
theorem bcast_vec_col_apply {a : ℕ} (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ (![0] : Fin 1 → Fin 2) h x (ix2 p u) = x (ix1 p) := by
  refine broadcastInDim_apply (![0] : Fin 1 → Fin 2) h x (ix2 p u) (ix1 p) fun ax => ?_
  match ax with
  | ⟨0, _⟩ =>
    show p.val = if a = 1 then 0 else p.val
    split
    · have := p.isLt; omega
    · rfl

/-- A number (a rank-0 array) repeated over a one-axis shape. -/
theorem bcast_scalar1_apply {d : Fin 1 → ℕ} (h : (⟨0, ![]⟩ : Shape).BroadcastsInDim ⟨1, d⟩ (![] : Fin 0 → Fin 1))
    (x : (⟨0, ![]⟩ : Shape).Idx → α) (j : (⟨1, d⟩ : Shape).Idx) :
    broadcastInDim ⟨1, d⟩ (![] : Fin 0 → Fin 1) h x j = x ix0 := by
  unfold broadcastInDim; exact congrArg x (funext fun a => a.elim0)

end Cert.RefLayouts

end
-- ==== Proof.RefStageLinear.lean ====
/-
  The linear steps of the reference read at an entry.

  A product of two matrices at exact arithmetic is, at entry (i, d), the sum over the contracted position k of the
  left factor at (i, k) times the right factor at (k, d); the right factors here are transposes, so the factor at
  (k, d) is the argument array at (d, k). A bias is first placed on a unit axis and then repeated over the rows, so
  at (i, d) it is the bias at d. Hence the hidden features are "hidT", each half of the logits (a column with one
  entry per node) is "halfT" of the hidden features, and the sum of the first half repeated along a row's entries
  and the transposed second half repeated over the rows is, at (i, j), the first half at i plus the second at j.
-/
import proofs.«124015_j46024869544127_2_alg».proof.Proof.RefTerm
import proofs.«124015_j46024869544127_2_alg».proof.Proof.Tables
import proofs.«124015_j46024869544127_2_alg».proof.Proof.LibMatIdx
import proofs.«124015_j46024869544127_2_alg».proof.Proof.LibBatchLayouts
import proofs.«124015_j46024869544127_2_alg».proof.Proof.RefLayouts
import Idealize.ShloMosaic.Lib.ValueIdx
import Idealize.ShloMosaic.PureOps.Ideal.Laws

noncomputable section

namespace Cert.RefSide

open Cert.ReferenceIdeal Cert.ReferenceIdeal.Gen Idealize.ShloMosaic Idealize.ShloMosaic.ValueIdx Cert.AttnSpec Cert.Tables
open scoped BigOperators

/-- The feature array [8192, 256] times a [256, 128] matrix, at entry (i, d). -/
theorem dotA_apply (l : FVec Ideal S8192x256 .f32) (r : FVec Ideal S256x128 .f32) (i : Fin 8192) (d : Fin 128) :
    Host.dotGeneral (F := Ideal) dot_S8192x256_S256x128_S8192x128_1_0_0_1_n_n none l r (ix2 i d)
      = ∑ k : Fin 256, l (ix2 i k) * r (ix2 k d) :=
  LibMatIdx.dot2_apply (M := 8192) (K := 256) (N := 128) dot_S8192x256_S256x128_S8192x128_1_0_0_1_n_n rfl rfl
    (fun _ _ => rfl) (fun _ _ => rfl) (fun _ _ => rfl) (fun _ _ => rfl) none l r (ix2 i d)

/-- A [8192, 128] matrix times a [128, 1] column, at entry (i, z). -/
theorem dotB_apply (l : FVec Ideal S8192x128 .f32) (r : FVec Ideal S128x1 .f32) (i : Fin 8192) (z : Fin 1) :
    Host.dotGeneral (F := Ideal) dot_S8192x128_S128x1_S8192x1_1_0_0_1_n_n none l r (ix2 i z)
      = ∑ k : Fin 128, l (ix2 i k) * r (ix2 k z) :=
  LibMatIdx.dot2_apply (M := 8192) (K := 128) (N := 1) dot_S8192x128_S128x1_S8192x1_1_0_0_1_n_n rfl rfl
    (fun _ _ => rfl) (fun _ _ => rfl) (fun _ _ => rfl) (fun _ _ => rfl) none l r (ix2 i z)

/-- A [8192, 8192] matrix times a [8192, 128] matrix, at entry (i, d). -/
theorem dotC_apply (l : FVec Ideal S8192x8192 .f32) (r : FVec Ideal S8192x128 .f32) (i : Fin 8192) (d : Fin 128) :
    Host.dotGeneral (F := Ideal) dot_S8192x8192_S8192x128_S8192x128_1_0_0_1_n_n none l r (ix2 i d)
      = ∑ k : Fin 8192, l (ix2 i k) * r (ix2 k d) :=
  LibMatIdx.dot2_apply (M := 8192) (K := 8192) (N := 128) dot_S8192x8192_S8192x128_S8192x128_1_0_0_1_n_n rfl rfl
    (fun _ _ => rfl) (fun _ _ => rfl) (fun _ _ => rfl) (fun _ _ => rfl) none l r (ix2 i d)

/-- The hidden features at (i, d). -/
theorem hidden_apply (a0 : FVec Ideal S8192x256 .f32) (a2 : FVec Ideal S128x256 .f32) (a3 : FVec Ideal S128 .f32)
    (i : Fin 8192) (d : Fin 128) : hidden a0 a2 a3 (ix2 i d) = hidT a0 a2 a3 i d := by
  unfold hidden hidT hid
  rw [addf_apply, dotA_apply, LibBatchLayouts.bcast_1a_na_apply, LibBatchLayouts.bcast_a_1a_apply]
  refine congrArg (· + a3 (ix1 d)) (Finset.sum_congr rfl fun k _ => ?_)
  rw [LibBatchLayouts.transpose_2d_apply]

/-- One half of the logits at node i (the column's one entry). -/
theorem halfCol_apply (h : FVec Ideal S8192x128 .f32) (w : FVec Ideal S1x128 .f32) (β : FVec Ideal S1 .f32)
    (i : Fin 8192) (z : Fin 1) : halfCol h w β (ix2 i z) = halfT (fun i d => h (ix2 i d)) w β i := by
  obtain rfl : z = 0 := Subsingleton.elim _ _
  unfold halfCol halfT half
  rw [addf_apply, dotB_apply, LibBatchLayouts.bcast_1a_na_apply, LibBatchLayouts.bcast_a_1a_apply]
  refine congrArg (· + β (ix1 (0 : Fin 1))) (Finset.sum_congr rfl fun k _ => ?_)
  rw [LibBatchLayouts.transpose_2d_apply]

/-- The sum of the two halves at the pair (i, j). -/
theorem logits0_apply (p q : FVec Ideal S8192x1 .f32) (i j : Fin 8192) :
    logits0 p q (ix2 i j) = p (ix2 i (0 : Fin 1)) + q (ix2 j (0 : Fin 1)) := by
  unfold logits0
  rw [addf_apply, Cert.RefLayouts.bcast_col_apply, LibBatchLayouts.bcast_1a_na_apply, LibBatchLayouts.transpose_2d_apply]

end Cert.RefSide

end
-- ==== Proof.RefStageSoftmax.lean ====
/-
  The entrywise and row-wise steps of the reference read at an entry.

  The mask keeps a logit where the adjacency entry is positive and puts the fill number elsewhere. The rectifier is
  written "x where x ≥ 0, slope · x elsewhere"; this is the leaky rectifier "x where 0 < x, slope · x elsewhere",
  because the two differ only at x = 0, where slope · 0 = 0 = x. A row's largest entry is the larger of minus
  infinity and the fold of max from minus infinity over the row, which is that fold. A vector of one number per
  row, kept as a column and repeated along the row's entries, reads the row's number at every entry; so the
  exponentials are exp (s i j − M i) and the normalised weights are those divided by their row's sum (the sum
  starts from the number zero, which adds nothing).
-/
import proofs.«124015_j46024869544127_2_alg».proof.Proof.RefTerm
import proofs.«124015_j46024869544127_2_alg».proof.Proof.Tables
import proofs.«124015_j46024869544127_2_alg».proof.Proof.LibBatchLayouts
import proofs.«124015_j46024869544127_2_alg».proof.Proof.RefLayouts
import Idealize.ShloMosaic.Lib.ValueIdx
import Idealize.ShloMosaic.PureOps.Ideal.Laws
import Idealize.ShloMosaic.PureOps.Reduce

noncomputable section

namespace Cert.RefSide

open Cert.ReferenceIdeal Cert.ReferenceIdeal.Gen Idealize.ShloMosaic Idealize.ShloMosaic.ValueIdx Cert.AttnSpec Cert.Tables
open scoped BigOperators

/-- The logits on an edge and the fill number elsewhere, at an entry. -/
theorem masked_apply (a1 : IVec S8192x8192 32) (x : FVec Ideal S8192x8192 .f32) (j : S8192x8192.Idx) :
    maskedT (edge a1) x j = if IntOp.cmpi .sgt (a1 j) 0#32 = 1 then x j else fill := by
  unfold maskedT edge
  rw [select_apply, LibBatchLayouts.bcast_scalar2_apply]
  rfl

/-- "x where x ≥ 0, slope · x elsewhere" is the leaky rectifier. -/
theorem lrelu_select (x : EReal) :
    Scalar.select (Ideal.cmp .oge x (Ideal.ofBits .f32 0x00000000#32)) x (Ideal.ofBits .f32 0x3C23D70A#32 * x) = lrelu x := by
  rw [Ideal.ofBits_zero_f32]
  show (if BitVec.ofBool (decide ((0 : EReal) ≤ x)) = 1 then x else slope * x) = if 0 < x then x else slope * x
  by_cases h0 : (0 : EReal) ≤ x
  · rw [decide_eq_true h0, if_pos (by decide)]
    by_cases hp : 0 < x
    · rw [if_pos hp]
    · have hx : x = 0 := le_antisymm (not_lt.mp hp) h0
      rw [if_neg hp, hx, mul_zero]
  · rw [decide_eq_false h0, if_neg (by decide), if_neg (fun hp => h0 (le_of_lt hp))]

/-- The rectifier step at an entry. -/
theorem rect_apply (x : FVec Ideal S8192x8192 .f32) (j : S8192x8192.Idx) : rect x j = lrelu (x j) := by
  unfold rect
  rw [select_apply, cmpf_apply, mulf_apply, LibBatchLayouts.bcast_scalar2_apply, LibBatchLayouts.bcast_scalar2_apply]
  exact lrelu_select (x j)

/-- The word of minus infinity denotes minus infinity. -/
theorem negInf_eq : Ideal.ofBits .f32 0xFF800000#32 = (⊥ : EReal) := by
  simp [Ideal.ofBits, Ideal.ieee]

/-- Row i's largest entry: the fold of max from minus infinity over the row. -/
theorem rowMaxT_apply (s : FVec Ideal S8192x8192 .f32) (i : Fin 8192) :
    rowMaxT s (ix1 i) = Finset.univ.fold max ⊥ (fun j : Fin 8192 => s (ix2 i j)) := by
  unfold rowMaxT
  rw [maximumf_apply, Cert.RefLayouts.bcast_scalar1_apply]
  have hred : S8192x8192.Reduces [1] S8192 := by decide
  have e := Host.reduce_eq_fold_single (FloatOps.maximumf (F := Ideal) (φ := .f32)) s
    (constant (F := Ideal) S_ .f32 0xFF800000#32) reducesTo_S8192x8192_S8192_d1 hred h_S_ (ix1 i)
  rw [e]
  show max (Ideal.ofBits .f32 0xFF800000#32)
      (Finset.fold max (Ideal.ofBits .f32 0xFF800000#32) (fun k : Fin 8192 => s (hred.lift (ix1 i) k)) Finset.univ) = _
  rw [negInf_eq, max_eq_right bot_le]
  refine congrArg (fun g => Finset.fold max (⊥ : EReal) g (Finset.univ : Finset (Fin 8192))) (funext fun k => congrArg s ?_)
  funext d
  match d with
  | ⟨0, _⟩ => exact Fin.ext rfl
  | ⟨1, _⟩ => exact Fin.ext rfl

/-- One number per row, repeated along the row's entries, at (i, j): the number of row i. -/
theorem colBack_apply (v : FVec Ideal S8192 .f32) (i j : Fin 8192) : colBack v (ix2 i j) = v (ix1 i) := by
  unfold colBack
  rw [Cert.RefLayouts.bcast_col_apply, Cert.RefLayouts.bcast_vec_col_apply]

/-- The exponentials at (i, j). -/
theorem expT_apply (s : FVec Ideal S8192x8192 .f32) (i j : Fin 8192) :
    expT s (ix2 i j) = Ideal.exp (s (ix2 i j) - rowMaxT s (ix1 i)) := by
  unfold expT
  show Ideal.exp (s (ix2 i j) - colBack (rowMaxT s) (ix2 i j)) = _
  rw [colBack_apply]

/-- The normalised weights at (i, j): the entry over its row's sum. -/
theorem softT_apply (e : FVec Ideal S8192x8192 .f32) (i j : Fin 8192) :
    softT e (ix2 i j) = Ideal.div (e (ix2 i j)) (∑ k : Fin 8192, e (ix2 i k)) := by
  unfold softT
  show Ideal.div (e (ix2 i j)) (colBack (Host.reduceAdd (F := Ideal) e (constant (F := Ideal) S_ .f32 0x00000000#32)
      reducesTo_S8192x8192_S8192_d1 h_S_) (ix2 i j)) = _
  rw [colBack_apply]
  have hred : S8192x8192.Reduces [1] S8192 := by decide
  show Ideal.div _ (Ideal.hostReduceAdd reducesTo_S8192x8192_S8192_d1 e (Ideal.ofBits .f32 0x00000000#32) (ix1 i)) = _
  rw [Ideal.hostReduceAdd_single reducesTo_S8192x8192_S8192_d1 hred, Ideal.ofBits_zero_f32, zero_add]
  show Ideal.div _ (∑ k : Fin 8192, e (hred.lift (ix1 i) k)) = _
  refine congrArg (Ideal.div _) (Finset.sum_congr rfl fun k _ => congrArg e ?_)
  funext d
  match d with
  | ⟨0, _⟩ => exact Fin.ext rfl
  | ⟨1, _⟩ => exact Fin.ext rfl

end Cert.RefSide

end
-- ==== Proof.RefValue.lean ====
/-
  The reference program's run and value: every weakly fair execution of the reference ends with its result array
  equal to the layer's result "G" (the softmax of whole rows of the logits applied to the hidden features) of the
  eight argument arrays, and with the argument arrays unchanged.

  The value: entry by entry the program's logits are "scoreT" of the argument arrays (the linear steps give the
  two halves, the mask and the rectifier give the score), each row's largest entry is "rowMax" of the scores, the
  exponentials and their row sums are those of "refOut", and the last product sums the normalised weights of row i
  against column d of the hidden features.
-/
import proofs.«124015_j46024869544127_2_alg».proof.Proof.RefRun
import proofs.«124015_j46024869544127_2_alg».proof.Proof.RefStageLinear
import proofs.«124015_j46024869544127_2_alg».proof.Proof.RefStageSoftmax

noncomputable section

namespace Cert.RefSide

open Cert.ReferenceIdeal Cert.ReferenceIdeal.Gen Idealize.ShloMosaic Idealize.ShloMosaic.TcCoe Idealize.SL.Sem Idealize.ShloMosaic.StableHlo
open Idealize.ShloMosaic.ValueIdx Cert.AttnSpec Cert.Tables
open scoped BigOperators

/-- The program's logits are the layer's scores. -/
theorem logitsT_apply (a0 : FVec Ideal S8192x256 .f32) (a1 : IVec S8192x8192 32) (a2 : FVec Ideal S128x256 .f32)
    (a3 : FVec Ideal S128 .f32) (a4 : FVec Ideal S1x128 .f32) (a5 : FVec Ideal S1 .f32) (a6 : FVec Ideal S1x128 .f32)
    (a7 : FVec Ideal S1 .f32) (i j : Fin 8192) :
    logitsT a0 a1 a2 a3 a4 a5 a6 a7 (ix2 i j) = scoreT a0 a1 a2 a3 a4 a5 a6 a7 i j := by
  have hh : (fun i d => hidden a0 a2 a3 (ix2 i d)) = hidT a0 a2 a3 :=
    funext fun i => funext fun d => hidden_apply a0 a2 a3 i d
  unfold logitsT scoreT score masked
  rw [rect_apply, masked_apply, logits0_apply, halfCol_apply, halfCol_apply, hh]

/-- The program's result at (i, d) is the layer's. -/
theorem refTerm_apply (a0 : FVec Ideal S8192x256 .f32) (a1 : IVec S8192x8192 32) (a2 : FVec Ideal S128x256 .f32)
    (a3 : FVec Ideal S128 .f32) (a4 : FVec Ideal S1x128 .f32) (a5 : FVec Ideal S1 .f32) (a6 : FVec Ideal S1x128 .f32)
    (a7 : FVec Ideal S1 .f32) (i : Fin 8192) (d : Fin 128) :
    refTerm a0 a1 a2 a3 a4 a5 a6 a7 (ix2 i d) = refOut (scoreT a0 a1 a2 a3 a4 a5 a6 a7) (hidT a0 a2 a3) i d := by
  have hL : ∀ i j : Fin 8192, logitsT a0 a1 a2 a3 a4 a5 a6 a7 (ix2 i j) = scoreT a0 a1 a2 a3 a4 a5 a6 a7 i j := logitsT_apply a0 a1 a2 a3 a4 a5 a6 a7
  have hM : ∀ i : Fin 8192, rowMaxT (logitsT a0 a1 a2 a3 a4 a5 a6 a7) (ix1 i) = rowMax (scoreT a0 a1 a2 a3 a4 a5 a6 a7) i := fun i => by
    rw [rowMaxT_apply]
    unfold rowMax
    exact congrArg (fun g => Finset.fold max (⊥ : EReal) g (Finset.univ : Finset (Fin 8192))) (funext fun j => hL i j)
  have hE : ∀ i j : Fin 8192, expT (logitsT a0 a1 a2 a3 a4 a5 a6 a7) (ix2 i j)
      = Ideal.exp (scoreT a0 a1 a2 a3 a4 a5 a6 a7 i j - rowMax (scoreT a0 a1 a2 a3 a4 a5 a6 a7) i) := fun i j => by
    rw [expT_apply, hL, hM]
  unfold refTerm refOut outT
  rw [dotC_apply]
  refine Finset.sum_congr rfl fun j _ => ?_
  rw [softT_apply, hE, hidden_apply]
  exact congrArg (fun t => Ideal.div (Ideal.exp (scoreT a0 a1 a2 a3 a4 a5 a6 a7 i j - rowMax (scoreT a0 a1 a2 a3 a4 a5 a6 a7) i)) t * hidT a0 a2 a3 j d)
    (Finset.sum_congr rfl fun k _ => hE i k)

/-- The program's result array is the layer's result array. -/
theorem refTerm_eq (a0 : FVec Ideal S8192x256 .f32) (a1 : IVec S8192x8192 32) (a2 : FVec Ideal S128x256 .f32)
    (a3 : FVec Ideal S128 .f32) (a4 : FVec Ideal S1x128 .f32) (a5 : FVec Ideal S1 .f32) (a6 : FVec Ideal S1x128 .f32)
    (a7 : FVec Ideal S1 .f32) : refTerm a0 a1 a2 a3 a4 a5 a6 a7 = G a0 a1 a2 a3 a4 a5 a6 a7 := by
  funext x
  obtain ⟨i, d, rfl⟩ : ∃ (i : Fin 8192) (d : Fin 128), x = ix2 i d := ⟨x 0, x 1, eq_ix2 x⟩
  exact refTerm_apply a0 a1 a2 a3 a4 a5 a6 a7 i d

/-- The fold of the operations at the result buffer is "refTerm" of the argument buffers' contents. -/
theorem fold_result (V : Valuation τ sig (Elt Ideal)) :
    after (ops (F := Ideal)) V (main_v34 : DevRef τ sig)
      = refTerm (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) := by
  after_results_simp
  rfl

/-- Every weakly fair execution of the reference terminates with its result array the layer's result of the argument
    arrays, and the argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v34)
          = Cert.Tables.G (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := Ideal)) _ _).mono (fun _ h c =>
    ⟨((h c main_v34).trans (fold_result (launchContents m c))).trans
        (refTerm_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp),
      (h c main_arg6).trans (by after_results_simp),
      (h c main_arg7).trans (by after_results_simp)⟩)
    (run_fold (F := Ideal) m ρ)

end Cert.RefSide

end
-- ==== Proof.LibERealMatrix.lean ====
/-
  General facts about finite sums and products of extended reals, as a matrix computation at exact
  arithmetic needs them.

  On the extended reals addition and multiplication are commutative and associative, so regrouping a
  sum (a reduction axis cut into blocks and accumulated block by block) needs no hypothesis. Distributing a
  product over a sum does need one: it fails at the infinities. A triple matrix product can therefore be
  re-associated, (sᵀ A) t = sᵀ (A t), once every entry is a real number; the proof passes to the reals, where
  it is the interchange of two finite sums.
-/
import Mathlib.Data.EReal.Operations
import Mathlib.Algebra.BigOperators.Fin
import Mathlib.Algebra.BigOperators.Ring.Finset
import Mathlib.Algebra.BigOperators.Group.Finset.Sigma
import Mathlib.Logic.Equiv.Fin.Basic
import Mathlib.Tactic.Ring

namespace LibERealMatrix

open Finset

/-- An extended real is FINITE when it is neither infinity: it is the image of a real number. -/
def Fin' (x : EReal) : Prop := x ≠ ⊤ ∧ x ≠ ⊥

theorem Fin'.coe (r : ℝ) : Fin' (r : EReal) := ⟨EReal.coe_ne_top r, EReal.coe_ne_bot r⟩

theorem Fin'.exists_real {x : EReal} (h : Fin' x) : ∃ r : ℝ, x = (r : EReal) :=
  ⟨x.toReal, (EReal.coe_toReal h.1 h.2).symm⟩

/-- A family of finite extended reals is the image of a family of reals. -/
theorem exists_real_family {ι : Type*} (f : ι → EReal) (h : ∀ i, Fin' (f i)) :
    ∃ g : ι → ℝ, ∀ i, f i = (g i : EReal) :=
  ⟨fun i => (f i).toReal, fun i => (EReal.coe_toReal (h i).1 (h i).2).symm⟩

/-- The inclusion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Fin'.add {x y : EReal} (hx : Fin' x) (hy : Fin' y) : Fin' (x + y) := by
  obtain ⟨a, rfl⟩ := hx.exists_real
  obtain ⟨b, rfl⟩ := hy.exists_real
  rw [← EReal.coe_add]; exact Fin'.coe _

theorem Fin'.mul {x y : EReal} (hx : Fin' x) (hy : Fin' y) : Fin' (x * y) := by
  obtain ⟨a, rfl⟩ := hx.exists_real
  obtain ⟨b, rfl⟩ := hy.exists_real
  rw [← EReal.coe_mul]; exact Fin'.coe _

/-- A finite sum of finite extended reals is finite. -/
theorem Fin'.sum {ι : Type*} (s : Finset ι) (f : ι → EReal) (h : ∀ i, Fin' (f i)) :
    Fin' (∑ i ∈ s, f i) := by
  obtain ⟨g, hg⟩ := exists_real_family f h
  simp only [hg]
  rw [← coe_sum]; exact Fin'.coe _

/-- A sum over `Fin (n * b)` is the sum over the `n` blocks of the sums over the `b` positions inside a
    block; the element at block `k`, position `r` is the one numbered `r + b * k`. No hypothesis: only
    commutativity and associativity of the addition are used. -/
theorem sum_fin_mul {M : Type*} [AddCommMonoid M] (n b : ℕ) (f : Fin (n * b) → M) :
    ∑ x, f x = ∑ k : Fin n, ∑ r : Fin b, f (finProdFinEquiv (k, r)) :=
  ((finProdFinEquiv (m := n) (n := b)).sum_comp f).symm.trans (Fintype.sum_prod_type _)

theorem finProdFinEquiv_val (n b : ℕ) (k : Fin n) (r : Fin b) :
    ((finProdFinEquiv (k, r) : Fin (n * b)) : ℕ) = r.val + b * k.val := rfl

/-- A scalar product whose index set is cut into `n` blocks of `b` is the sum of the `n` partial scalar
    products, whatever the entries (infinite ones included). -/
theorem dot_blocked (n b : ℕ) (u v : Fin (n * b) → EReal) :
    ∑ x, u x * v x = ∑ k : Fin n, ∑ r : Fin b, u (finProdFinEquiv (k, r)) * v (finProdFinEquiv (k, r)) :=
  sum_fin_mul n b fun x => u x * v x

/-- The same over ranges of naturals: the numbers below `n * b` are the `r + b * s` with `s < n`, `r < b`. -/
theorem sum_range_mul {M : Type*} [AddCommMonoid M] (n b : ℕ) (f : ℕ → M) :
    ∑ J ∈ range (n * b), f J = ∑ s ∈ range n, ∑ r ∈ range b, f (r + b * s) := by
  rw [← Fin.sum_univ_eq_sum_range f (n * b), sum_fin_mul n b (fun x => f x.val),
    ← Fin.sum_univ_eq_sum_range (fun s => ∑ r ∈ range b, f (r + b * s)) n]
  refine Finset.sum_congr rfl fun s _ => ?_
  rw [← Fin.sum_univ_eq_sum_range (fun r => f (r + b * s.val)) b]
  rfl

/-- An accumulator that starts at zero and takes four partial sums in turn ends at their sum. -/
theorem acc_four {M : Type*} [AddCommMonoid M] (d : Fin 4 → M) :
    (((0 + d 0) + d 1) + d 2) + d 3 = ∑ k, d k := by
  rw [Fin.sum_univ_four, zero_add]

/-- Re-association of a triple product of matrices with FINITE entries:
    `∑ j, (∑ i, s i * A i j) * t j = ∑ i, s i * ∑ j, A i j * t j`. With an infinite entry this fails
    (the product does not distribute over a sum of opposite infinities). -/
theorem sum_mul_sum_assoc {ι κ : Type*} [Fintype ι] [Fintype κ]
    (s : ι → EReal) (A : ι → κ → EReal) (t : κ → EReal)
    (hs : ∀ i, Fin' (s i)) (hA : ∀ i j, Fin' (A i j)) (ht : ∀ j, Fin' (t j)) :
    ∑ j, (∑ i, s i * A i j) * t j = ∑ i, s i * ∑ j, A i j * t j := by
  obtain ⟨s', hs'⟩ := exists_real_family s hs
  obtain ⟨A', hA'⟩ : ∃ g : ι → κ → ℝ, ∀ i j, A i j = (g i j : EReal) :=
    ⟨fun i j => (A i j).toReal, fun i j => (EReal.coe_toReal (hA i j).1 (hA i j).2).symm⟩
  obtain ⟨t', ht'⟩ := exists_real_family t ht
  have hL : ∀ j, (∑ i, s i * A i j) * t j = (((∑ i, s' i * A' i j) * t' j : ℝ) : EReal) := by
    intro j
    rw [EReal.coe_mul, coe_sum, ht']
    refine congrArg (· * (t' j : EReal)) (Finset.sum_congr rfl fun i _ => ?_)
    rw [hs', hA', EReal.coe_mul]
  have hR : ∀ i, s i * ∑ j, A i j * t j = ((s' i * ∑ j, A' i j * t' j : ℝ) : EReal) := by
    intro i
    rw [EReal.coe_mul, coe_sum, hs']
    refine congrArg ((s' i : EReal) * ·) (Finset.sum_congr rfl fun j _ => ?_)
    rw [hA', ht', EReal.coe_mul]
  simp only [hL, hR]
  rw [← coe_sum, ← coe_sum]
  refine congrArg _ ?_
  simp only [Finset.sum_mul, Finset.mul_sum]
  rw [Finset.sum_comm]
  exact Finset.sum_congr rfl fun i _ => Finset.sum_congr rfl fun j _ => by ring

end LibERealMatrix
-- ==== Proof.AlgebraReal.lean ====
/-
  Every hidden feature and every logit of the layer is a real number when the seven float argument arrays hold only
  real numbers: each is built from the entries by finitely many products and sums of reals, and the two constants
  of the rectifier and of the mask (the values of two finite f32 words) are reals.
-/
import proofs.«124015_j46024869544127_2_alg».proof.Proof.Tables
import proofs.«124015_j46024869544127_2_alg».proof.Proof.LibERealMatrix

noncomputable section

open scoped BigOperators

namespace Cert.Algebra

open Idealize.ShloMosaic Idealize.ShloMosaic.ValueIdx LibERealMatrix

/-- The mask value is a real number. -/
theorem fill_real : Fin' Cert.AttnSpec.fill := by
  have h : ∃ r : ℝ, Cert.AttnSpec.fill = (r : EReal) := by
    unfold Cert.AttnSpec.fill
    simp [Ideal.ofBits, Ideal.ieee, -EReal.coe_mul, -EReal.coe_neg]
  obtain ⟨r, hr⟩ := h
  rw [hr]
  exact Fin'.coe r

/-- The slope of the rectifier is a real number. -/
theorem slope_real : Fin' Cert.AttnSpec.slope := by
  have h : ∃ r : ℝ, Cert.AttnSpec.slope = (r : EReal) := by
    unfold Cert.AttnSpec.slope
    simp [Ideal.ofBits, Ideal.ieee, -EReal.coe_mul, -EReal.coe_neg]
  obtain ⟨r, hr⟩ := h
  rw [hr]
  exact Fin'.coe r

theorem hid_real (feat : Fin 8192 → Fin 256 → EReal) (W : Fin 128 → Fin 256 → EReal) (b : Fin 128 → EReal)
    (hfeat : ∀ i k, Fin' (feat i k)) (hW : ∀ d k, Fin' (W d k)) (hb : ∀ d, Fin' (b d)) (i : Fin 8192) (d : Fin 128) :
    Fin' (Cert.AttnSpec.hid feat W b i d) := by
  unfold Cert.AttnSpec.hid
  exact (Fin'.sum _ _ (fun k => (hfeat i k).mul (hW d k))).add (hb d)

theorem half_real (h : Fin 8192 → Fin 128 → EReal) (w : Fin 128 → EReal) (β : EReal)
    (hh : ∀ i d, Fin' (h i d)) (hw : ∀ d, Fin' (w d)) (hβ : Fin' β) (i : Fin 8192) :
    Fin' (Cert.AttnSpec.half h w β i) := by
  unfold Cert.AttnSpec.half
  exact (Fin'.sum _ _ (fun d => (hh i d).mul (hw d))).add hβ

theorem lrelu_real (x : EReal) (hx : Fin' x) : Fin' (Cert.AttnSpec.lrelu x) := by
  unfold Cert.AttnSpec.lrelu
  split
  · exact hx
  · exact slope_real.mul hx

theorem score_real (a1 a2 : Fin 8192 → EReal) (adj : Fin 8192 → Fin 8192 → BitVec 32)
    (h1 : ∀ i, Fin' (a1 i)) (h2 : ∀ i, Fin' (a2 i)) (i j : Fin 8192) :
    Fin' (Cert.AttnSpec.score a1 a2 adj i j) := by
  unfold Cert.AttnSpec.score
  apply lrelu_real
  unfold Cert.AttnSpec.masked
  split
  · exact (h1 i).add (h2 j)
  · exact fill_real

/-- The hidden features read from real argument arrays are reals. -/
theorem hidT_real (feat : (⟨2, ![8192, 256]⟩ : Shape).Idx → EReal) (W : (⟨2, ![128, 256]⟩ : Shape).Idx → EReal)
    (b : (⟨1, ![128]⟩ : Shape).Idx → EReal)
    (hfeat : Cert.Tables.AllReal feat) (hW : Cert.Tables.AllReal W) (hb : Cert.Tables.AllReal b)
    (i : Fin 8192) (d : Fin 128) : Fin' (Cert.Tables.hidT feat W b i d) :=
  hid_real _ _ _ (fun i k => hfeat (ix2 i k)) (fun d k => hW (ix2 d k)) (fun d => hb (ix1 d)) i d

/-- The logits read from real argument arrays are reals. -/
theorem scoreT_real (feat : (⟨2, ![8192, 256]⟩ : Shape).Idx → EReal) (adj : (⟨2, ![8192, 8192]⟩ : Shape).Idx → BitVec 32)
    (W : (⟨2, ![128, 256]⟩ : Shape).Idx → EReal) (b : (⟨1, ![128]⟩ : Shape).Idx → EReal)
    (w1 : (⟨2, ![1, 128]⟩ : Shape).Idx → EReal) (b1 : (⟨1, ![1]⟩ : Shape).Idx → EReal)
    (w2 : (⟨2, ![1, 128]⟩ : Shape).Idx → EReal) (b2 : (⟨1, ![1]⟩ : Shape).Idx → EReal)
    (hfeat : Cert.Tables.AllReal feat) (hW : Cert.Tables.AllReal W) (hb : Cert.Tables.AllReal b)
    (hw1 : Cert.Tables.AllReal w1) (hb1 : Cert.Tables.AllReal b1) (hw2 : Cert.Tables.AllReal w2)
    (hb2 : Cert.Tables.AllReal b2) (i j : Fin 8192) :
    Fin' (Cert.Tables.scoreT feat adj W b w1 b1 w2 b2 i j) := by
  unfold Cert.Tables.scoreT
  apply score_real
  · intro i
    exact half_real _ _ _ (hidT_real feat W b hfeat hW hb) (fun d => hw1 (ix2 (0 : Fin 1) d)) (hb1 (ix1 (0 : Fin 1))) i
  · intro i
    exact half_real _ _ _ (hidT_real feat W b hfeat hW hb) (fun d => hw2 (ix2 (0 : Fin 1) d)) (hb2 (ix1 (0 : Fin 1))) i

end Cert.Algebra

end
-- ==== Proof.LibOnlineSoftmax.lean ====
/-
  The online softmax law, over the extended reals.

  A row of scores is cut into blocks. The running merge of "AttnSpec" keeps a running maximum "m", a running
  normaliser "l" and a running weighted sum "acc"; passing a block, what was accumulated under the old maximum is
  rescaled by "exp (m - m')" and the block's own terms "exp (s - m')" are added. This module proves that, when no
  score is "⊤", the first block holds a finite score, the blocks after the "n"-th are all "⊥" and the values are
  finite, the merge's output after "n + 1" blocks, "acc * (1 / l)", is the softmax-weighted sum of the values over
  all "N" blocks: "∑ (exp (s - M) / ∑ exp (s - M)) * v" with "M" the largest score of the row.

  The argument: from the first block on the running maximum is a real number "M_k", the largest score of the first
  "k" blocks, and by induction on "k" the normaliser is "∑ exp (s - M_k)" and the weighted sum "∑ exp (s - M_k) * v",
  the sums over the first "k" blocks; the step is "exp (M - M') * exp (a - M) = exp (a - M')" for a real score "a"
  (both sides are "0" for the score "⊥"). All of it is arithmetic of real numbers: every term is the image of a
  real, and the image of a finite sum is the sum of the images. At the end the largest score of the whole row is
  "M_(n+1)", the blocks after the "n"-th add "exp ⊥ = 0", and "(∑ e * v) * (1 / L) = ∑ (e / L) * v" for the positive
  real "L".

  Nothing here mentions a program or an array: the lemma can serve any kernel whose merge is "AttnSpec"'s.
-/
import proofs.«124015_j46024869544127_2_alg».proof.Proof.AttnSpec
import Mathlib.Data.EReal.Operations
import Mathlib.Data.EReal.Inv
import Mathlib.Analysis.SpecialFunctions.Exp

noncomputable section

open scoped BigOperators

namespace Cert.AttnSpec.OnlineSoftmax

open Idealize.ShloMosaic

/-! ## Real numbers inside the extended reals -/

/-- The image of a finite sum of reals is the sum of the images. -/
theorem coe_sum {ι : Type} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A sum over "Fin N" of a function of the position that vanishes after position "n < N" is the sum over the first
    "n + 1" positions. -/
theorem sum_fin_dead (N n : ℕ) (hn : n < N) (g : ℕ → ℝ) (hg : ∀ b, n < b → g b = 0) :
    ∑ b : Fin N, g b.val = ∑ b ∈ Finset.range (n + 1), g b := by
  rw [Fin.sum_univ_eq_sum_range g N]
  symm
  apply Finset.sum_subset
  · intro b hb
    rw [Finset.mem_range] at hb ⊢
    omega
  · intro b _ hb
    rw [Finset.mem_range] at hb
    exact hg b (by omega)

/-! ## A weight as a real number -/

/-- "exp (x - M)" as a real: "0" for "x = ⊥". -/
def w (M : ℝ) (x : EReal) : ℝ := (Ideal.exp (x - (M : EReal))).toReal

theorem w_bot (M : ℝ) : w M ⊥ = 0 := by
  unfold w
  rw [EReal.bot_sub, Ideal.exp_bot, EReal.toReal_zero]

theorem w_coe (M a : ℝ) : w M (a : EReal) = Real.exp (a - M) := by
  unfold w
  rw [← EReal.coe_sub, Ideal.exp_coe, EReal.toReal_coe]

/-- Off "⊤", "exp (x - M)" is the image of the real weight. -/
theorem exp_sub_coe (M : ℝ) (x : EReal) (hx : x ≠ ⊤) :
    Ideal.exp (x - (M : EReal)) = ((w M x : ℝ) : EReal) := by
  induction x using EReal.rec with
  | bot => rw [w_bot, EReal.bot_sub, Ideal.exp_bot, EReal.coe_zero]
  | coe a => rw [w_coe, ← EReal.coe_sub, Ideal.exp_coe]
  | top => exact absurd rfl hx

theorem w_nonneg (M : ℝ) (x : EReal) : 0 ≤ w M x := by
  induction x using EReal.rec with
  | bot => rw [w_bot]
  | coe a => rw [w_coe]; exact (Real.exp_pos _).le
  | top => unfold w; rw [EReal.top_sub_coe, Ideal.exp_top, EReal.toReal_top]

/-- Moving the reference point from "M" to "M'" multiplies a weight by "exp (M - M')". -/
theorem w_rescale (M M' : ℝ) (x : EReal) (hx : x ≠ ⊤) : Real.exp (M - M') * w M x = w M' x := by
  induction x using EReal.rec with
  | bot => rw [w_bot, w_bot, mul_zero]
  | coe a =>
    rw [w_coe, w_coe, ← Real.exp_add]
    congr 1
    ring
  | top => exact absurd rfl hx

/-! ## The running maximum -/

section Merge

variable {C : Type} [Fintype C]

theorem blockMax_le (s : C → EReal) (x : EReal) : blockMax s ≤ x ↔ ∀ c, s c ≤ x := by
  unfold blockMax
  rw [Finset.fold_max_le]
  simp

theorem blockMax_lt_top (s : C → EReal) (hs : ∀ c, s c ≠ ⊤) : blockMax s < ⊤ := by
  unfold blockMax
  rw [Finset.fold_max_lt]
  exact ⟨bot_lt_top, fun c _ => lt_top_iff_ne_top.mpr (hs c)⟩

theorem st_succ (s : ℕ → C → EReal) (k : ℕ) :
    st s (k + 1) = (mNext (st s k).1 (s k), lNext (st s k).1 (st s k).2 (s k)) := rfl

theorem acc_succ (s v : ℕ → C → EReal) (k : ℕ) :
    acc s v (k + 1) = accNext (st s k).1 (acc s v k) (s k) (v k) := rfl

/-- The running maximum after "k" blocks is the least upper bound of the scores of the first "k" blocks. -/
theorem st_fst_le (s : ℕ → C → EReal) (k : ℕ) (x : EReal) :
    (st s k).1 ≤ x ↔ ∀ b, b < k → ∀ c, s b c ≤ x := by
  induction k with
  | zero =>
    constructor
    · intro _ b hb
      exact absurd hb (Nat.not_lt_zero b)
    · intro _
      exact bot_le
  | succ k ih =>
    rw [st_succ]
    show max (st s k).1 (blockMax (s k)) ≤ x ↔ _
    rw [max_le_iff, ih, blockMax_le]
    constructor
    · rintro ⟨h1, h2⟩ b hb c
      rcases Nat.lt_succ_iff_lt_or_eq.mp hb with h | h
      · exact h1 b h c
      · rw [h]; exact h2 c
    · intro h
      exact ⟨fun b hb c => h b (Nat.lt_succ_of_lt hb) c, fun c => h k (Nat.lt_succ_self k) c⟩

theorem st_fst_lt_top (s : ℕ → C → EReal) (hs : ∀ b c, s b c ≠ ⊤) (k : ℕ) : (st s k).1 < ⊤ := by
  induction k with
  | zero => exact bot_lt_top
  | succ k ih =>
    rw [st_succ]
    exact max_lt ih (blockMax_lt_top (s k) (hs k))

/-- From the first block on the running maximum is a real number. -/
theorem st_fst_real (s : ℕ → C → EReal) (hs : ∀ b c, s b c ≠ ⊤) (hlive : ∃ c, s 0 c ≠ ⊥) (k : ℕ) :
    ∃ M : ℝ, (st s (k + 1)).1 = (M : EReal) := by
  obtain ⟨c0, hc0⟩ := hlive
  have h1 : (st s (k + 1)).1 ≠ ⊤ := (st_fst_lt_top s hs (k + 1)).ne
  have h2 : (st s (k + 1)).1 ≠ ⊥ := by
    intro h
    have := (st_fst_le s (k + 1) (st s (k + 1)).1).mp le_rfl 0 (Nat.succ_pos k) c0
    rw [h] at this
    exact hc0 (le_bot_iff.mp this)
  exact ⟨(st s (k + 1)).1.toReal, (EReal.coe_toReal h1 h2).symm⟩

/-! ## One block's terms as real sums -/

theorem block_terms (m : EReal) (sk vk : C → EReal) (hsk : ∀ c, sk c ≠ ⊤)
    (hvk : ∀ c, vk c ≠ ⊤ ∧ vk c ≠ ⊥) (M' : ℝ) (hM' : mNext m sk = (M' : EReal)) :
    (∑ c, weight m sk c) = ((∑ c, w M' (sk c) : ℝ) : EReal)
      ∧ (∑ c, weight m sk c * vk c) = ((∑ c, w M' (sk c) * (vk c).toReal : ℝ) : EReal) := by
  constructor
  · rw [coe_sum]
    refine Finset.sum_congr rfl (fun c _ => ?_)
    unfold weight
    rw [hM', exp_sub_coe _ _ (hsk c)]
  · rw [coe_sum]
    refine Finset.sum_congr rfl (fun c _ => ?_)
    unfold weight
    rw [hM', exp_sub_coe _ _ (hsk c), EReal.coe_mul, EReal.coe_toReal (hvk c).1 (hvk c).2]

/-! ## The invariant of the merge -/

/-- After "k + 1" blocks the running maximum is a real "M", the normaliser is "∑ exp (s - M)" and the weighted sum is
    "∑ exp (s - M) * v", the sums over the first "k + 1" blocks. -/
theorem merge_inv (s v : ℕ → C → EReal) (hs : ∀ b c, s b c ≠ ⊤) (hlive : ∃ c, s 0 c ≠ ⊥)
    (hv : ∀ b c, v b c ≠ ⊤ ∧ v b c ≠ ⊥) (k : ℕ) :
    ∃ M : ℝ, (st s (k + 1)).1 = (M : EReal)
      ∧ (st s (k + 1)).2 = ((∑ b ∈ Finset.range (k + 1), ∑ c, w M (s b c) : ℝ) : EReal)
      ∧ acc s v (k + 1)
          = ((∑ b ∈ Finset.range (k + 1), ∑ c, w M (s b c) * (v b c).toReal : ℝ) : EReal) := by
  induction k with
  | zero =>
    obtain ⟨M, hM⟩ := st_fst_real s hs hlive 0
    have hM' : mNext (⊥ : EReal) (s 0) = (M : EReal) := hM
    obtain ⟨t1, t2⟩ := block_terms ⊥ (s 0) (v 0) (hs 0) (hv 0) M hM'
    refine ⟨M, hM, ?_, ?_⟩
    · show lNext (⊥ : EReal) 0 (s 0) = _
      unfold lNext
      rw [mul_zero, zero_add, t1, Finset.sum_range_one]
    · show accNext (⊥ : EReal) 0 (s 0) (v 0) = _
      unfold accNext
      rw [mul_zero, zero_add, t2, Finset.sum_range_one]
  | succ k ih =>
    obtain ⟨M, h1, h2, h3⟩ := ih
    obtain ⟨M', hM'⟩ := st_fst_real s hs hlive (k + 1)
    have hN : mNext (M : EReal) (s (k + 1)) = (M' : EReal) := by
      rw [← h1]; exact hM'
    obtain ⟨t1, t2⟩ := block_terms (M : EReal) (s (k + 1)) (v (k + 1)) (hs (k + 1)) (hv (k + 1)) M' hN
    have ha : alpha (M : EReal) (s (k + 1)) = ((Real.exp (M - M') : ℝ) : EReal) := by
      unfold alpha
      rw [hN, ← EReal.coe_sub, Ideal.exp_coe]
    refine ⟨M', hM', ?_, ?_⟩
    · rw [st_succ]
      show lNext (st s (k + 1)).1 (st s (k + 1)).2 (s (k + 1)) = _
      rw [h1, h2]
      unfold lNext
      rw [ha, t1, ← EReal.coe_mul, ← EReal.coe_add, Finset.sum_range_succ _ (k + 1)]
      congr 2
      rw [Finset.mul_sum]
      refine Finset.sum_congr rfl (fun b _ => ?_)
      rw [Finset.mul_sum]
      exact Finset.sum_congr rfl (fun c _ => w_rescale M M' _ (hs b c))
    · rw [acc_succ, h1, h3]
      unfold accNext
      rw [ha, t2, ← EReal.coe_mul, ← EReal.coe_add, Finset.sum_range_succ _ (k + 1)]
      congr 2
      rw [Finset.mul_sum]
      refine Finset.sum_congr rfl (fun b _ => ?_)
      rw [Finset.mul_sum]
      refine Finset.sum_congr rfl (fun c _ => ?_)
      rw [← mul_assoc, w_rescale M M' _ (hs b c)]

end Merge

end Cert.AttnSpec.OnlineSoftmax

/-! ## The law -/

namespace Cert.AttnSpec

open Idealize.ShloMosaic OnlineSoftmax

theorem out_eq_softmax {C : Type} [Fintype C] (N n : ℕ) (hn : n < N) (s v : ℕ → C → EReal)
    (hs : ∀ b c, s b c ≠ ⊤) (hlive : ∃ c, s 0 c ≠ ⊥) (hdead : ∀ b, n < b → ∀ c, s b c = ⊥)
    (hv : ∀ b c, v b c ≠ ⊤ ∧ v b c ≠ ⊥) :
    out s v (n + 1)
      = ∑ b : Fin N, ∑ c : C,
          Ideal.div (Ideal.exp (s b.val c - Finset.univ.fold max ⊥ (fun p : Fin N × C => s p.1.val p.2)))
            (∑ b' : Fin N, ∑ c' : C, Ideal.exp (s b'.val c' - Finset.univ.fold max ⊥ (fun p : Fin N × C => s p.1.val p.2)))
          * v b.val c := by
  obtain ⟨M, h1, h2, h3⟩ := merge_inv s v hs hlive hv n
  -- the largest score of the whole row is the running maximum after "n + 1" blocks
  have hF : Finset.univ.fold max ⊥ (fun p : Fin N × C => s p.1.val p.2) = (M : EReal) := by
    rw [← h1]
    apply eq_of_forall_ge_iff
    intro x
    rw [Finset.fold_max_le, st_fst_le]
    constructor
    · rintro ⟨_, h⟩ b hb c
      exact h (⟨b, by omega⟩, c) (Finset.mem_univ _)
    · intro h
      refine ⟨bot_le, fun p _ => ?_⟩
      by_cases hp : p.1.val < n + 1
      · exact h p.1.val hp p.2
      · rw [hdead p.1.val (by omega) p.2]
        exact bot_le
  rw [hF]
  -- the normaliser
  obtain ⟨L, hL⟩ : ∃ L : ℝ, L = ∑ b ∈ Finset.range (n + 1), ∑ c, w M (s b c) := ⟨_, rfl⟩
  rw [← hL] at h2
  have hLpos : 0 < L := by
    obtain ⟨c0, hc0⟩ := hlive
    have hpos : 0 < w M (s 0 c0) := by
      have e : s 0 c0 = ((s 0 c0).toReal : EReal) := (EReal.coe_toReal (hs 0 c0) hc0).symm
      rw [e, w_coe]
      exact Real.exp_pos _
    have l1 : w M (s 0 c0) ≤ ∑ c, w M (s 0 c) :=
      Finset.single_le_sum (f := fun c => w M (s 0 c)) (fun c _ => w_nonneg M _) (Finset.mem_univ c0)
    have l2 : (∑ c, w M (s 0 c)) ≤ L := by
      rw [hL]
      exact Finset.single_le_sum (f := fun b => ∑ c, w M (s b c))
        (fun b _ => Finset.sum_nonneg (fun c _ => w_nonneg M _)) (Finset.mem_range.mpr (Nat.succ_pos n))
    linarith
  have hL0 : L ≠ 0 := hLpos.ne'
  have hden : (∑ b' : Fin N, ∑ c' : C, Ideal.exp (s b'.val c' - (M : EReal))) = (L : EReal) := by
    rw [hL, ← sum_fin_dead N n hn (fun b => ∑ c, w M (s b c))
      (fun b hb => Finset.sum_eq_zero (fun c _ => by rw [hdead b hb c, w_bot])), coe_sum]
    refine Finset.sum_congr rfl (fun b _ => ?_)
    rw [coe_sum]
    exact Finset.sum_congr rfl (fun c _ => exp_sub_coe M _ (hs b.val c))
  rw [hden]
  -- the right side as the image of a real sum
  have hR : (∑ b : Fin N, ∑ c : C, Ideal.div (Ideal.exp (s b.val c - (M : EReal))) (L : EReal) * v b.val c)
      = ((∑ b ∈ Finset.range (n + 1), ∑ c, w M (s b c) * (1 / L) * (v b c).toReal : ℝ) : EReal) := by
    rw [← sum_fin_dead N n hn (fun b => ∑ c, w M (s b c) * (1 / L) * (v b c).toReal)
      (fun b hb => Finset.sum_eq_zero (fun c _ => by rw [hdead b hb c, w_bot, zero_mul, zero_mul])), coe_sum]
    refine Finset.sum_congr rfl (fun b _ => ?_)
    rw [coe_sum]
    refine Finset.sum_congr rfl (fun c _ => ?_)
    rw [Ideal.div_coe hL0, exp_sub_coe M _ (hs b.val c), EReal.coe_mul, EReal.coe_mul,
      EReal.coe_toReal (hv b.val c).1 (hv b.val c).2]
  rw [hR]
  -- the left side
  unfold out
  rw [h2, h3, ← EReal.coe_one, ← EReal.coe_div, ← EReal.coe_mul]
  congr 1
  rw [Finset.sum_mul]
  refine Finset.sum_congr rfl (fun b _ => ?_)
  rw [Finset.sum_mul]
  refine Finset.sum_congr rfl (fun c _ => ?_)
  ring

end Cert.AttnSpec

end
-- ==== Proof.AlgebraMerge.lean ====
/-
  The row accumulated block by block is the softmax of the whole row.

  For a table of real logits and a table of real hidden features, the running weighted sum over the running
  normaliser after all 8 blocks of 1024 columns of row i is the softmax of row i applied to column d of the hidden
  features. The law of the block-by-block merge gives the softmax as a sum over the 8 × 1024 pairs (block, position)
  with the maximum taken over those pairs; the pair (b, c) is the column b · 1024 + c, a one-to-one correspondence
  with the 8192 columns, so the sums and the maximum are those over the columns. The merge never reads the values
  of a block it has not reached, so the values past the last block may be taken to be 0.
-/
import proofs.«124015_j46024869544127_2_alg».proof.Proof.AttnSpec
import proofs.«124015_j46024869544127_2_alg».proof.Proof.LibOnlineSoftmax
import Mathlib.Data.Fintype.BigOperators
import Mathlib.Tactic.Linarith

noncomputable section

open scoped BigOperators

namespace Cert.Algebra

open Idealize.ShloMosaic Cert.AttnSpec Cert.AttnSpec.OnlineSoftmax

/-! ## Columns as pairs (block, position) -/

/-- Position c of block b is column b · 1024 + c. -/
def cut : Fin 8 × Fin 1024 ≃ Fin 8192 where
  toFun p := ⟨p.1.val * 1024 + p.2.val, by have h1 := p.1.isLt; have h2 := p.2.isLt; omega⟩
  invFun j := (⟨j.val / 1024, by have h := j.isLt; omega⟩, ⟨j.val % 1024, by omega⟩)
  left_inv := by
    rintro ⟨b, c⟩
    have hb := b.isLt
    have hc := c.isLt
    refine Prod.ext (Fin.ext ?_) (Fin.ext ?_)
    · show (b.val * 1024 + c.val) / 1024 = b.val
      omega
    · show (b.val * 1024 + c.val) % 1024 = c.val
      omega
  right_inv := by
    intro j
    refine Fin.ext ?_
    show j.val / 1024 * 1024 + j.val % 1024 = j.val
    omega

/-- A sum over the pairs (block, position) is the sum over the columns. -/
theorem sum_cut {M : Type} [AddCommMonoid M] (g : Fin 8192 → M) :
    ∑ b : Fin 8, ∑ c : Fin 1024, g (cut (b, c)) = ∑ j, g j :=
  ((Fintype.sum_prod_type (fun p => g (cut p))).symm).trans (cut.sum_comp g)

theorem blk_cut (f : Fin 8192 → EReal) (b : Fin 8) (c : Fin 1024) : blk f b.val c = f (cut (b, c)) := by
  unfold blk
  rw [dif_pos b.isLt]
  rfl

/-- The blocks of a row, with 0 past the last block. -/
def blk0 (f : Fin 8192 → EReal) (b : ℕ) (c : Fin 1024) : EReal :=
  if h : b < 8 then f ⟨b * 1024 + c.val, by have := c.isLt; omega⟩ else 0

theorem blk0_eq (f : Fin 8192 → EReal) (b : ℕ) (hb : b < 8) : blk0 f b = blk f b := by
  funext c
  unfold blk0 blk
  rw [dif_pos hb, dif_pos hb]

theorem blk0_cut (f : Fin 8192 → EReal) (b : Fin 8) (c : Fin 1024) : blk0 f b.val c = f (cut (b, c)) := by
  unfold blk0
  rw [dif_pos b.isLt]
  rfl

theorem blk0_real (f : Fin 8192 → EReal) (hf : ∀ j, f j ≠ ⊤ ∧ f j ≠ ⊥) (b : ℕ) (c : Fin 1024) :
    blk0 f b c ≠ ⊤ ∧ blk0 f b c ≠ ⊥ := by
  unfold blk0
  split
  · exact hf _
  · exact ⟨EReal.zero_ne_top, EReal.zero_ne_bot⟩

/-! ## Two facts about the merge -/

section Merge

variable {C : Type} [Fintype C]

/-- The running weighted sum after k blocks reads the values of the first k blocks only. -/
theorem acc_congr (s v v' : ℕ → C → EReal) (k : ℕ) (h : ∀ b, b < k → v b = v' b) : acc s v k = acc s v' k := by
  induction k with
  | zero => rfl
  | succ k ih =>
    rw [acc_succ, acc_succ, ih (fun b hb => h b (Nat.lt_succ_of_lt hb)), h k (Nat.lt_succ_self k)]

/-- From the first block on the running normaliser is not 0: it is a sum of nonnegative reals one of which, the
    weight of a real score of the first block, is positive. -/
theorem st_snd_ne_zero (s : ℕ → C → EReal) (hs : ∀ b c, s b c ≠ ⊤) (hlive : ∃ c, s 0 c ≠ ⊥) (k : ℕ) :
    (st s (k + 1)).2 ≠ 0 := by
  obtain ⟨M, _, h2, _⟩ := merge_inv s (fun _ _ => (0 : EReal)) hs hlive
    (fun _ _ => ⟨EReal.zero_ne_top, EReal.zero_ne_bot⟩) k
  rw [h2]
  obtain ⟨c0, hc0⟩ := hlive
  have hpos : 0 < w M (s 0 c0) := by
    have e : s 0 c0 = ((s 0 c0).toReal : EReal) := (EReal.coe_toReal (hs 0 c0) hc0).symm
    rw [e, w_coe]
    exact Real.exp_pos _
  have l1 : w M (s 0 c0) ≤ ∑ c, w M (s 0 c) :=
    Finset.single_le_sum (f := fun c => w M (s 0 c)) (fun c _ => w_nonneg M _) (Finset.mem_univ c0)
  have l2 : (∑ c, w M (s 0 c)) ≤ ∑ b ∈ Finset.range (k + 1), ∑ c, w M (s b c) :=
    Finset.single_le_sum (f := fun b => ∑ c, w M (s b c))
      (fun b _ => Finset.sum_nonneg (fun c _ => w_nonneg M _)) (Finset.mem_range.mpr (Nat.succ_pos k))
  have hL : (0 : ℝ) < ∑ b ∈ Finset.range (k + 1), ∑ c, w M (s b c) := by linarith
  intro h0
  exact hL.ne' (EReal.coe_eq_zero.mp h0)

end Merge

/-! ## The row -/

theorem kerOut_eq_refOut (s : Fin 8192 → Fin 8192 → EReal) (h : Fin 8192 → Fin 128 → EReal)
    (hs : ∀ i j, s i j ≠ ⊤ ∧ s i j ≠ ⊥) (hh : ∀ j d, h j d ≠ ⊤ ∧ h j d ≠ ⊥) (i : Fin 8192) (d : Fin 128) :
    kerOut s h i d = refOut s h i d := by
  have hS : ∀ b c, blk (s i) b c ≠ ⊤ := by
    intro b c
    unfold blk
    split
    · exact (hs i _).1
    · exact bot_ne_top
  have hlive : ∃ c, blk (s i) 0 c ≠ ⊥ := by
    refine ⟨0, ?_⟩
    unfold blk
    rw [dif_pos (by norm_num)]
    exact (hs i _).2
  have hdead : ∀ b, 7 < b → ∀ c, blk (s i) b c = ⊥ := by
    intro b hb c
    unfold blk
    rw [dif_neg (by omega)]
  have hl0 : (st (blk (s i)) 8).2 ≠ 0 := st_snd_ne_zero (blk (s i)) hS hlive 7
  have hacc : acc (blk (s i)) (blk (fun j => h j d)) 8 = acc (blk (s i)) (blk0 (fun j => h j d)) 8 :=
    acc_congr _ _ _ 8 (fun b hb => (blk0_eq _ b hb).symm)
  have key : out (blk (s i)) (blk0 (fun j => h j d)) 8 = _ :=
    out_eq_softmax 8 7 (by norm_num) (blk (s i)) (blk0 (fun j => h j d)) hS hlive hdead
      (blk0_real _ (fun j => hh j d))
  -- the quotient is the product with the reciprocal, the normaliser not being 0
  have hk : kerOut s h i d = out (blk (s i)) (blk0 (fun j => h j d)) 8 := by
    unfold kerOut out
    rw [hacc]
    unfold Ideal.div
    rw [if_neg hl0, one_div]
  -- the largest score over the pairs is the largest score of the row
  have hFM : Finset.univ.fold max ⊥ (fun p : Fin 8 × Fin 1024 => blk (s i) p.1.val p.2) = rowMax s i := by
    unfold rowMax
    apply eq_of_forall_ge_iff
    intro x
    rw [Finset.fold_max_le, Finset.fold_max_le]
    constructor
    · rintro ⟨hb, hp⟩
      refine ⟨hb, fun j _ => ?_⟩
      have e := hp (cut.symm j) (Finset.mem_univ _)
      rw [blk_cut, Prod.mk.eta, Equiv.apply_symm_apply] at e
      exact e
    · rintro ⟨hb, hj⟩
      refine ⟨hb, fun p _ => ?_⟩
      show blk (s i) p.1.val p.2 ≤ x
      rw [blk_cut]
      exact hj _ (Finset.mem_univ _)
  rw [hk, key, hFM]
  simp only [blk_cut, blk0_cut]
  have e1 : (∑ b : Fin 8, ∑ c : Fin 1024, Ideal.exp (s i (cut (b, c)) - rowMax s i))
      = ∑ j, Ideal.exp (s i j - rowMax s i) := sum_cut (fun j => Ideal.exp (s i j - rowMax s i))
  rw [e1]
  exact sum_cut (fun j => Ideal.div (Ideal.exp (s i j - rowMax s i)) (∑ j', Ideal.exp (s i j' - rowMax s i)) * h j d)

end Cert.Algebra

end
-- ==== Proof.Algebra.lean ====
/-
  The layer's result accumulated block by block is the layer's result as the softmax of whole rows, as arrays, when the
  seven float argument arrays hold only real numbers: then every logit and every hidden feature is a real number, and
  row by row, column by column the block-by-block merge ends at the softmax of the row.
-/
import proofs.«124015_j46024869544127_2_alg».proof.Proof.Tables
import proofs.«124015_j46024869544127_2_alg».proof.Proof.AlgebraReal
import proofs.«124015_j46024869544127_2_alg».proof.Proof.AlgebraMerge

noncomputable section

namespace Cert.Algebra

open Idealize.ShloMosaic

theorem GK_eq_G (feat : (⟨2, ![8192, 256]⟩ : Shape).Idx → EReal) (adj : (⟨2, ![8192, 8192]⟩ : Shape).Idx → BitVec 32)
    (W : (⟨2, ![128, 256]⟩ : Shape).Idx → EReal) (b : (⟨1, ![128]⟩ : Shape).Idx → EReal)
    (w1 : (⟨2, ![1, 128]⟩ : Shape).Idx → EReal) (b1 : (⟨1, ![1]⟩ : Shape).Idx → EReal)
    (w2 : (⟨2, ![1, 128]⟩ : Shape).Idx → EReal) (b2 : (⟨1, ![1]⟩ : Shape).Idx → EReal)
    (hfeat : Cert.Tables.AllReal feat) (hW : Cert.Tables.AllReal W) (hb : Cert.Tables.AllReal b)
    (hw1 : Cert.Tables.AllReal w1) (hb1 : Cert.Tables.AllReal b1) (hw2 : Cert.Tables.AllReal w2)
    (hb2 : Cert.Tables.AllReal b2) :
    Cert.Tables.GK feat adj W b w1 b1 w2 b2 = Cert.Tables.G feat adj W b w1 b1 w2 b2 := by
  funext x
  unfold Cert.Tables.GK Cert.Tables.G
  exact kerOut_eq_refOut _ _
    (scoreT_real feat adj W b w1 b1 w2 b2 hfeat hW hb hw1 hb1 hw2 hb2)
    (hidT_real feat W b hfeat hW hb) (x 0) (x 1)

end Cert.Algebra

end
-- ==== Proof.LibFiniteEntries.lean ====
/-
  A conjunction "every entry's absolute value is below +∞", read back at exact arithmetic.

  On the extended reals the absolute value of x is max(x, -x), and it is below +∞ exactly when x is neither infinity,
  that is, when x is (the image of) a real number: x = ↑(x.toReal). A precondition that takes the conjunction of
  |x_i| < +∞ over all entries of an array (a reduction by "and" of the one-bit comparisons into a single result, from the
  constant 1) and states that the result is 1 therefore says that the array is the image of its real parts.
  Stated for f32 arrays of any shape, the bound being any array that reads the word of +∞ (0x7F800000) everywhere.
-/
import Idealize.ShloMosaic.PureOps.Ideal
import Idealize.ShloMosaic.PureOps.Ideal.Laws
import Idealize.ShloMosaic.Lib.ReduceAll

noncomputable section

namespace LibFiniteEntries

open Idealize.ShloMosaic

/-- The word 0x7F800000 denotes +∞. -/
theorem ofBits_inf : Ideal.ofBits .f32 0x7F800000#32 = ⊤ := by
  simp [Ideal.ofBits, Ideal.ieee]

/-- An extended real whose absolute value max(x, -x) compares below +∞ is the image of its real part. -/
theorem real_of_abs_lt (x : EReal)
    (h : FloatOps.cmpf (F := Ideal) (φ := .f32) .olt (FloatOps.hostAbsf x) (Ideal.ofBits .f32 0x7F800000#32) = 1#1) :
    x = ((x.toReal : ℝ) : EReal) := by
  rw [Ideal.cmpf_def, Ideal.hostAbsf_def, Ideal.absf_def, ofBits_inf] at h
  induction x using EReal.rec with
  | bot => simp [Ideal.cmp] at h
  | top => simp [Ideal.cmp] at h
  | coe r => rfl

/-- The scalar shape has one index. -/
instance : Subsingleton (⟨0, ![]⟩ : Shape).Idx := ⟨fun a b => funext fun d => d.elim0⟩

/-- If the conjunction over ALL entries of "|x_i| < bound_i" is 1, the bound reading +∞ everywhere, then the array x is
    the image of its real parts. -/
theorem real_of_all_abs_lt {s t u : Shape} {axes : List (Fin s.rank)} [Subsingleton t.Idx] (x bound : FVec Ideal s .f32)
    (hb : ∀ i, bound i = Ideal.ofBits .f32 0x7F800000#32) (init : u.Idx → BitVec 1) (h : s.ReducesTo axes t) (hu : 0 < u.numel)
    (j : t.Idx) (e : Host.reduce IntOp.andi (cmpf .olt (Host.absf x) bound) init h hu j = 1#1) :
    x = fun i => (((x i).toReal : ℝ) : EReal) :=
  funext fun i => real_of_abs_lt (x i) (by
    have hi : FloatOps.cmpf (F := Ideal) (φ := .f32) .olt (FloatOps.hostAbsf (x i)) (bound i) = 1#1 :=
      Host.reduce_andi_all _ init h hu j e i
    rw [hb i] at hi
    exact hi)

end LibFiniteEntries

end
-- ==== Proof.Finite.lean ====
/-
  The precondition "every float input is finite", decoded: under it every entry of each of the seven float argument
  arrays is a real number. The precondition is a conjunction, over the seven arrays, of the conjunction over all entries
  of "|x| < +∞"; at exact arithmetic "|x| < +∞" says that x is neither infinity.
-/
import proofs.«124015_j46024869544127_2_alg».proof.Defs
import proofs.«124015_j46024869544127_2_alg».proof.Proof.Tables
import proofs.«124015_j46024869544127_2_alg».proof.Proof.LibFiniteEntries
import Idealize.ShloMosaic.Lib.ValueIdx
import Idealize.ShloMosaic.Lib.Affine

noncomputable section

namespace Cert.Finite

open Idealize.ShloMosaic Idealize.SL.Sem

/-- An array that is the image of its real parts has only real entries. -/
theorem allReal_of_eq {s : Shape} (x : s.Idx → EReal) (h : x = fun i => (((x i).toReal : ℝ) : EReal)) :
    Cert.Tables.AllReal x := by
  intro i
  have e := congrFun h i
  rw [e]
  exact ⟨EReal.coe_ne_top _, EReal.coe_ne_bot _⟩

theorem of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.Tables.AllReal (m ((c.tc : Thread Cert.KernelIdeal.nD Cert.KernelIdeal.τ).loc Cert.KernelIdeal.main_arg0))
      ∧ Cert.Tables.AllReal (m ((c.tc : Thread Cert.KernelIdeal.nD Cert.KernelIdeal.τ).loc Cert.KernelIdeal.main_arg2))
      ∧ Cert.Tables.AllReal (m ((c.tc : Thread Cert.KernelIdeal.nD Cert.KernelIdeal.τ).loc Cert.KernelIdeal.main_arg3))
      ∧ Cert.Tables.AllReal (m ((c.tc : Thread Cert.KernelIdeal.nD Cert.KernelIdeal.τ).loc Cert.KernelIdeal.main_arg4))
      ∧ Cert.Tables.AllReal (m ((c.tc : Thread Cert.KernelIdeal.nD Cert.KernelIdeal.τ).loc Cert.KernelIdeal.main_arg5))
      ∧ Cert.Tables.AllReal (m ((c.tc : Thread Cert.KernelIdeal.nD Cert.KernelIdeal.τ).loc Cert.KernelIdeal.main_arg6))
      ∧ Cert.Tables.AllReal (m ((c.tc : Thread Cert.KernelIdeal.nD Cert.KernelIdeal.τ).loc Cert.KernelIdeal.main_arg7)) := by
  have h0 := congrFun (h c) ValueIdx.ix0
  unfold Cert.Pre_finite_inputs.fn Cert.Pre_finite_inputs.fn_part1 at h0
  dsimp only at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  refine ⟨?_, ?_, ?_, ?_, ?_, ?_, ?_⟩
  · exact allReal_of_eq _ (LibFiniteEntries.real_of_all_abs_lt _ _ (fun _ => rfl) _ _ _ _ e0)
  · exact allReal_of_eq _ (LibFiniteEntries.real_of_all_abs_lt _ _ (fun _ => rfl) _ _ _ _ e2)
  · exact allReal_of_eq _ (LibFiniteEntries.real_of_all_abs_lt _ _ (fun _ => rfl) _ _ _ _ e3)
  · exact allReal_of_eq _ (LibFiniteEntries.real_of_all_abs_lt _ _ (fun _ => rfl) _ _ _ _ e4)
  · exact allReal_of_eq _ (LibFiniteEntries.real_of_all_abs_lt _ _ (fun _ => rfl) _ _ _ _ e5)
  · exact allReal_of_eq _ (LibFiniteEntries.real_of_all_abs_lt _ _ (fun _ => rfl) _ _ _ _ e6)
  · exact allReal_of_eq _ (LibFiniteEntries.real_of_all_abs_lt _ _ (fun _ => rfl) _ _ _ _ e7)

end Cert.Finite

end
-- ==== Proof.lean ====
/-
  Both programs compute one layer of graph attention over 8192 nodes: a linear map of the node features to 128 hidden
  features, two linear functionals of the hidden features giving the halves of the attention logits, the logit
  a1 i + a2 j of every edge i → j (a large negative finite number for a non-edge) through a leaky rectifier, a softmax
  along each row, and the resulting weights applied to the hidden features.

  The reference does it with whole arrays: the row maximum, exp (s - max), the row sum, the quotient, one matrix product.
  The kernel program does it in two kernels: the first computes the hidden features and the two halves, 1024 rows at a
  time; the second walks the 8 × 8 grid of 1024 × 1024 tiles of the logits and keeps, for each row, a running maximum,
  a running normaliser and a running weighted sum, rescaling by exp (old max - new max) when the maximum moves, and divides
  at the last tile of a row.

  At exact arithmetic the two are the same function of the inputs when every float input is finite: every logit is then
  a real number, the running maximum after the last tile is the row maximum, the normaliser is the row's sum of
  exp (s - max) — at least 1, so the division is by a positive real — and (∑ e · h) / S = ∑ (e / S) · h.

  The three frames: each kernel program is run as two kernel regions among four reshapes (the same text read at the word
  level and at exact arithmetic); the reference's run is a straight line of host operations. No operation was rewritten
  between the printed kernel and its idealization, so that claim is trivial.
-/
import proofs.«124015_j46024869544127_2_alg».proof.Defs
import proofs.«124015_j46024869544127_2_alg».proof.Proof.Gen.Kernel
import proofs.«124015_j46024869544127_2_alg».proof.Proof.Gen.KernelIdeal
import proofs.«124015_j46024869544127_2_alg».proof.Proof.Gen.ReferenceIdeal
import proofs.«124015_j46024869544127_2_alg».proof.Proof.Gen.Pre_finite_inputs
import proofs.«124015_j46024869544127_2_alg».proof.Proof.K.MainRun
import proofs.«124015_j46024869544127_2_alg».proof.Proof.KI.MainRun
import proofs.«124015_j46024869544127_2_alg».proof.Proof.KI.KValue
import proofs.«124015_j46024869544127_2_alg».proof.Proof.RefValue
import proofs.«124015_j46024869544127_2_alg».proof.Proof.Algebra
import proofs.«124015_j46024869544127_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel program runs, and its argument arrays end unchanged. -/
theorem frame_k : Cert.frame_Kernel := fun m ρ _ =>
  (θ_run Cert.Kernel.defs _ _).mono (fun _ h c => (h c).2) (Cert.Kernel.Hand.run_all (F := Bits) m ρ)

/-- The same program at exact arithmetic. -/
theorem frame_ki : Cert.frame_KernelIdeal := fun m ρ _ =>
  (θ_run Cert.KernelIdeal.defs _ _).mono (fun _ h c => (h c).2) (Cert.KernelIdeal.Hand.run_all (F := Ideal) m ρ)

/-- The reference at exact arithmetic. -/
theorem frame_ri : Cert.frame_ReferenceIdeal := fun m ρ _ =>
  (θ_run Cert.ReferenceIdeal.defs _ _).mono (fun _ h c => (h c).2) (Cert.RefSide.run m ρ)

/-- No operation was rewritten between the printed kernel and its idealization. -/
theorem preserves : Cert.preserves_Kernel_KernelIdeal := trivial

/-- From memories agreeing on the arguments, all of them finite, both programs end with the result array at the
    softmax-weighted hidden features: the kernel's in the block-by-block form, which is the whole-row form by the merge
    law; the reference's in the whole-row form. -/
theorem algebraic : Cert.algebraic_KernelIdeal_ReferenceIdeal := by
  intro m ρ m' ρ' hpre hagree
  refine ⟨fun c => Cert.Tables.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ⟨(h c).1.trans ?_, (h c).2⟩)
      (Cert.KernelIdeal.Hand.run_all (F := Ideal) m ρ)
    obtain ⟨h0, h2, h3, h4, h5, h6, h7⟩ := Cert.Finite.of_pre m hpre c
    exact (Cert.KernelIdeal.HandValue.kvalue m ρ c).trans (Cert.Algebra.GK_eq_G _ _ _ _ _ _ _ _ h0 h2 h3 h4 h5 h6 h7)
  · refine (θ_run Cert.ReferenceIdeal.defs _ _).mono (fun r h c => ⟨(h c).1.trans ?_, (h c).2⟩)
      (Cert.RefSide.run m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
